-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v13)) (v6 : (c : Dev Cert.KernelIdeal.nD) → Buf (Elt Ideal) ((c.tc : Thread Cert.KernelIdeal.nD Cert.KernelIdeal.τ).loc Cert.KernelIdeal.main_v24)) (v7 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_v24) = v6 c
          ∧ r.2.mem ((c.tc : Thread Cert.KernelIdeal.nD Cert.KernelIdeal.τ).loc Cert.KernelIdeal.main_v25) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v151) = v4 c
          ∧ r.2.mem ((c.tc : Thread Cert.ReferenceIdeal.nD Cert.ReferenceIdeal.τ).loc Cert.ReferenceIdeal.main_v158) = v5 c
          ∧ r.2.mem ((c.tc : Thread Cert.ReferenceIdeal.nD Cert.ReferenceIdeal.τ).loc Cert.ReferenceIdeal.main_v61) = v6 c
          ∧ r.2.mem ((c.tc : Thread Cert.ReferenceIdeal.nD Cert.ReferenceIdeal.τ).loc Cert.ReferenceIdeal.main_v137) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x768 : Shape := ⟨4, ![8, 16, 512, 768]⟩
abbrev S8x16x512 : Shape := ⟨3, ![8, 16, 512]⟩
abbrev S8x16x512x512 : Shape := ⟨4, ![8, 16, 512, 512]⟩
abbrev S8 : Shape := ⟨1, ![8]⟩
abbrev S768x2 : Shape := ⟨2, ![768, 2]⟩
abbrev S2 : Shape := ⟨1, ![2]⟩
abbrev S768x1 : Shape := ⟨2, ![768, 1]⟩
abbrev S1 : Shape := ⟨1, ![1]⟩
abbrev S2x1 : Shape := ⟨2, ![2, 1]⟩
abbrev S_ : Shape := ⟨0, ![]⟩

class Facts : Prop where
  bcast_S_S8x16x512x768 : S_.BroadcastsInDim S8x16x512x768 (![] : Fin 0 → Fin S8x16x512x768.rank)
  reducesTo_S8x16x512x768_S_d0_1_2_3 : S8x16x512x768.ReducesTo [0, 1, 2, 3] S_
  h_S_ : 0 < S_.numel
  bcast_S_S768x2 : S_.BroadcastsInDim S768x2 (![] : Fin 0 → Fin S768x2.rank)
  reducesTo_S768x2_S_d0_1 : S768x2.ReducesTo [0, 1] S_
  bcast_S_S2 : S_.BroadcastsInDim S2 (![] : Fin 0 → Fin S2.rank)
  reducesTo_S2_S_d0 : S2.ReducesTo [0] S_
  bcast_S_S768x1 : S_.BroadcastsInDim S768x1 (![] : Fin 0 → Fin S768x1.rank)
  reducesTo_S768x1_S_d0_1 : S768x1.ReducesTo [0, 1] S_
  bcast_S_S1 : S_.BroadcastsInDim S1 (![] : Fin 0 → Fin S1.rank)
  reducesTo_S1_S_d0 : S1.ReducesTo [0] S_
  bcast_S_S2x1 : S_.BroadcastsInDim S2x1 (![] : Fin 0 → Fin S2x1.rank)
  reducesTo_S2x1_S_d0_1 : S2x1.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg5 : IVec S8 32) (main_v33 : IVec S_ 1) : IVec S_ 1 :=
  let main_c_12 : IVec S_ 32 := constantI S_ 32 0#32
  let main_v34 : IVec S8 32 := broadcastInDim S8 ![] bcast_S_S8 main_c_12
  let main_v35 : IVec S8 1 := cmpi .sge main_arg5 main_v34
  let main_c_13 : IVec S_ 32 := constantI S_ 32 512#32
  let main_v36 : IVec S8 32 := broadcastInDim S8 ![] bcast_S_S8 main_c_13
  let main_v37 : IVec S8 1 := cmpi .sle main_arg5 main_v36
  let main_v38 : IVec S8 1 := andi main_v35 main_v37
  let main_c_14 : IVec S_ 1 := constantI S_ 1 1#1
  let main_v39 : IVec S_ 1 := (fun x v => Host.reduce IntOp.andi x v reducesTo_S8_S_d0 h_S_) main_v38 main_c_14
  let main_v40 : IVec S_ 1 := andi main_v33 main_v39
  main_v40

def fn_part1 {F : FTy → Type} [FloatOps F] (main_arg5 : IVec S8 32) (main_arg9 : FVec F S1 .f32) (main_arg10 : FVec F S2x1 .f32) (main_arg11 : FVec F S1 .f32) (main_v13 : IVec S_ 1) (main_v16 : IVec S768x1 1) : IVec S_ 1 :=
  let main_c_5 : IVec S_ 1 := constantI S_ 1 1#1
  let main_v17 : IVec S_ 1 := (fun x v => Host.reduce IntOp.andi x v reducesTo_S768x1_S_d0_1 h_S_) main_v16 main_c_5
  let main_v18 : IVec S_ 1 := andi main_v13 main_v17
  let main_v19 : FVec F S1 .f32 := Host.absf main_arg9
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S2x1 .f32 := Host.absf main_arg10
  let main_cst_8 : FVec F S_ .f32 := constant S_ .f32 0x7F800000#32
  let main_v25 : FVec F S2x1 .f32 := broadcastInDim S2x1 ![] bcast_S_S2x1 main_cst_8
  let main_v26 : IVec S2x1 1 := cmpf .olt main_v24 main_v25
  let main_c_9 : IVec S_ 1 := constantI S_ 1 1#1
  let main_v27 : IVec S_ 1 := (fun x v => Host.reduce IntOp.andi x v reducesTo_S2x1_S_d0_1 h_S_) main_v26 main_c_9
  let main_v28 : IVec S_ 1 := andi main_v23 main_v27
  let main_v29 : FVec F S1 .f32 := Host.absf main_arg11
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg5 main_v33

def fn {F : FTy → Type} [FloatOps F] (main_arg0 : FVec F S8x16x512x768 .f32) (main_arg1 : IVec S8x16x512 32) (main_arg2 : IVec S8x16x512 32) (main_arg3 : IVec S8x16x512x512 32) (main_arg4 : IVec S8x16x512x512 32) (main_arg5 : IVec S8 32) (main_arg6 : FVec F S768x2 .f32) (main_arg7 : FVec F S2 .f32) (main_arg8 : FVec F S768x1 .f32) (main_arg9 : FVec F S1 .f32) (main_arg10 : FVec F S2x1 .f32) (main_arg11 : FVec F S1 .f32) : IVec S_ 1 :=
  let main_v0 : FVec F S8x16x512x768 .f32 := Host.absf main_arg0
  let main_cst : FVec F S_ .f32 := constant S_ .f32 0x7F800000#32
  let main_v1 : FVec F S8x16x512x768 .f32 := broadcastInDim S8x16x512x768 ![] bcast_S_S8x16x512x768 main_cst
  let main_v2 : IVec S8x16x512x768 1 := cmpf .olt main_v0 main_v1
  let main_c : IVec S_ 1 := constantI S_ 1 1#1
  let main_v3 : IVec S_ 1 := (fun x v => Host.reduce IntOp.andi x v reducesTo_S8x16x512x768_S_d0_1_2_3 h_S_) main_v2 main_c
  let main_v4 : FVec F S768x2 .f32 := Host.absf main_arg6
  let main_cst_0 : FVec F S_ .f32 := constant S_ .f32 0x7F800000#32
  let main_v5 : FVec F S768x2 .f32 := broadcastInDim S768x2 ![] bcast_S_S768x2 main_cst_0
  let main_v6 : IVec S768x2 1 := cmpf .olt main_v4 main_v5
  let main_c_1 : IVec S_ 1 := constantI S_ 1 1#1
  let main_v7 : IVec S_ 1 := (fun x v => Host.reduce IntOp.andi x v reducesTo_S768x2_S_d0_1 h_S_) main_v6 main_c_1
  let main_v8 : IVec S_ 1 := andi main_v3 main_v7
  let main_v9 : FVec F S2 .f32 := Host.absf main_arg7
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S768x1 .f32 := Host.absf main_arg8
  let main_cst_4 : FVec F S_ .f32 := constant S_ .f32 0x7F800000#32
  let main_v15 : FVec F S768x1 .f32 := broadcastInDim S768x1 ![] bcast_S_S768x1 main_cst_4
  let main_v16 : IVec S768x1 1 := cmpf .olt main_v14 main_v15
  fn_part1 (F := F) main_arg5 main_arg9 main_arg10 main_arg11 main_v13 main_v16
-- ==== Kernel.lean ====
abbrev S8x16x512x768 : Shape := ⟨4, ![8, 16, 512, 768]⟩
abbrev S8x16x512 : Shape := ⟨3, ![8, 16, 512]⟩
abbrev S8x16x512x512 : Shape := ⟨4, ![8, 16, 512, 512]⟩
abbrev S8 : Shape := ⟨1, ![8]⟩
abbrev S768x2 : Shape := ⟨2, ![768, 2]⟩
abbrev S2 : Shape := ⟨1, ![2]⟩
abbrev S768x1 : Shape := ⟨2, ![768, 1]⟩
abbrev S1 : Shape := ⟨1, ![1]⟩
abbrev S2x1 : Shape := ⟨2, ![2, 1]⟩
abbrev S8x16x1x512 : Shape := ⟨4, ![8, 16, 1, 512]⟩
abbrev S8x16x6x128 : Shape := ⟨4, ![8, 16, 6, 128]⟩
abbrev S1x1x512x768 : Shape := ⟨4, ![1, 1, 512, 768]⟩
abbrev S1x1x512x512 : Shape := ⟨4, ![1, 1, 512, 512]⟩
abbrev S1x1x1x512 : Shape := ⟨4, ![1, 1, 1, 512]⟩
abbrev S1x1x6x128 : Shape := ⟨4, ![1, 1, 6, 128]⟩
abbrev S512x768 : Shape := ⟨2, ![512, 768]⟩
abbrev S512x2 : Shape := ⟨2, ![512, 2]⟩
abbrev S1x2 : Shape := ⟨2, ![1, 2]⟩
abbrev S512x1 : Shape := ⟨2, ![512, 1]⟩
abbrev S512 : Shape := ⟨1, ![512]⟩
abbrev S1x1 : Shape := ⟨2, ![1, 1]⟩
abbrev S1x512 : Shape := ⟨2, ![1, 512]⟩
abbrev S512x512 : Shape := ⟨2, ![512, 512]⟩
abbrev S1x512x512 : Shape := ⟨3, ![1, 512, 512]⟩
abbrev S1x1x1 : Shape := ⟨3, ![1, 1, 1]⟩
abbrev S6 : Shape := ⟨1, ![6]⟩
abbrev S6x1 : Shape := ⟨2, ![6, 1]⟩
abbrev S6x128 : Shape := ⟨2, ![6, 128]⟩
abbrev S_ : Shape := ⟨0, ![]⟩

abbrev nBuf : Space → Nat
  | .hbm => 46
  | .vmem => 24
  | .smem => 1
  | _ => 0

abbrev bufTy : (tb : Table) → Fin (tcTables nBuf tb) → BufTy
  | .hbm, ⟨0, _⟩ => ⟨S8x16x512x768, .f32⟩
  | .hbm, ⟨1, _⟩ => ⟨S8x16x512, .i32⟩
  | .hbm, ⟨2, _⟩ => ⟨S8x16x512, .i32⟩
  | .hbm, ⟨3, _⟩ => ⟨S8x16x512x512, .i32⟩
  | .hbm, ⟨4, _⟩ => ⟨S8x16x512x512, .i32⟩
  | .hbm, ⟨5, _⟩ => ⟨S8, .i32⟩
  | .hbm, ⟨6, _⟩ => ⟨S768x2, .f32⟩
  | .hbm, ⟨7, _⟩ => ⟨S2, .f32⟩
  | .hbm, ⟨8, _⟩ => ⟨S768x1, .f32⟩
  | .hbm, ⟨9, _⟩ => ⟨S1, .f32⟩
  | .hbm, ⟨10, _⟩ => ⟨S2x1, .f32⟩
  | .hbm, ⟨11, _⟩ => ⟨S1, .f32⟩
  | .hbm, ⟨12, _⟩ => ⟨S8x16x1x512, .i32⟩
  | .hbm, ⟨13, _⟩ => ⟨S8x16x1x512, .i32⟩
  | .hbm, ⟨14, _⟩ => ⟨S8x16x512x512, .i32⟩
  | .hbm, ⟨15, _⟩ => ⟨S8x16x1x512, .i32⟩
  | .hbm, ⟨16, _⟩ => ⟨S8x16x1x512, .i32⟩
  | .hbm, ⟨17, _⟩ => ⟨S8x16x6x128, .f32⟩
  | .hbm, ⟨18, _⟩ => ⟨S8x16x512, .i32⟩
  | .hbm, ⟨19, _⟩ => ⟨S8x16x512, .i32⟩
  | .hbm, ⟨20, _⟩ => ⟨S_, .f32⟩
  | .hbm, ⟨21, _⟩ => ⟨S6, .f32⟩
  | .hbm, ⟨22, _⟩ => ⟨S_, .f32⟩
  | .hbm, ⟨23, _⟩ => ⟨S6, .f32⟩
  | .hbm, ⟨24, _⟩ => ⟨S6, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .i32⟩
  | .hbm, ⟨40, _⟩ => ⟨S_, .i32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1x1x512x768, .f32⟩
  | .local _ .vmem, ⟨1, _⟩ => ⟨S1x1x512x768, .f32⟩
  | .local _ .vmem, ⟨2, _⟩ => ⟨S1x1x512x512, .i32⟩
  | .local _ .vmem, ⟨3, _⟩ => ⟨S1x1x512x512, .i32⟩
  | .local _ .vmem, ⟨4, _⟩ => ⟨S1x1x512x512, .i32⟩
  | .local _ .vmem, ⟨5, _⟩ => ⟨S1x1x512x512, .i32⟩
  | .local _ .vmem, ⟨6, _⟩ => ⟨S1x1x1x512, .i32⟩
  | .local _ .vmem, ⟨7, _⟩ => ⟨S1x1x1x512, .i32⟩
  | .local _ .vmem, ⟨8, _⟩ => ⟨S1x1x1x512, .i32⟩
  | .local _ .vmem, ⟨9, _⟩ => ⟨S1x1x1x512, .i32⟩
  | .local _ .vmem, ⟨10, _⟩ => ⟨S768x2, .f32⟩
  | .local _ .vmem, ⟨11, _⟩ => ⟨S2, .f32⟩
  | .local _ .vmem, ⟨12, _⟩ => ⟨S768x1, .f32⟩
  | .local _ .vmem, ⟨13, _⟩ => ⟨S1, .f32⟩
  | .local _ .vmem, ⟨14, _⟩ => ⟨S2x1, .f32⟩
  | .local _ .vmem, ⟨15, _⟩ => ⟨S1, .f32⟩
  | .local _ .vmem, ⟨16, _⟩ => ⟨S1x1x512x512, .i32⟩
  | .local _ .vmem, ⟨17, _⟩ => ⟨S1x1x512x512, .i32⟩
  | .local _ .vmem, ⟨18, _⟩ => ⟨S1x1x1x512, .i32⟩
  | .local _ .vmem, ⟨19, _⟩ => ⟨S1x1x1x512, .i32⟩
  | .local _ .vmem, ⟨20, _⟩ => ⟨S1x1x1x512, .i32⟩
  | .local _ .vmem, ⟨21, _⟩ => ⟨S1x1x1x512, .i32⟩
  | .local _ .vmem, ⟨22, _⟩ => ⟨S1x1x6x128, .f32⟩
  | .local _ .vmem, ⟨23, _⟩ => ⟨S1x1x6x128, .f32⟩
  | .local _ .smem, ⟨0, _⟩ => ⟨S8, .i32⟩
  | _, _ => ⟨S8x16x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 16], ![false, false]⟩

def k0_off1 (i : grid0.Coords) : Fin 1 → Nat :=
  let arg0 : BitVec 32 := BitVec.ofNat 32 (i 0).val
  let v28 : Index := Scalar.indexCast arg0
  ![v28.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S768x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x512x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x6x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

class Facts₀ : Prop where
  bcast_S8x16x512_S8x16x1x512_0_1_3 : S8x16x512.BroadcastsInDim S8x16x1x512 (![0, 1, 3] : Fin 3 → Fin S8x16x1x512.rank)
  inb_S1x1x512x768_S1x1x512x768_0_0_0_0 : ∀ a, (![0, 0, 0, 0] : Fin 4 → Nat) a + S1x1x512x768.size a ≤ S1x1x512x768.size a
  h_S1x1x512x768 : 0 < S1x1x512x768.numel
  shapeCasts_S1x1x512x768_S512x768 : S1x1x512x768.ShapeCasts S512x768
  inb_S768x2_S768x2_0_0 : ∀ a, (![0, 0] : Fin 2 → Nat) a + S768x2.size a ≤ S768x2.size a
  h_S768x2 : 0 < S768x2.numel
  inb_S2_S2_0 : ∀ a, (![0] : Fin 1 → Nat) a + S2.size a ≤ S2.size a
  h_S2 : 0 < S2.numel
  inb_S768x1_S768x1_0_0 : ∀ a, (![0, 0] : Fin 2 → Nat) a + S768x1.size a ≤ S768x1.size a
  h_S768x1 : 0 < S768x1.numel
  inb_S1_S1_0 : ∀ a, (![0] : Fin 1 → Nat) a + S1.size a ≤ S1.size a
  h_S1 : 0 < S1.numel
  inb_S2x1_S2x1_0_0 : ∀ a, (![0, 0] : Fin 2 → Nat) a + S2x1.size a ≤ S2x1.size a
  h_S2x1 : 0 < S2x1.numel
  shapeCasts_S2_S1x2 : S2.ShapeCasts S1x2
  broadcasts_S1x2_S512x2 : S1x2.Broadcasts S512x2
  slices_S512x2_o0_0_S512x1 : S512x2.Slices ![0, 0] S512x1
  shapeCasts_S512x1_S512 : S512x1.ShapeCasts S512
  slices_S512x2_o0_1_S512x1 : S512x2.Slices ![0, 1] S512x1
  shapeCasts_S1_S1x1 : S1.ShapeCasts S1x1
  broadcasts_S1x1_S512x1 : S1x1.Broadcasts S512x1
  numel1_S1 : S1.numel = 1
  iota_S1x512_d1_w32 : S1x512.Iotas .tc 32 [1]
  shapeCasts_S1x512_S512 : S1x512.ShapeCasts S512
  natLt_1_32 : 1 < 32
  inb_S1x1x1x512_S1x1x1x512_0_0_0_0 : ∀ a, (![0, 0, 0, 0] : Fin 4 → Nat) a + S1x1x1x512.size a ≤ S1x1x1x512.size a
  h_S1x1x1x512 : 0 < S1x1x1x512.numel
  shapeCasts_S1x1x1x512_S512 : S1x1x1x512.ShapeCasts S512
  shapeCasts_S512_S1x512 : S512.ShapeCasts S1x512
  reduces_S1x512_S1 : S1x512.Reduces [1] S1
  inpos_S1x1_p0_0 : ∀ a, (![0, 0] : Fin 2 → Nat) a < S1x1.size a
  slices_S2x1_o0_0_S1x1 : S2x1.Slices ![0, 0] S1x1
  slices_S2x1_o1_0_S1x1 : S2x1.Slices ![1, 0] S1x1
  shapeCasts_S512_S512x1 : S512.ShapeCasts S512x1
  broadcasts_S512x1_S512x512 : S512x1.Broadcasts S512x512
  broadcasts_S1x512_S512x512 : S1x512.Broadcasts S512x512
  inpos_S1_p0 : ∀ a, (![0] : Fin 1 → Nat) a < S1.size a
  iota_S512x512_d0_w32 : S512x512.Iotas .tc 32 [0]
  iota_S512x512_d1_w32 : S512x512.Iotas .tc 32 [1]
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S512x512_S1x1x512x512 : S512x512.ShapeCasts S1x1x512x512
  shapeCasts_S1x1x1x512_S1x512 : S1x1x1x512.ShapeCasts S1x512
  shapeCasts_S1x512_S1x1x1x512 : S1x512.ShapeCasts S1x1x1x512
  concatenates_S1_S1_S1_S1_S1_S1_S6_d0 : Shape.Concatenates [S1, S1, S1, S1, S1, S1] S6 0
  shapeCasts_S6_S6x1 : S6.ShapeCasts S6x1
  shapeCasts_S6x1_S6x1 : S6x1.ShapeCasts S6x1
  broadcasts_S6x1_S6x128 : S6x1.Broadcasts S6x128
  inb_S1x1x6x128_S1x1x6x128_0_0_0_0 : ∀ a, (![0, 0, 0, 0] : Fin 4 → Nat) a + S1x1x6x128.size a ≤ S1x1x6x128.size a
  h_S1x1x6x128 : 0 < S1x1x6x128.numel
  shapeCasts_S1x1x6x128_S6x128 : S1x1x6x128.ShapeCasts S6x128
  shapeCasts_S6x128_S1x1x6x128 : S6x128.ShapeCasts S1x1x6x128
  shapeCasts_S8x16x1x512_S8x16x512 : S8x16x1x512.ShapeCasts S8x16x512
  reducesTo_S8x16x6x128_S6_d0_1_3 : S8x16x6x128.ReducesTo [0, 1, 3] S6
  h_S_ : 0 < S_.numel
  bcast_S_S6 : S_.BroadcastsInDim S6 (![] : Fin 0 → Fin S6.rank)
  slices_S6_S1_0 : S6.Slices ![0] S1
  shapeCasts_S1_S_ : S1.ShapeCasts S_
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  reducesTo_S8_S_d0 : S8.ReducesTo [0] S_
  dot_S512x768_S768x2_S512x2_1_0_0_1_n_n_wf : DotDims.WF S512x768 S768x2 S512x2 [1] [0] [0] [1] [] []
  dot_S512x768_S768x1_S512x1_1_0_0_1_n_n_wf : DotDims.WF S512x768 S768x1 S512x1 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S8.size a ≤ S8.size a
  hwx0_0 : ∀ i : grid0.Coords, EltTy.bits .i32 = 32 ∨ (Rect.block (s := S8) S8.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x768.size a ≤ S8x16x512x768.size a
  hwx0_1 : ∀ i : grid0.Coords, EltTy.bits .f32 = 32 ∨ (Rect.block (s := S8x16x512x768) S1x1x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S8x16x512x512.size a
  hwx0_2 : ∀ i : grid0.Coords, EltTy.bits .i32 = 32 ∨ (Rect.block (s := S8x16x512x512) S1x1x512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x512.size a ≤ S8x16x512x512.size a
  hwx0_3 : ∀ i : grid0.Coords, EltTy.bits .i32 = 32 ∨ (Rect.block (s := S8x16x512x512) S1x1x512x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x512.size a ≤ S8x16x1x512.size a
  hwx0_4 : ∀ i : grid0.Coords, EltTy.bits .i32 = 32 ∨ (Rect.block (s := S8x16x1x512) S1x1x1x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1x512.size a ≤ S8x16x1x512.size a
  hwx0_5 : ∀ i : grid0.Coords, EltTy.bits .i32 = 32 ∨ (Rect.block (s := S8x16x1x512) S1x1x1x512.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x2.size a ≤ S768x2.size a
  hwx0_6 : ∀ i : grid0.Coords, EltTy.bits .f32 = 32 ∨ (Rect.block (s := S768x2) S768x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768x1.size a ≤ S768x1.size a
  hwx0_8 : ∀ i : grid0.Coords, EltTy.bits .f32 = 32 ∨ (Rect.block (s := S768x1) S768x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x1.size a ≤ S2x1.size a
  hwx0_10 : ∀ i : grid0.Coords, EltTy.bits .f32 = 32 ∨ (Rect.block (s := S2x1) S2x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x512x512.size a ≤ S8x16x512x512.size a
  hwx0_12 : ∀ i : grid0.Coords, EltTy.bits .i32 = 32 ∨ (Rect.block (s := S8x16x512x512) S1x1x512x512.size (cc0_transform_12 i) (hinb0_12 i)).WholeWords (EltTy.packing .i32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x1x512.size a ≤ S8x16x1x512.size a
  hwx0_13 : ∀ i : grid0.Coords, EltTy.bits .i32 = 32 ∨ (Rect.block (s := S8x16x1x512) S1x1x1x512.size (cc0_transform_13 i) (hinb0_13 i)).WholeWords (EltTy.packing .i32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x1x512.size a ≤ S8x16x1x512.size a
  hwx0_14 : ∀ i : grid0.Coords, EltTy.bits .i32 = 32 ∨ (Rect.block (s := S8x16x1x512) S1x1x1x512.size (cc0_transform_14 i) (hinb0_14 i)).WholeWords (EltTy.packing .i32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x6x128.size a ≤ S8x16x6x128.size a
  hwx0_15 : ∀ i : grid0.Coords, EltTy.bits .f32 = 32 ∨ (Rect.block (s := S8x16x6x128) S1x1x6x128.size (cc0_transform_15 i) (hinb0_15 i)).WholeWords (EltTy.packing .f32)

variable [Facts₀]

def dot_S512x768_S768x2_S512x2_1_0_0_1_n_n : DotDims S512x768 S768x2 S512x2 where
  lhsContracting := [1]
  rhsContracting := [0]
  lhsNonContracting := [0]
  rhsNonContracting := [1]
  lhsBatch := []
  rhsBatch := []
  wf := dot_S512x768_S768x2_S512x2_1_0_0_1_n_n_wf
def dot_S512x768_S768x1_S512x1_1_0_0_1_n_n : DotDims S512x768 S768x1 S512x1 where
  lhsContracting := [1]
  rhsContracting := [0]
  lhsNonContracting := [0]
  rhsNonContracting := [1]
  lhsBatch := []
  rhsBatch := []
  wf := dot_S512x768_S768x1_S512x1_1_0_0_1_n_n_wf

abbrev win0_0 : Pipeline.Window sig grid0 :=
  Pipeline.Window.ofSpec (Memref.whole main_arg5) S8.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S768x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2_0) S1x1x512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2_1) S1x1x1x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v2_2) S1x1x1x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v2_3) S1x1x6x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S8x16x512x768 : Shape := ⟨4, ![8, 16, 512, 768]⟩
abbrev S8x16x512 : Shape := ⟨3, ![8, 16, 512]⟩
abbrev S8x16x512x512 : Shape := ⟨4, ![8, 16, 512, 512]⟩
abbrev S8 : Shape := ⟨1, ![8]⟩
abbrev S768x2 : Shape := ⟨2, ![768, 2]⟩
abbrev S2 : Shape := ⟨1, ![2]⟩
abbrev S768x1 : Shape := ⟨2, ![768, 1]⟩
abbrev S1 : Shape := ⟨1, ![1]⟩
abbrev S2x1 : Shape := ⟨2, ![2, 1]⟩
abbrev S8x16x512x2 : Shape := ⟨4, ![8, 16, 512, 2]⟩
abbrev S1x1x1x2 : Shape := ⟨4, ![1, 1, 1, 2]⟩
abbrev S_ : Shape := ⟨0, ![]⟩
abbrev S8x16x512x1 : Shape := ⟨4, ![8, 16, 512, 1]⟩
abbrev S8x32x512 : Shape := ⟨3, ![8, 32, 512]⟩
abbrev S512 : Shape := ⟨1, ![512]⟩
abbrev S1x512 : Shape := ⟨2, ![1, 512]⟩
abbrev S8x1 : Shape := ⟨2, ![8, 1]⟩
abbrev S8x512 : Shape := ⟨2, ![8, 512]⟩
abbrev S8x1x512 : Shape := ⟨3, ![8, 1, 512]⟩
abbrev S1x1x1x1 : Shape := ⟨4, ![1, 1, 1, 1]⟩
abbrev S1x1 : Shape := ⟨2, ![1, 1]⟩
abbrev S8x16x1x512 : Shape := ⟨4, ![8, 16, 1, 512]⟩
abbrev S512x1 : Shape := ⟨2, ![512, 1]⟩
abbrev S512x512 : Shape := ⟨2, ![512, 512]⟩
abbrev S1x1x512x512 : Shape := ⟨4, ![1, 1, 512, 512]⟩

abbrev nBuf : Space → Nat
  | .hbm => 210
  | .vmem => 0
  | .smem => 0
  | _ => 0

abbrev hbmTy0_0 (i : Nat) : BufTy := match i % 128 with
  | 0 => ⟨S8x16x512x768, .f32⟩
  | 1 => ⟨S8x16x512, .i32⟩
  | 2 => ⟨S8x16x512, .i32⟩
  | 3 => ⟨S8x16x512x512, .i32⟩
  | 4 => ⟨S8x16x512x512, .i32⟩
  | 5 => ⟨S8, .i32⟩
  | 6 => ⟨S768x2, .f32⟩
  | 7 => ⟨S2, .f32⟩
  | 8 => ⟨S768x1, .f32⟩
  | 9 => ⟨S1, .f32⟩
  | 10 => ⟨S2x1, .f32⟩
  | 11 => ⟨S1, .f32⟩
  | 12 => ⟨S8x16x512x2, .f32⟩
  | 13 => ⟨S1x1x1x2, .f32⟩
  | 14 => ⟨S8x16x512x2, .f32⟩
  | 15 => ⟨S8x16x512x2, .f32⟩
  | 16 => ⟨S8x16x512x2, .f32⟩
  | 17 => ⟨S8x16x512x2, .f32⟩
  | 18 => ⟨S_, .f32⟩
  | 19 => ⟨S8x16x512x2, .f32⟩
  | 20 => ⟨S8x16x512x2, .f32⟩
  | 21 => ⟨S_, .f32⟩
  | 22 => ⟨S8x16x512x2, .f32⟩
  | 23 => ⟨S8x16x512x2, .f32⟩
  | 24 => ⟨S8x16x512x1, .f32⟩
  | 25 => ⟨S8x16x512, .f32⟩
  | 26 => ⟨S8x16x512x1, .f32⟩
  | 27 => ⟨S8x16x512, .f32⟩
  | 28 => ⟨S8x32x512, .f32⟩
  | 29 => ⟨S_, .f32⟩
  | 30 => ⟨S8x32x512, .f32⟩
  | 31 => ⟨S8x32x512, .i1⟩
  | 32 => ⟨S8x32x512, .i32⟩
  | 33 => ⟨S512, .i32⟩
  | 34 => ⟨S1x512, .i32⟩
  | 35 => ⟨S8x1, .i32⟩
  | 36 => ⟨S8x512, .i32⟩
  | 37 => ⟨S8x512, .i32⟩
  | 38 => ⟨S8x512, .i1⟩
  | 39 => ⟨S8x512, .i32⟩
  | 40 => ⟨S8x1x512, .i32⟩
  | 41 => ⟨S8x32x512, .i32⟩
  | 42 => ⟨S8x32x512, .i32⟩
  | 43 => ⟨S8x16x512, .i32⟩
  | 44 => ⟨S8x16x512, .i32⟩
  | 45 => ⟨S8x32x512, .i32⟩
  | 46 => ⟨S8x512, .f32⟩
  | 47 => ⟨S_, .f32⟩
  | 48 => ⟨S8x32x512, .f32⟩
  | 49 => ⟨S8x32x512, .f32⟩
  | 50 => ⟨S_, .f32⟩
  | 51 => ⟨S8x32x512, .f32⟩
  | 52 => ⟨S8x32x512, .f32⟩
  | 53 => ⟨S_, .f32⟩
  | 54 => ⟨S8x32x512, .f32⟩
  | 55 => ⟨S8x32x512, .f32⟩
  | 56 => ⟨S_, .f32⟩
  | 57 => ⟨S8x32x512, .f32⟩
  | 58 => ⟨S8x32x512, .f32⟩
  | 59 => ⟨S8x32x512, .f32⟩
  | 60 => ⟨S8x32x512, .f32⟩
  | 61 => ⟨S_, .f32⟩
  | 62 => ⟨S8x32x512, .f32⟩
  | 63 => ⟨S8x32x512, .f32⟩
  | 64 => ⟨S_, .f32⟩
  | 65 => ⟨S8x32x512, .f32⟩
  | 66 => ⟨S8x32x512, .f32⟩
  | 67 => ⟨S_, .f32⟩
  | 68 => ⟨S8x32x512, .f32⟩
  | 69 => ⟨S8x32x512, .f32⟩
  | 70 => ⟨S_, .f32⟩
  | 71 => ⟨S8x32x512, .f32⟩
  | 72 => ⟨S8x32x512, .f32⟩
  | 73 => ⟨S8x32x512, .f32⟩
  | 74 => ⟨S8x32x512, .f32⟩
  | 75 => ⟨S_, .i32⟩
  | 76 => ⟨S8x32x512, .i32⟩
  | 77 => ⟨S8x32x512, .i1⟩
  | 78 => ⟨S8x32x512, .f32⟩
  | 79 => ⟨S8x1x512, .f32⟩
  | 80 => ⟨S8x32x512, .f32⟩
  | 81 => ⟨S8x32x512, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S8x16x512x1, .f32⟩
  | 90 => ⟨S1x1x1x1, .f32⟩
  | 91 => ⟨S8x16x512x1, .f32⟩
  | 92 => ⟨S8x16x512x1, .f32⟩
  | 93 => ⟨S8x16x512, .f32⟩
  | 94 => ⟨S1x1, .f32⟩
  | 95 => ⟨S_, .f32⟩
  | 96 => ⟨S8x16x512, .f32⟩
  | 97 => ⟨S8x16x512, .f32⟩
  | 98 => ⟨S1x1, .f32⟩
  | 99 => ⟨S_, .f32⟩
  | 100 => ⟨S8x16x512, .f32⟩
  | 101 => ⟨S8x16x512, .f32⟩
  | 102 => ⟨S8x16x512x1, .f32⟩
  | 103 => ⟨S8x16x1x512, .f32⟩
  | 104 => ⟨S8x16x512x512, .f32⟩
  | 105 => ⟨S8x16x512x512, .f32⟩
  | 106 => ⟨S8x16x512x512, .f32⟩
  | 107 => ⟨S_, .f32⟩
  | 108 => ⟨S8x16x512x512, .f32⟩
  | 109 => ⟨S8x16x512x512, .f32⟩
  | 110 => ⟨S8x16x512x512, .f32⟩
  | 111 => ⟨S8x16x512x512, .f32⟩
  | 112 => ⟨S_, .f32⟩
  | 113 => ⟨S8x16x512x512, .f32⟩
  | 114 => ⟨S8x16x512x512, .f32⟩
  | 115 => ⟨S_, .f32⟩
  | 116 => ⟨S8x16x512x512, .f32⟩
  | 117 => ⟨S8x16x512x512, .f32⟩
  | 118 => ⟨S512, .i32⟩
  | 119 => ⟨S512x1, .i32⟩
  | 120 => ⟨S512, .i32⟩
  | 121 => ⟨S1x512, .i32⟩
  | 122 => ⟨S512x512, .i32⟩
  | 123 => ⟨S512x512, .i32⟩
  | 124 => ⟨S512x512, .i1⟩
  | 125 => ⟨S512x512, .i32⟩
  | 126 => ⟨S_, .f32⟩
  | 127 => ⟨S8x16x512x512, .f32⟩
  | _ => ⟨S8x16x512x768, .f32⟩

abbrev hbmTy0_1 (i : Nat) : BufTy := match i % 128 with
  | 0 => ⟨S8x16x512x512, .i1⟩
  | 1 => ⟨S8x16x512x512, .i32⟩
  | 2 => ⟨S8x16x512x1, .i32⟩
  | 3 => ⟨S8x16x512x512, .i32⟩
  | 4 => ⟨S8x16x512x512, .i32⟩
  | 5 => ⟨S8x16x1x512, .i32⟩
  | 6 => ⟨S8x16x512x512, .i32⟩
  | 7 => ⟨S8x16x512x512, .i32⟩
  | 8 => ⟨S1x1x512x512, .i32⟩
  | 9 => ⟨S8x16x512x512, .i32⟩
  | 10 => ⟨S8x16x512x512, .i32⟩
  | 11 => ⟨S8x16x512x512, .f32⟩
  | 12 => ⟨S_, .f32⟩
  | 13 => ⟨S_, .f32⟩
  | 14 => ⟨S_, .f32⟩
  | 15 => ⟨S_, .f32⟩
  | 16 => ⟨S_, .f32⟩
  | 17 => ⟨S8x16x512x512, .f32⟩
  | 18 => ⟨S8x16x512x512, .f32⟩
  | 19 => ⟨S_, .f32⟩
  | 20 => ⟨S8x16x512x512, .f32⟩
  | 21 => ⟨S8x16x512x512, .f32⟩
  | 22 => ⟨S_, .f32⟩
  | 23 => ⟨S8x16x512x512, .f32⟩
  | 24 => ⟨S8x16x512x512, .f32⟩
  | 25 => ⟨S_, .f32⟩
  | 26 => ⟨S8x16x512x512, .f32⟩
  | 27 => ⟨S8x16x512x512, .f32⟩
  | 28 => ⟨S8x16x512x512, .f32⟩
  | 29 => ⟨S8x16x512x512, .f32⟩
  | 30 => ⟨S_, .f32⟩
  | 31 => ⟨S8x16x512x512, .f32⟩
  | 32 => ⟨S8x16x512x512, .f32⟩
  | 33 => ⟨S_, .f32⟩
  | 34 => ⟨S8x16x512x512, .f32⟩
  | 35 => ⟨S8x16x512x512, .f32⟩
  | 36 => ⟨S_, .f32⟩
  | 37 => ⟨S8x16x512x512, .f32⟩
  | 38 => ⟨S8x16x512x512, .f32⟩
  | 39 => ⟨S_, .f32⟩
  | 40 => ⟨S8x16x512x512, .f32⟩
  | 41 => ⟨S8x16x512x512, .f32⟩
  | 42 => ⟨S8x16x512x512, .f32⟩
  | 43 => ⟨S8x16x512x512, .f32⟩
  | 44 => ⟨S_, .i32⟩
  | 45 => ⟨S8x16x512x512, .i32⟩
  | 46 => ⟨S8x16x512x512, .i1⟩
  | 47 => ⟨S8x16x512x512, .f32⟩
  | 48 => ⟨S8x16x512x512, .f32⟩
  | 49 => ⟨S_, .f32⟩
  | 50 => ⟨S_, .f32⟩
  | 51 => ⟨S_, .f32⟩
  | 52 => ⟨S_, .i32⟩
  | 53 => ⟨S8x16x512x512, .i32⟩
  | 54 => ⟨S8x16x512x512, .i1⟩
  | 55 => ⟨S_, .i32⟩
  | 56 => ⟨S8x16x512x512, .i32⟩
  | 57 => ⟨S8x16x512x512, .i1⟩
  | 58 => ⟨S8x16x512x512, .i1⟩
  | 59 => ⟨S8x16x512x512, .f32⟩
  | 60 => ⟨S_, .f32⟩
  | 61 => ⟨S_, .f32⟩
  | 62 => ⟨S_, .i32⟩
  | 63 => ⟨S8x16x512x512, .i32⟩
  | 64 => ⟨S8x16x512x512, .i1⟩
  | 65 => ⟨S_, .i32⟩
  | 66 => ⟨S8x16x512x512, .i32⟩
  | 67 => ⟨S8x16x512x512, .i1⟩
  | 68 => ⟨S8x16x512x512, .i1⟩
  | 69 => ⟨S8x16x512x512, .f32⟩
  | 70 => ⟨S_, .f32⟩
  | 71 => ⟨S_, .f32⟩
  | 72 => ⟨S_, .i32⟩
  | 73 => ⟨S8x16x512x512, .i32⟩
  | 74 => ⟨S8x16x512x512, .i1⟩
  | 75 => ⟨S_, .i32⟩
  | 76 => ⟨S8x16x512x512, .i32⟩
  | 77 => ⟨S8x16x512x512, .i1⟩
  | 78 => ⟨S8x16x512x512, .i1⟩
  | 79 => ⟨S8x16x512x512, .f32⟩
  | 80 => ⟨S_, .f32⟩
  | 81 => ⟨S_, .f32⟩
  | _ => ⟨S8x16x512x768, .f32⟩

abbrev hbmTy (i : Nat) : BufTy := match i / 128 with
  | 0 => hbmTy0_0 i
  | 1 => hbmTy0_1 i
  | _ => ⟨S8x16x512x768, .f32⟩

abbrev bufTy : (tb : Table) → Fin (tcTables nBuf tb) → BufTy
  | .hbm, ⟨i, _⟩ => hbmTy i
  | _, _ => ⟨S8x16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_13 : Ref sig .tc := ⟨.hbm, 112, rfl⟩
abbrev main_v85 : Ref sig .tc := ⟨.hbm, 113, rfl⟩
abbrev main_v86 : Ref sig .tc := ⟨.hbm, 114, rfl⟩
abbrev main_cst_14 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_15 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_16 : Ref sig .tc := ⟨.hbm, 140, rfl⟩
abbrev main_v110 : Ref sig .tc := ⟨.hbm, 141, rfl⟩
abbrev main_cst_17 : Ref sig .tc := ⟨.hbm, 142, rfl⟩
abbrev main_v111 : Ref sig .tc := ⟨.hbm, 143, rfl⟩
abbrev main_cst_18 : Ref sig .tc := ⟨.hbm, 144, rfl⟩
abbrev main_v112 : Ref sig .tc := ⟨.hbm, 145, rfl⟩
abbrev main_v113 : Ref sig .tc := ⟨.hbm, 146, rfl⟩
abbrev main_cst_19 : Ref sig .tc := ⟨.hbm, 147, rfl⟩
abbrev main_v114 : Ref sig .tc := ⟨.hbm, 148, rfl⟩
abbrev main_v115 : Ref sig .tc := ⟨.hbm, 149, rfl⟩
abbrev main_cst_20 : Ref sig .tc := ⟨.hbm, 150, rfl⟩
abbrev main_v116 : Ref sig .tc := ⟨.hbm, 151, rfl⟩
abbrev main_v117 : Ref sig .tc := ⟨.hbm, 152, rfl⟩
abbrev main_cst_21 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_22 : Ref sig .tc := ⟨.hbm, 158, rfl⟩
abbrev main_v122 : Ref sig .tc := ⟨.hbm, 159, rfl⟩
abbrev main_v123 : Ref sig .tc := ⟨.hbm, 160, rfl⟩
abbrev main_cst_23 : Ref sig .tc := ⟨.hbm, 161, rfl⟩
abbrev main_v124 : Ref sig .tc := ⟨.hbm, 162, rfl⟩
abbrev main_v125 : Ref sig .tc := ⟨.hbm, 163, rfl⟩
abbrev main_cst_24 : Ref sig .tc := ⟨.hbm, 164, rfl⟩
abbrev main_v126 : Ref sig .tc := ⟨.hbm, 165, rfl⟩
abbrev main_v127 : Ref sig .tc := ⟨.hbm, 166, rfl⟩
abbrev main_cst_25 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_c_26 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_27 : Ref sig .tc := ⟨.hbm, 177, rfl⟩
abbrev main_v136 : Ref sig .tc := ⟨.hbm, 178, rfl⟩
abbrev main_v137 : Ref sig .tc := ⟨.hbm, 179, rfl⟩
abbrev main_c_28 : Ref sig .tc := ⟨.hbm, 180, rfl⟩
abbrev main_v138 : Ref sig .tc := ⟨.hbm, 181, rfl⟩
abbrev main_v139 : Ref sig .tc := ⟨.hbm, 182, rfl⟩
abbrev main_c_29 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_30 : Ref sig .tc := ⟨.hbm, 188, rfl⟩
abbrev main_v144 : Ref sig .tc := ⟨.hbm, 189, rfl⟩
abbrev main_c_31 : Ref sig .tc := ⟨.hbm, 190, rfl⟩
abbrev main_v145 : Ref sig .tc := ⟨.hbm, 191, rfl⟩
abbrev main_v146 : Ref sig .tc := ⟨.hbm, 192, rfl⟩
abbrev main_c_32 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_33 : Ref sig .tc := ⟨.hbm, 198, rfl⟩
abbrev main_v151 : Ref sig .tc := ⟨.hbm, 199, rfl⟩
abbrev main_c_34 : Ref sig .tc := ⟨.hbm, 200, rfl⟩
abbrev main_v152 : Ref sig .tc := ⟨.hbm, 201, rfl⟩
abbrev main_v153 : Ref sig .tc := ⟨.hbm, 202, rfl⟩
abbrev main_c_35 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_36 : Ref sig .tc := ⟨.hbm, 208, rfl⟩
abbrev main_v158 : Ref sig .tc := ⟨.hbm, 209, rfl⟩

abbrev nD : Nat := 1
abbrev τ : Topo := Topo.v7x

variable {F : FTy → Type} [FloatOps F]

class Facts₀ : Prop where
  bcast_S2_S1x1x1x2_3 : S2.BroadcastsInDim S1x1x1x2 (![3] : Fin 1 → Fin S1x1x1x2.rank)
  bcast_S1x1x1x2_S8x16x512x2_0_1_2_3 : S1x1x1x2.BroadcastsInDim S8x16x512x2 (![0, 1, 2, 3] : Fin 4 → Fin S8x16x512x2.rank)
  bcast_S_S8x16x512x2 : S_.BroadcastsInDim S8x16x512x2 (![] : Fin 0 → Fin S8x16x512x2.rank)
  slices_S8x16x512x2_S8x16x512x1_0_0_0_0 : S8x16x512x2.Slices ![0, 0, 0, 0] S8x16x512x1
  shapeCasts_S8x16x512x1_S8x16x512 : S8x16x512x1.ShapeCasts S8x16x512
  slices_S8x16x512x2_S8x16x512x1_0_0_0_1 : S8x16x512x2.Slices ![0, 0, 0, 1] S8x16x512x1
  concatenates_S8x16x512_S8x16x512_S8x32x512_d1 : Shape.Concatenates [S8x16x512, S8x16x512] S8x32x512 1
  bcast_S_S8x32x512 : S_.BroadcastsInDim S8x32x512 (![] : Fin 0 → Fin S8x32x512.rank)
  natLt_1_32 : 1 < 32
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S8x512_S8x1x512_0_2 : S8x512.BroadcastsInDim S8x1x512 (![0, 2] : Fin 2 → Fin S8x1x512.rank)
  bcast_S8x1x512_S8x32x512_0_1_2 : S8x1x512.BroadcastsInDim S8x32x512 (![0, 1, 2] : Fin 3 → Fin S8x32x512.rank)
  slices_S8x32x512_S8x16x512_0_0_0 : S8x32x512.Slices ![0, 0, 0] S8x16x512
  slices_S8x32x512_S8x16x512_0_16_0 : S8x32x512.Slices ![0, 16, 0] S8x16x512
  reducesTo_S8x32x512_S_d0_1_2 : S8x32x512.ReducesTo [0, 1, 2] S_
  h_S_ : 0 < S_.numel
  reducesTo_S8x512_S_d0_1 : S8x512.ReducesTo [0, 1] S_
  bcast_S1_S1x1x1x1_3 : S1.BroadcastsInDim S1x1x1x1 (![3] : Fin 1 → Fin S1x1x1x1.rank)
  bcast_S1x1x1x1_S8x16x512x1_0_1_2_3 : S1x1x1x1.BroadcastsInDim S8x16x512x1 (![0, 1, 2, 3] : Fin 4 → Fin S8x16x512x1.rank)
  slices_S2x1_S1x1_0_0 : S2x1.Slices ![0, 0] S1x1
  shapeCasts_S1x1_S_ : S1x1.ShapeCasts S_
  bcast_S_S8x16x512 : S_.BroadcastsInDim S8x16x512 (![] : Fin 0 → Fin S8x16x512.rank)
  slices_S2x1_S1x1_1_0 : S2x1.Slices ![1, 0] S1x1
  bcast_S8x16x512_S8x16x512x1_0_1_2 : S8x16x512.BroadcastsInDim S8x16x512x1 (![0, 1, 2] : Fin 3 → Fin S8x16x512x1.rank)
  bcast_S8x16x512_S8x16x1x512_0_1_3 : S8x16x512.BroadcastsInDim S8x16x1x512 (![0, 1, 3] : Fin 3 → Fin S8x16x1x512.rank)
  bcast_S8x16x512x1_S8x16x512x512_0_1_2_3 : S8x16x512x1.BroadcastsInDim S8x16x512x512 (![0, 1, 2, 3] : Fin 4 → Fin S8x16x512x512.rank)
  bcast_S8x16x1x512_S8x16x512x512_0_1_2_3 : S8x16x1x512.BroadcastsInDim S8x16x512x512 (![0, 1, 2, 3] : Fin 4 → Fin S8x16x512x512.rank)
  shapeCasts_S1_S_ : S1.ShapeCasts S_
  bcast_S_S8x16x512x512 : S_.BroadcastsInDim S8x16x512x512 (![] : Fin 0 → Fin S8x16x512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S1x1x512x512_2_3 : S512x512.BroadcastsInDim S1x1x512x512 (![2, 3] : Fin 2 → Fin S1x1x512x512.rank)
  bcast_S1x1x512x512_S8x16x512x512_0_1_2_3 : S1x1x512x512.BroadcastsInDim S8x16x512x512 (![0, 1, 2, 3] : Fin 4 → Fin S8x16x512x512.rank)
  reducesTo_S8x16x512x512_S_d0_1_2_3 : S8x16x512x512.ReducesTo [0, 1, 2, 3] S_
  dot_S8x16x512x768_S768x2_S8x16x512x2_3_0_012_1_n_n_wf : DotDims.WF S8x16x512x768 S768x2 S8x16x512x2 [3] [0] [0, 1, 2] [1] [] []
  dot_S8x16x512x768_S768x1_S8x16x512x1_3_0_012_1_n_n_wf : DotDims.WF S8x16x512x768 S768x1 S8x16x512x1 [3] [0] [0, 1, 2] [1] [] []

variable [Facts₀]

def dot_S8x16x512x768_S768x2_S8x16x512x2_3_0_012_1_n_n : DotDims S8x16x512x768 S768x2 S8x16x512x2 where
  lhsContracting := [3]
  rhsContracting := [0]
  lhsNonContracting := [0, 1, 2]
  rhsNonContracting := [1]
  lhsBatch := []
  rhsBatch := []
  wf := dot_S8x16x512x768_S768x2_S8x16x512x2_3_0_012_1_n_n_wf
def dot_S8x16x512x768_S768x1_S8x16x512x1_3_0_012_1_n_n : DotDims S8x16x512x768 S768x1 S8x16x512x1 where
  lhsContracting := [3]
  rhsContracting := [0]
  lhsNonContracting := [0, 1, 2]
  rhsNonContracting := [1]
  lhsBatch := []
  rhsBatch := []
  wf := dot_S8x16x512x768_S768x1_S8x16x512x1_3_0_012_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The span-extraction head, element by element

Both programs compute, for a batch of `8 × 16` sentences of `512` tokens with `768` features each:

* a start and an end probability per token, `σ(x·W_se + b_se)`, thresholded at one half and masked by the
  sentence's length into the integer predictions `start_pred`, `end_pred`;
* a span probability per token pair, `σ(s_i + e_j + b)` with `s = (x·W_ys + b_ys)·W_span[0]`, `e = … ·W_span[1]`,
  thresholded, multiplied by the two predictions and by the upper-triangle indicator into `span_pred`;
* counts of true positives, missed positives and false positives of `span_pred` against `span`;
* two focal losses (α = 1/2, γ = 2): over the start/end probabilities, masked by length and divided by
  `32` times the number of valid tokens; and over the span probabilities, weighted by `val` and divided by
  the sum of `val` plus `1e-7`.

This file states each of these as a function of the argument arrays, one element at a time, on the
extended reals and on 32-bit words, and proves the three scalar facts the comparison of the two programs
needs: the value of the words `1.0` and `2.0`; that the logistic function takes real values at every
extended real; and that a real squared by `pow · 2` is its product with itself.
-/

noncomputable section

namespace Cert.SpanHead

open Idealize.ShloMosaic Idealize.ShloMosaic.ValueIdx

/-! ## The literals -/

/-- `1.0`. -/
abbrev one : EReal := Ideal.ofBits .f32 0x3F800000#32
/-- `2.0`, the focal exponent γ as the reference passes it to `pow`. -/
abbrev two : EReal := Ideal.ofBits .f32 0x40000000#32
/-- `0.5`, the decision threshold. -/
abbrev half : EReal := Ideal.ofBits .f32 0x3F000000#32
/-- `-0.5`: `-α` and `-(1 - α)`. -/
abbrev nhalf : EReal := Ideal.ofBits .f32 0xBF000000#32
/-- The word both programs spell for `1e-7`. -/
abbrev eps : EReal := Ideal.ofBits .f32 0x33D6BF95#32
/-- `32.0 = 2·L`. -/
abbrev c32 : EReal := Ideal.ofBits .f32 0x42000000#32
/-- `128.0`, the number of lanes a per-sentence statistic is repeated over. -/
abbrev c128 : EReal := Ideal.ofBits .f32 0x43000000#32

theorem one_eq : one = 1 := by
  simp [one, Ideal.ofBits, Ideal.ieee, -EReal.coe_mul]; norm_num

theorem two_eq : two = ((2 : ℝ) : EReal) := by
  simp [two, Ideal.ofBits, Ideal.ieee, -EReal.coe_mul]; norm_num

theorem c128_eq : c128 = ((128 : ℝ) : EReal) := by
  simp [c128, Ideal.ofBits, Ideal.ieee, -EReal.coe_mul]; norm_num

/-! ## The scalar functions -/

/-- The logistic function as both programs spell it: `1 / (1 + e^(-z))`. -/
def sg (z : EReal) : EReal := Ideal.div one (one + Ideal.exp (-z))

/-- The focal loss term of a label `y` at probability `p`, with `(1 - p)²` and `p²` as products. -/
def focal (y : BitVec 32) (p : EReal) : EReal :=
  Scalar.select (IntOp.cmpi .eq y 1#32)
    ((nhalf * ((one - p) * (one - p))) * Ideal.log (p + eps))
    ((nhalf * (p * p)) * Ideal.log ((one - p) + eps))

/-- "Above one half", as a 32-bit word. -/
def gtHalf (p : EReal) : BitVec 32 := (FloatOps.cmpf (F := Ideal) (φ := .f32) .ogt p half).setWidth 32

/-- A one-bit truth value as the number `0` or `1`. -/
def ind (c : BitVec 1) : EReal := (((c.setWidth 32).toInt : ℝ) : EReal)

/-- The logistic function is real-valued everywhere: `0` at `-∞`, `1` at `+∞`. -/
theorem sg_real (z : EReal) : ∃ r : ℝ, sg z = (r : EReal) := by
  unfold sg
  rw [one_eq]
  induction z using EReal.rec with
  | bot =>
    refine ⟨0, ?_⟩
    have h1b : (1 : EReal) ≠ ⊥ := by rw [← EReal.coe_one]; exact EReal.coe_ne_bot 1
    rw [EReal.neg_bot, Ideal.exp_top, EReal.add_top_of_ne_bot h1b]
    simp [Ideal.div]
  | top =>
    refine ⟨1, ?_⟩
    rw [EReal.neg_top, Ideal.exp_bot]
    simp [Ideal.div]
  | coe r =>
    have hpos : (0 : ℝ) < 1 + Real.exp (-r) := by positivity
    refine ⟨(1 + Real.exp (-r))⁻¹, ?_⟩
    have h1 : (1 : EReal) + Ideal.exp (-(r : EReal)) = ((1 + Real.exp (-r) : ℝ) : EReal) := by
      rw [← EReal.coe_neg, Ideal.exp_coe]; norm_cast
    rw [h1, Ideal.div_coe (ne_of_gt hpos), one_mul, one_div]

/-- On a real base the reference's `pow · 2.0` is the kernel's product. -/
theorem pow_two_coe (q : ℝ) : Ideal.pow (q : EReal) two = (q : EReal) * (q : EReal) := by
  rw [two_eq, Ideal.pow_coe_coe, ← EReal.coe_mul]
  congr 1
  show Real.rpow q 2 = q * q
  rw [Real.rpow_eq_pow, Real.rpow_two, sq]

/-- `one - p` is real when `p` is. -/
theorem one_sub_coe (p : ℝ) : one - (p : EReal) = ((1 - p : ℝ) : EReal) := by
  rw [one_eq]; norm_cast

/-- The reference's focal term (squares by `pow`) is `focal` at a logistic value. -/
theorem focal_pow (y : BitVec 32) (z : EReal) :
    Scalar.select (IntOp.cmpi .eq y 1#32)
      ((nhalf * Ideal.pow (one - sg z) two) * Ideal.log (sg z + eps))
      ((nhalf * Ideal.pow (sg z) two) * Ideal.log ((one - sg z) + eps))
    = focal y (sg z) := by
  obtain ⟨p, hp⟩ := sg_real z
  unfold focal
  rw [hp, one_sub_coe, pow_two_coe, pow_two_coe]

/-! ## The arrays, one element at a time -/

/-- `x : f32[8, 16, 512, 768]`. -/
abbrev ArrX := (⟨4, ![8, 16, 512, 768]⟩ : Shape).Idx → EReal
/-- `start`, `end : i32[8, 16, 512]`. -/
abbrev ArrTok := (⟨3, ![8, 16, 512]⟩ : Shape).Idx → BitVec 32
/-- `span`, `val : i32[8, 16, 512, 512]`. -/
abbrev ArrPair := (⟨4, ![8, 16, 512, 512]⟩ : Shape).Idx → BitVec 32
/-- `seqlen : i32[8]`. -/
abbrev ArrLen := (⟨1, ![8]⟩ : Shape).Idx → BitVec 32
abbrev ArrWse := (⟨2, ![768, 2]⟩ : Shape).Idx → EReal
abbrev ArrBse := (⟨1, ![2]⟩ : Shape).Idx → EReal
abbrev ArrWys := (⟨2, ![768, 1]⟩ : Shape).Idx → EReal
abbrev ArrB1 := (⟨1, ![1]⟩ : Shape).Idx → EReal
abbrev ArrWsp := (⟨2, ![2, 1]⟩ : Shape).Idx → EReal

/-- The start (`k = 0`) or end (`k = 1`) logit of token `n` of sentence `(b, l)`. -/
def seLogit (x : ArrX) (Wse : ArrWse) (bse : ArrBse) (b : Fin 8) (l : Fin 16) (n : Fin 512) (k : Fin 2) : EReal :=
  (∑ h : Fin 768, x (ix4 b l n h) * Wse (ix2 h k)) + bse (ix1 k)

/-- Its probability. -/
def seProb (x : ArrX) (Wse : ArrWse) (bse : ArrBse) (b : Fin 8) (l : Fin 16) (n : Fin 512) (k : Fin 2) : EReal :=
  sg (seLogit x Wse bse b l n k)

/-- "Token `n` lies inside sentence `b`'s length", as a 32-bit word. -/
def maskI (seqlen : ArrLen) (b : Fin 8) (n : Fin 512) : BitVec 32 :=
  (IntOp.cmpi .slt (BitVec.ofNat 32 n.val) (seqlen (ix1 b))).setWidth 32

/-- The same as a number. -/
def maskF (seqlen : ArrLen) (b : Fin 8) (n : Fin 512) : EReal := (((maskI seqlen b n).toInt : ℝ) : EReal)

/-- `start_pred` (`k = 0`) and `end_pred` (`k = 1`) at a token. -/
def sePred (x : ArrX) (seqlen : ArrLen) (Wse : ArrWse) (bse : ArrBse) (b : Fin 8) (l : Fin 16) (n : Fin 512) (k : Fin 2) :
    BitVec 32 :=
  IntOp.muli (gtHalf (seProb x Wse bse b l n k)) (maskI seqlen b n)

/-- The token's scalar `x·W_ys + b_ys`. -/
def tokLogit (x : ArrX) (Wys : ArrWys) (bys : ArrB1) (b : Fin 8) (l : Fin 16) (n : Fin 512) : EReal :=
  (∑ h : Fin 768, x (ix4 b l n h) * Wys (ix2 h 0)) + bys (ix1 0)

/-- The span probability of the token pair `(i, j)`. -/
def spanProb (x : ArrX) (Wys : ArrWys) (bys : ArrB1) (Wsp : ArrWsp) (bsp : ArrB1) (b : Fin 8) (l : Fin 16) (i j : Fin 512) :
    EReal :=
  sg ((tokLogit x Wys bys b l i * Wsp (ix2 0 0) + tokLogit x Wys bys b l j * Wsp (ix2 1 0)) + bsp (ix1 0))

/-- `i ≤ j`, as a 32-bit word. -/
def triu (i j : Fin 512) : BitVec 32 := (IntOp.cmpi .sle (BitVec.ofNat 32 i.val) (BitVec.ofNat 32 j.val)).setWidth 32

/-- `span_pred` at a token pair. -/
def spanPred (x : ArrX) (seqlen : ArrLen) (Wse : ArrWse) (bse : ArrBse) (Wys : ArrWys) (bys : ArrB1) (Wsp : ArrWsp)
    (bsp : ArrB1) (b : Fin 8) (l : Fin 16) (i j : Fin 512) : BitVec 32 :=
  IntOp.muli (IntOp.muli (IntOp.muli (gtHalf (spanProb x Wys bys Wsp bsp b l i j)) (sePred x seqlen Wse bse b l i 0))
    (sePred x seqlen Wse bse b l j 1)) (triu i j)

/-- A pair counted as a true positive. -/
def tpTerm (x : ArrX) (span : ArrPair) (seqlen : ArrLen) (Wse : ArrWse) (bse : ArrBse) (Wys : ArrWys) (bys : ArrB1)
    (Wsp : ArrWsp) (bsp : ArrB1) (b : Fin 8) (l : Fin 16) (i j : Fin 512) : EReal :=
  ind (IntOp.andi (IntOp.cmpi .eq (span (ix4 b l i j)) 1#32)
    (IntOp.cmpi .eq (spanPred x seqlen Wse bse Wys bys Wsp bsp b l i j) 1#32))

/-- A pair counted as a missed positive. -/
def tnTerm (x : ArrX) (span : ArrPair) (seqlen : ArrLen) (Wse : ArrWse) (bse : ArrBse) (Wys : ArrWys) (bys : ArrB1)
    (Wsp : ArrWsp) (bsp : ArrB1) (b : Fin 8) (l : Fin 16) (i j : Fin 512) : EReal :=
  ind (IntOp.andi (IntOp.cmpi .eq (span (ix4 b l i j)) 1#32)
    (IntOp.cmpi .ne (spanPred x seqlen Wse bse Wys bys Wsp bsp b l i j) 1#32))

/-- A pair counted as a false positive. -/
def fpTerm (x : ArrX) (span : ArrPair) (seqlen : ArrLen) (Wse : ArrWse) (bse : ArrBse) (Wys : ArrWys) (bys : ArrB1)
    (Wsp : ArrWsp) (bsp : ArrB1) (b : Fin 8) (l : Fin 16) (i j : Fin 512) : EReal :=
  ind (IntOp.andi (IntOp.cmpi .eq (span (ix4 b l i j)) 0#32)
    (IntOp.cmpi .eq (spanPred x seqlen Wse bse Wys bys Wsp bsp b l i j) 1#32))

/-- `val` at a pair, as a number. -/
def valF (val : ArrPair) (b : Fin 8) (l : Fin 16) (i j : Fin 512) : EReal := (((val (ix4 b l i j)).toInt : ℝ) : EReal)

/-- A pair's weighted focal term. -/
def spanTerm (x : ArrX) (span val : ArrPair) (Wys : ArrWys) (bys : ArrB1) (Wsp : ArrWsp) (bsp : ArrB1)
    (b : Fin 8) (l : Fin 16) (i j : Fin 512) : EReal :=
  focal (span (ix4 b l i j)) (spanProb x Wys bys Wsp bsp b l i j) * valF val b l i j

/-- A token's masked focal term against the labels `y` (`start` with `k = 0`, `end` with `k = 1`). -/
def seTerm (x : ArrX) (y : ArrTok) (seqlen : ArrLen) (Wse : ArrWse) (bse : ArrBse) (k : Fin 2)
    (b : Fin 8) (l : Fin 16) (n : Fin 512) : EReal :=
  focal (y (ix3 b l n)) (seProb x Wse bse b l n k) * maskF seqlen b n

/-- The sum of a per-pair quantity over every sentence and every pair. -/
def total (f : Fin 8 → Fin 16 → Fin 512 → Fin 512 → EReal) : EReal := ∑ b, ∑ l, ∑ i, ∑ j, f b l i j

/-- The masked start/end focal loss, summed sentence by sentence. -/
def seNum (x : ArrX) (start end_ : ArrTok) (seqlen : ArrLen) (Wse : ArrWse) (bse : ArrBse) : EReal :=
  ∑ b, ∑ l, ((∑ n, seTerm x start seqlen Wse bse 0 b l n) + (∑ n, seTerm x end_ seqlen Wse bse 1 b l n))

/-- The number of valid tokens: the lengths added up. -/
def tokCount (seqlen : ArrLen) : EReal := (((∑ b : Fin 8, (seqlen (ix1 b)).toInt : ℤ) : ℝ) : EReal)

/-- Every length lies between `0` and the padded length `512`. -/
def LenOk (seqlen : ArrLen) : Prop := ∀ b : Fin 8, 0 ≤ (seqlen (ix1 b)).toInt ∧ (seqlen (ix1 b)).toInt ≤ 512

/-- `se_loss`. -/
def seLoss (x : ArrX) (start end_ : ArrTok) (seqlen : ArrLen) (Wse : ArrWse) (bse : ArrBse) : EReal :=
  Ideal.div (seNum x start end_ seqlen Wse bse) (tokCount seqlen * c32)

/-- `span_loss`. -/
def spanLoss (x : ArrX) (span val : ArrPair) (Wys : ArrWys) (bys : ArrB1) (Wsp : ArrWsp) (bsp : ArrB1) : EReal :=
  Ideal.div (total (spanTerm x span val Wys bys Wsp bsp)) (total (valF val) + eps)

end Cert.SpanHead

end
-- ==== Proof.Lengths.lean ====
import Mathlib
import Idealize.ShloMosaic.PureOps.Reduce
import Idealize.ShloMosaic.Lib.Affine
import proofs.«122283_j2963527434982_1_alg».proof.Proof.Spec

/-!
# Sentence lengths

A sentence of length `s` (a 32-bit word read signed, between `0` and the padded length `512`) has
exactly `s` token positions `n < 512` with `n < s`. Summed over the eight sentences of a batch the
position masks therefore add up to the sum of the lengths, and eight such words add up inside the
32-bit range, so the signed reading of their 32-bit sum is that same integer.
-/

noncomputable section

namespace Cert.SpanHead

open Idealize.ShloMosaic Idealize.ShloMosaic.ValueIdx

/-! ## Finite sums of reals inside the extended reals -/

/-- A finite sum of reals, taken in the extended reals, is the real sum. -/
theorem coe_finset_sum {ι : Type*} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-! ## One comparison as a number -/

/-- A one-bit word widened to 32 bits and read signed is `1` when the bit is set and `0` otherwise. -/
theorem toInt_setWidth_bit (c : BitVec 1) : (c.setWidth 32).toInt = if c = 1#1 then 1 else 0 := by
  revert c; decide

/-- A position below `512`, written as a 32-bit word, reads back signed as itself. -/
theorem toInt_ofNat_pos (n : Fin 512) : (BitVec.ofNat 32 n.val).toInt = (n.val : ℤ) := by
  have hn := n.isLt
  have h : (BitVec.ofNat 32 n.val).toNat = n.val := by rw [BitVec.toNat_ofNat]; omega
  rw [BitVec.toInt_eq_toNat_of_lt (by omega), h]

/-- The mask word of position `n` against a length `s`, read signed: `1` if `n < s`, else `0`. -/
theorem toInt_mask (n : Fin 512) (s : BitVec 32) :
    ((IntOp.cmpi .slt (BitVec.ofNat 32 n.val) s).setWidth 32).toInt = if (n.val : ℤ) < s.toInt then 1 else 0 := by
  simp only [toInt_setWidth_bit, IntOp.cmpi_slt, toInt_ofNat_pos]

/-! ## Counting the positions below a length -/

/-- Among the positions `0, …, 511` exactly `k` lie below `k`, for `k ≤ 512`. -/
theorem count_lt (k : ℕ) (hk : k ≤ 512) : ∑ n : Fin 512, (if n.val < k then (1 : ℤ) else 0) = (k : ℤ) := by
  rw [Fin.sum_univ_eq_sum_range (fun i => if i < k then (1 : ℤ) else 0) 512, Finset.sum_boole]
  have h : (Finset.range 512).filter (· < k) = Finset.range k := by
    ext i; simp only [Finset.mem_filter, Finset.mem_range]; omega
  rw [h, Finset.card_range]

/-- The same count against an integer length between `0` and `512`. -/
theorem count_lt_int (z : ℤ) (h0 : 0 ≤ z) (h1 : z ≤ 512) :
    ∑ n : Fin 512, (if (n.val : ℤ) < z then (1 : ℤ) else 0) = z := by
  lift z to ℕ using h0 with k
  have hk : k ≤ 512 := by omega
  refine Eq.trans (Finset.sum_congr rfl fun n _ => ?_) (count_lt k hk)
  split_ifs <;> first | rfl | omega

/-- The masks of one sentence add up to its length. -/
theorem count_mask (s : BitVec 32) (h0 : 0 ≤ s.toInt) (h1 : s.toInt ≤ 512) :
    ∑ n : Fin 512, ((((IntOp.cmpi .slt (BitVec.ofNat 32 n.val) s).setWidth 32).toInt : ℝ) : EReal)
      = ((s.toInt : ℝ) : EReal) := by
  rw [coe_finset_sum]
  congr 1
  rw [← Int.cast_sum]
  congr 1
  rw [← count_lt_int s.toInt h0 h1]
  exact Finset.sum_congr rfl fun n _ => toInt_mask n s

/-- Over the batch the masks add up to the number of valid tokens. -/
theorem mask_total (seqlen : ArrLen) (h : LenOk seqlen) :
    ∑ b : Fin 8, ∑ n : Fin 512, maskF seqlen b n = tokCount seqlen := by
  have hb : ∀ b : Fin 8, ∑ n : Fin 512, maskF seqlen b n = (((seqlen (ix1 b)).toInt : ℝ) : EReal) := fun b =>
    count_mask (seqlen (ix1 b)) (h b).1 (h b).2
  simp only [hb]
  rw [coe_finset_sum, tokCount, Int.cast_sum]

/-! ## Eight lengths added in 32 bits -/

/-- Words between `0` and `512` (read signed), at most eight of them, add up in 32 bits without
    wrapping: the signed reading of the sum is the sum of the signed readings, which lies between
    `0` and `512` times their number. -/
theorem toInt_fold_addi {ι : Type*} (x : ι → BitVec 32) (S : Finset ι)
    (hx : ∀ i ∈ S, 0 ≤ (x i).toInt ∧ (x i).toInt ≤ 512) (hS : S.card ≤ 8) :
    (S.fold IntOp.addi 0#32 x).toInt = ∑ i ∈ S, (x i).toInt
      ∧ 0 ≤ ∑ i ∈ S, (x i).toInt ∧ ∑ i ∈ S, (x i).toInt ≤ 512 * (S.card : ℤ) := by
  classical
  induction S using Finset.induction_on with
  | empty => simp
  | insert a S ha ih =>
    have hc : S.card + 1 ≤ 8 := by rwa [Finset.card_insert_of_notMem ha] at hS
    obtain ⟨e, h0, hle⟩ := ih (fun i hi => hx i (Finset.mem_insert_of_mem hi)) (by omega)
    obtain ⟨ha0, ha1⟩ := hx a (Finset.mem_insert_self a S)
    rw [Finset.fold_insert ha, Finset.sum_insert ha, Finset.card_insert_of_notMem ha]
    refine ⟨?_, by omega, by push_cast; omega⟩
    have hcz : (S.card : ℤ) ≤ 7 := by omega
    rw [IntOp.addi, BitVec.toInt_add, e, Int.bmod_eq_of_le_mul_two (by norm_num; omega) (by norm_num; omega)]

/-- The index type of a rank-zero shape has one element. -/
theorem subsingleton_idx0 : Subsingleton (⟨0, ![]⟩ : Shape).Idx := ⟨fun _ _ => funext fun d => d.elim0⟩

/-- The indices of a one-axis array of eight entries are the eight positions. -/
def idx8Equiv : (⟨1, ![8]⟩ : Shape).Idx ≃ Fin 8 :=
  ⟨fun i => i 0, fun b => ix1 b, fun i => (eq_ix1 i).symm, fun _ => rfl⟩

/-- A sum over the indices of a one-axis array of eight entries, entry by entry. -/
theorem sum_idx8 {M : Type*} [AddCommMonoid M] (f : (⟨1, ![8]⟩ : Shape).Idx → M) :
    ∑ i, f i = ∑ b : Fin 8, f (ix1 b) :=
  (Fintype.sum_equiv idx8Equiv.symm _ _ fun _ => rfl).symm

/-- The sum of the eight lengths over the whole array, in 32 bits and read signed, is their sum as integers. -/
theorem toInt_reduce_len (seqlen : ArrLen) (hl : LenOk seqlen)
    (h : (⟨1, ![8]⟩ : Shape).ReducesTo [0] ⟨0, ![]⟩) (hS : 0 < (⟨0, ![]⟩ : Shape).numel) :
    (Host.reduce IntOp.addi seqlen (constantI ⟨0, ![]⟩ 32 0#32) h hS ValueIdx.ix0).toInt
      = ∑ b : Fin 8, (seqlen (ix1 b)).toInt := by
  haveI := subsingleton_idx0
  rw [Host.reduce_eq_fold]
  have hf : (Finset.univ.filter fun i => h.drop i = ValueIdx.ix0) = (Finset.univ : Finset (⟨1, ![8]⟩ : Shape).Idx) :=
    Finset.filter_true_of_mem fun i _ => Subsingleton.elim _ _
  rw [hf]
  show (Finset.univ.fold IntOp.addi 0#32 seqlen).toInt = _
  have hcard : (Finset.univ : Finset (⟨1, ![8]⟩ : Shape).Idx).card ≤ 8 := by
    rw [Finset.card_univ, Fintype.card_congr idx8Equiv, Fintype.card_fin]
  rw [(toInt_fold_addi seqlen Finset.univ (fun i _ => by rw [eq_ix1 i]; exact hl (i 0)) hcard).1, sum_idx8]

/-- The 32-bit sum of the eight lengths, read signed as a number, is the number of valid tokens. -/
theorem reduce_len (seqlen : ArrLen) (hl : LenOk seqlen)
    (h : (⟨1, ![8]⟩ : Shape).ReducesTo [0] ⟨0, ![]⟩) (hS : 0 < (⟨0, ![]⟩ : Shape).numel) :
    (((Host.reduce IntOp.addi seqlen (constantI ⟨0, ![]⟩ 32 0#32) h hS ValueIdx.ix0).toInt : ℝ) : EReal)
      = tokCount seqlen := by
  rw [toInt_reduce_len seqlen hl h hS]; rfl

/-- The same through the conversion of the sum word to a float, as an array of one entry. -/
theorem sitofp_reduce_len (seqlen : ArrLen) (hl : LenOk seqlen)
    (h : (⟨1, ![8]⟩ : Shape).ReducesTo [0] ⟨0, ![]⟩) (hS : 0 < (⟨0, ![]⟩ : Shape).numel) :
    (sitofp (F := Ideal) .f32 (Host.reduce IntOp.addi seqlen (constantI ⟨0, ![]⟩ 32 0#32) h hS) :
        FVec Ideal ⟨0, ![]⟩ .f32) = fun _ => tokCount seqlen := by
  funext i
  rw [eq_ix0 i]
  exact reduce_len seqlen hl h hS

end Cert.SpanHead

end
-- ==== Proof.PreLen.lean ====
import Mathlib
import Idealize.ShloMosaic.Lib.ReduceAll
import proofs.«122283_j2963527434982_1_alg».proof.Pre_finite_inputs
import proofs.«122283_j2963527434982_1_alg».proof.Proof.Gen.Pre_finite_inputs
import proofs.«122283_j2963527434982_1_alg».proof.Proof.Spec

/-!
# From the precondition to the bounds on the lengths

The precondition is a conjunction of "every entry" tests; its last conjunct tests every sentence length
`s`, read signed, for `0 ≤ s` and `s ≤ 512`. When the whole conjunction holds, so does its last
conjunct, and a test of every entry that holds, holds at each of the eight entries.
-/

noncomputable section

namespace Cert.SpanHead

open Idealize.ShloMosaic Idealize.ShloMosaic.ValueIdx
open Cert.Pre_finite_inputs (S8x16x512x768 S8x16x512 S8x16x512x512 S8 S768x2 S2 S768x1 S1 S2x1 S_)

/-- Under the precondition every sentence length lies between `0` and `512`. -/
theorem lenOk_of_pre
    (a0 : FVec Ideal S8x16x512x768 .f32) (a1 a2 : IVec S8x16x512 32) (a3 a4 : IVec S8x16x512x512 32)
    (a5 : IVec S8 32) (a6 : FVec Ideal S768x2 .f32) (a7 : FVec Ideal S2 .f32) (a8 : FVec Ideal S768x1 .f32)
    (a9 : FVec Ideal S1 .f32) (a10 : FVec Ideal S2x1 .f32) (a11 : FVec Ideal S1 .f32)
    (h : Cert.Pre_finite_inputs.fn (F := Ideal) a0 a1 a2 a3 a4 a5 a6 a7 a8 a9 a10 a11 = fun _ => 1#1) :
    LenOk a5 := by
  haveI : Subsingleton S_.Idx := ⟨fun _ _ => funext fun d => d.elim0⟩
  have h0 := congrFun h ValueIdx.ix0
  dsimp only [Cert.Pre_finite_inputs.fn, Cert.Pre_finite_inputs.fn_part1, Cert.Pre_finite_inputs.fn_part2] at h0
  have h1 := (IntOp.andi_eq_one.1 h0).2
  intro b
  have h2 := IntOp.andi_eq_one.1 (Host.reduce_andi_all _ _ _ _ _ h1 (ix1 b))
  have hge := IntOp.cmpi_sge.1 h2.1
  have hle := IntOp.cmpi_sle.1 h2.2
  exact ⟨hge, hle⟩

end Cert.SpanHead

end
-- ==== Proof.KernelPieces.lean ====
import proofs.«122283_j2963527434982_1_alg».proof.Proof.Gen.KernelIdeal.Frame
import Idealize.ShloMosaic.Lib.Pipeline.Value
import Idealize.ShloMosaic.Lib.ValueIdx
import Idealize.ShloMosaic.Lib.Tactic

set_option maxRecDepth 16384

noncomputable section
open Idealize.ShloMosaic Idealize.ShloMosaic.TcCoe Idealize.SL.Sem
open Idealize.ShloMosaic.Pipeline (Dat)

/-!
# What the kernel body stores

The body of one grid point — one sentence `(b, l)` — stores four blocks. Each is read back here as the
composition of the body's arithmetic (the generated payload terms) applied to the blocks it loaded: the
sentence's `span_pred` tile, its `start_pred` and `end_pred` rows, and the `6 × 128` tile of its statistics.
-/

namespace Cert.SpanHead.Pieces
open Cert.KernelIdeal Cert.KernelIdeal.Gen
variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- The word the body loads from the lengths at grid point `(b, l)` is `seqlen[b]`. -/
theorem lenWord_eq (i : grid0.Coords) (x0 : Vec F S8 .i32)
    (h : 0 < (Rect.unit (s := S8) (k0_off1 i) S1.size (k0_off1_inb i)).shape.numel) :
    View.ld x0 (Rect.unit (s := S8) (k0_off1 i) S1.size (k0_off1_inb i)) (Shape.Idx.first h) = x0 (ValueIdx.ix1 (i 0)) := by
  show x0 ((Rect.unit (s := S8) (k0_off1 i) S1.size (k0_off1_inb i)).emb (Shape.Idx.first h)) = _
  congr 1
  funext a
  apply Fin.ext
  match a with
  | ⟨0, _⟩ =>
    have hb : (i 0).val < 8 := (i 0).isLt
    have hk : k0_off1 i 0 = (i 0).val := by
      show (BitVec.ofNat 32 (i 0).val).toNat = (i 0).val
      rw [BitVec.toNat_ofNat]; exact Nat.mod_eq_of_lt (by omega)
    have hf : ((Shape.Idx.first h) (⟨0, by decide⟩ : Fin 1)).val = 0 := rfl
    show k0_off1 i 0 + 1 * ((Shape.Idx.first h) (⟨0, by decide⟩ : Fin 1)).val = (i 0).val
    omega

/-! ## The body's intermediate values, as the payloads compose them

`x0` is the lengths, `x1` the sentence's features, `x2`, `x3` its `span` and `val` tiles, `x4`, `x5` its `start` and
`end` rows, `x6 … x11` the weights `W_se, b_se, W_ys, b_ys, W_span, b_span`; `w` is the sentence's length word. -/

/-- The start probabilities of the sentence's tokens. -/
abbrev pStart (x1 : Vec F S1x1x512x768 .f32) (x6 : Vec F S768x2 .f32) (x7 : Vec F S2 .f32) := k0_pay4 x1 x6 x7
/-- The end probabilities. -/
abbrev pEnd (x1 : Vec F S1x1x512x768 .f32) (x6 : Vec F S768x2 .f32) (x7 : Vec F S2 .f32) := k0_pay5 x1 x6 x7
/-- The tokens' span scalars. -/
abbrev tokS (x1 : Vec F S1x1x512x768 .f32) (x8 : Vec F S768x1 .f32) (x9 : Vec F S1 .f32) := k0_pay6 x1 x8 x9
/-- The length mask as words, and as numbers. -/
abbrev mskI (w : Elt F .i32) := k0_pay7 (F := F) w
abbrev mskF (w : Elt F .i32) := k0_pay8 (F := F) w
/-- `start_pred`, `end_pred` of the sentence. -/
abbrev predS (w : Elt F .i32) (x1 : Vec F S1x1x512x768 .f32) (x6 : Vec F S768x2 .f32) (x7 : Vec F S2 .f32) :=
  k0_pay12 (pStart x1 x6 x7) (mskI w)
abbrev predE (w : Elt F .i32) (x1 : Vec F S1x1x512x768 .f32) (x6 : Vec F S768x2 .f32) (x7 : Vec F S2 .f32) :=
  k0_pay13 (pEnd x1 x6 x7) (mskI w)
/-- The span probabilities of the sentence's token pairs. -/
abbrev pSpan (x1 : Vec F S1x1x512x768 .f32) (x8 : Vec F S768x1 .f32) (x9 : Vec F S1 .f32) (x10 : Vec F S2x1 .f32)
    (x11 : Vec F S1 .f32) := k0_pay14 x10 x11 (tokS x1 x8 x9)
/-- "Above one half" times `start_pred` at the row token; `end_pred` at the column token. -/
abbrev rowPart (w : Elt F .i32) (x1 : Vec F S1x1x512x768 .f32) (x6 : Vec F S768x2 .f32) (x7 : Vec F S2 .f32)
    (x8 : Vec F S768x1 .f32) (x9 : Vec F S1 .f32) (x10 : Vec F S2x1 .f32) (x11 : Vec F S1 .f32) :=
  k0_pay16 x10 x11 (pStart x1 x6 x7) (tokS x1 x8 x9) (mskI w)
abbrev colPart (w : Elt F .i32) (x1 : Vec F S1x1x512x768 .f32) (x6 : Vec F S768x2 .f32) (x7 : Vec F S2 .f32) :=
  k0_pay17 (pEnd x1 x6 x7) (mskI w)
/-- `span_pred` of the sentence, as a `512 × 512` tile. -/
abbrev predSpan (w : Elt F .i32) (x1 : Vec F S1x1x512x768 .f32) (x6 : Vec F S768x2 .f32) (x7 : Vec F S2 .f32)
    (x8 : Vec F S768x1 .f32) (x9 : Vec F S1 .f32) (x10 : Vec F S2x1 .f32) (x11 : Vec F S1 .f32) :=
  k0_pay18 k0_pay15 (rowPart w x1 x6 x7 x8 x9 x10 x11) (colPart w x1 x6 x7)
/-- The six statistics of the sentence, each repeated over 128 lanes. -/
abbrev statTile (w : Elt F .i32) (x1 : Vec F S1x1x512x768 .f32) (x2 x3 : Vec F S1x1x512x512 .i32)
    (x4 x5 : Vec F S1x1x1x512 .i32) (x6 : Vec F S768x2 .f32) (x7 : Vec F S2 .f32)
    (x8 : Vec F S768x1 .f32) (x9 : Vec F S1 .f32) (x10 : Vec F S2x1 .f32) (x11 : Vec F S1 .f32) :=
  k0_pay1
    (k0_pay11 (k0_pay9 (pStart x1 x6 x7) (mskF w) x4) (k0_pay10 (pEnd x1 x6 x7) (mskF w) x5))
    (k0_pay21 (pSpan x1 x8 x9 x10 x11) x2 x3)
    (k0_pay22 x3)
    (k0_pay24 (predSpan w x1 x6 x7 x8 x9 x10 x11) (k0_pay19 x2))
    (k0_pay25 (predSpan w x1 x6 x7 x8 x9 x10 x11) (k0_pay19 x2))
    (k0_pay29 (k0_pay23 k0_pay15 (rowPart w x1 x6 x7 x8 x9 x10 x11) (colPart w x1 x6 x7) x2))

/-! ## What the body's stores leave in each output buffer -/

theorem out13_eq (c : Dev nD) (i : grid0.Coords) (arg2 : Memref sig .tc .smem S8 .i32) (harg2 : arg2.IsWhole) (arg3 : Memref sig .tc .vmem S1x1x512x768 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x1x512 .i32) (harg6 : arg6.IsWhole) (arg7 : Memref sig .tc .vmem S1x1x1x512 .i32) (harg7 : arg7.IsWhole) (arg8 : Memref sig .tc .vmem S768x2 .f32) (harg8 : arg8.IsWhole) (arg9 : Memref sig .tc .vmem S2 .f32) (harg9 : arg9.IsWhole) (arg10 : Memref sig .tc .vmem S768x1 .f32) (harg10 : arg10.IsWhole) (arg11 : Memref sig .tc .vmem S1 .f32) (harg11 : arg11.IsWhole) (arg12 : Memref sig .tc .vmem S2x1 .f32) (harg12 : arg12.IsWhole) (arg13 : Memref sig .tc .vmem S1 .f32) (harg13 : arg13.IsWhole) (arg14 : Memref sig .tc .vmem S1x1x512x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x6x128 .f32) (harg17 : arg17.IsWhole)
    (x0 : Vec F S8 .i32) (x1 : Vec F S1x1x512x768 .f32) (x2 : Vec F S1x1x512x512 .i32) (x3 : Vec F S1x1x512x512 .i32) (x4 : Vec F S1x1x1x512 .i32) (x5 : Vec F S1x1x1x512 .i32) (x6 : Vec F S768x2 .f32) (x7 : Vec F S2 .f32) (x8 : Vec F S768x1 .f32) (x9 : Vec F S1 .f32) (x10 : Vec F S2x1 .f32) (x11 : Vec F S1 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = k0_pay27 (predS (x0 (ValueIdx.ix1 (i 0))) x1 x6 x7) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x1x512x768) hz4, View.ld_unit_zero (S := S1x1x512x512) hz4, View.ld_unit_zero (S := S1x1x1x512) hz4, View.ld_unit_zero (S := S768x2) hz2, View.ld_unit_zero (S := S2) hz1, View.ld_unit_zero (S := S768x1) hz2, View.ld_unit_zero (S := S1) hz1, View.ld_unit_zero (S := S2x1) hz2]
  exact congrArg (fun w => k0_pay27 (predS w x1 x6 x7)) (lenWord_eq i x0 _)

theorem out14_eq (c : Dev nD) (i : grid0.Coords) (arg2 : Memref sig .tc .smem S8 .i32) (harg2 : arg2.IsWhole) (arg3 : Memref sig .tc .vmem S1x1x512x768 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x1x512 .i32) (harg6 : arg6.IsWhole) (arg7 : Memref sig .tc .vmem S1x1x1x512 .i32) (harg7 : arg7.IsWhole) (arg8 : Memref sig .tc .vmem S768x2 .f32) (harg8 : arg8.IsWhole) (arg9 : Memref sig .tc .vmem S2 .f32) (harg9 : arg9.IsWhole) (arg10 : Memref sig .tc .vmem S768x1 .f32) (harg10 : arg10.IsWhole) (arg11 : Memref sig .tc .vmem S1 .f32) (harg11 : arg11.IsWhole) (arg12 : Memref sig .tc .vmem S2x1 .f32) (harg12 : arg12.IsWhole) (arg13 : Memref sig .tc .vmem S1 .f32) (harg13 : arg13.IsWhole) (arg14 : Memref sig .tc .vmem S1x1x512x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x6x128 .f32) (harg17 : arg17.IsWhole)
    (x0 : Vec F S8 .i32) (x1 : Vec F S1x1x512x768 .f32) (x2 : Vec F S1x1x512x512 .i32) (x3 : Vec F S1x1x512x512 .i32) (x4 : Vec F S1x1x1x512 .i32) (x5 : Vec F S1x1x1x512 .i32) (x6 : Vec F S768x2 .f32) (x7 : Vec F S2 .f32) (x8 : Vec F S768x1 .f32) (x9 : Vec F S1 .f32) (x10 : Vec F S2x1 .f32) (x11 : Vec F S1 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = k0_pay28 (predE (x0 (ValueIdx.ix1 (i 0))) x1 x6 x7) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x1x512x768) hz4, View.ld_unit_zero (S := S1x1x512x512) hz4, View.ld_unit_zero (S := S1x1x1x512) hz4, View.ld_unit_zero (S := S768x2) hz2, View.ld_unit_zero (S := S2) hz1, View.ld_unit_zero (S := S768x1) hz2, View.ld_unit_zero (S := S1) hz1, View.ld_unit_zero (S := S2x1) hz2]
  exact congrArg (fun w => k0_pay28 (predE w x1 x6 x7)) (lenWord_eq i x0 _)

theorem out12_eq (c : Dev nD) (i : grid0.Coords) (arg2 : Memref sig .tc .smem S8 .i32) (harg2 : arg2.IsWhole) (arg3 : Memref sig .tc .vmem S1x1x512x768 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x1x512 .i32) (harg6 : arg6.IsWhole) (arg7 : Memref sig .tc .vmem S1x1x1x512 .i32) (harg7 : arg7.IsWhole) (arg8 : Memref sig .tc .vmem S768x2 .f32) (harg8 : arg8.IsWhole) (arg9 : Memref sig .tc .vmem S2 .f32) (harg9 : arg9.IsWhole) (arg10 : Memref sig .tc .vmem S768x1 .f32) (harg10 : arg10.IsWhole) (arg11 : Memref sig .tc .vmem S1 .f32) (harg11 : arg11.IsWhole) (arg12 : Memref sig .tc .vmem S2x1 .f32) (harg12 : arg12.IsWhole) (arg13 : Memref sig .tc .vmem S1 .f32) (harg13 : arg13.IsWhole) (arg14 : Memref sig .tc .vmem S1x1x512x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x6x128 .f32) (harg17 : arg17.IsWhole)
    (x0 : Vec F S8 .i32) (x1 : Vec F S1x1x512x768 .f32) (x2 : Vec F S1x1x512x512 .i32) (x3 : Vec F S1x1x512x512 .i32) (x4 : Vec F S1x1x1x512 .i32) (x5 : Vec F S1x1x1x512 .i32) (x6 : Vec F S768x2 .f32) (x7 : Vec F S2 .f32) (x8 : Vec F S768x1 .f32) (x9 : Vec F S1 .f32) (x10 : Vec F S2x1 .f32) (x11 : Vec F S1 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = k0_pay26 (predSpan (x0 (ValueIdx.ix1 (i 0))) x1 x6 x7 x8 x9 x10 x11) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x1x512x768) hz4, View.ld_unit_zero (S := S1x1x512x512) hz4, View.ld_unit_zero (S := S1x1x1x512) hz4, View.ld_unit_zero (S := S768x2) hz2, View.ld_unit_zero (S := S2) hz1, View.ld_unit_zero (S := S768x1) hz2, View.ld_unit_zero (S := S1) hz1, View.ld_unit_zero (S := S2x1) hz2]
  exact congrArg (fun w => k0_pay26 (predSpan w x1 x6 x7 x8 x9 x10 x11)) (lenWord_eq i x0 _)

theorem out15_eq (c : Dev nD) (i : grid0.Coords) (arg2 : Memref sig .tc .smem S8 .i32) (harg2 : arg2.IsWhole) (arg3 : Memref sig .tc .vmem S1x1x512x768 .f32) (harg3 : arg3.IsWhole) (arg4 : Memref sig .tc .vmem S1x1x512x512 .i32) (harg4 : arg4.IsWhole) (arg5 : Memref sig .tc .vmem S1x1x512x512 .i32) (harg5 : arg5.IsWhole) (arg6 : Memref sig .tc .vmem S1x1x1x512 .i32) (harg6 : arg6.IsWhole) (arg7 : Memref sig .tc .vmem S1x1x1x512 .i32) (harg7 : arg7.IsWhole) (arg8 : Memref sig .tc .vmem S768x2 .f32) (harg8 : arg8.IsWhole) (arg9 : Memref sig .tc .vmem S2 .f32) (harg9 : arg9.IsWhole) (arg10 : Memref sig .tc .vmem S768x1 .f32) (harg10 : arg10.IsWhole) (arg11 : Memref sig .tc .vmem S1 .f32) (harg11 : arg11.IsWhole) (arg12 : Memref sig .tc .vmem S2x1 .f32) (harg12 : arg12.IsWhole) (arg13 : Memref sig .tc .vmem S1 .f32) (harg13 : arg13.IsWhole) (arg14 : Memref sig .tc .vmem S1x1x512x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x6x128 .f32) (harg17 : arg17.IsWhole)
    (x0 : Vec F S8 .i32) (x1 : Vec F S1x1x512x768 .f32) (x2 : Vec F S1x1x512x512 .i32) (x3 : Vec F S1x1x512x512 .i32) (x4 : Vec F S1x1x1x512 .i32) (x5 : Vec F S1x1x1x512 .i32) (x6 : Vec F S768x2 .f32) (x7 : Vec F S2 .f32) (x8 : Vec F S768x1 .f32) (x9 : Vec F S1 .f32) (x10 : Vec F S2x1 .f32) (x11 : Vec F S1 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = statTile (x0 (ValueIdx.ix1 (i 0))) x1 x2 x3 x4 x5 x6 x7 x8 x9 x10 x11 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x1x512x768) hz4, View.ld_unit_zero (S := S1x1x512x512) hz4, View.ld_unit_zero (S := S1x1x1x512) hz4, View.ld_unit_zero (S := S768x2) hz2, View.ld_unit_zero (S := S2) hz1, View.ld_unit_zero (S := S768x1) hz2, View.ld_unit_zero (S := S1) hz1, View.ld_unit_zero (S := S2x1) hz2]
  exact congrArg (fun w => statTile w x1 x2 x3 x4 x5 x6 x7 x8 x9 x10 x11) (lenWord_eq i x0 _)

end Cert.SpanHead.Pieces
end
-- ==== Proof.KernelAt.lean ====
import proofs.«122283_j2963527434982_1_alg».proof.Proof.Gen.KernelIdeal.Frame
import Idealize.ShloMosaic.Lib.Pipeline.Value
import Idealize.ShloMosaic.Lib.ValueIdx
import Idealize.ShloMosaic.Lib.Tactic

set_option maxRecDepth 16384

noncomputable section
open Idealize.ShloMosaic Idealize.ShloMosaic.TcCoe Idealize.SL.Sem
open Idealize.ShloMosaic.Pipeline (Dat)

/-!
# Where a grid point's blocks sit in the arrays

The grid has one point per sentence `(b, l)` of the `8 × 16` batch. Each blocked window's block at that point is the
slab `[b, l, :, :]` of its array; the lengths and the weights are staged whole. This file decides the printed index
maps once over the 128 points and reads every input block, at an index, back in the array it was fetched from.
-/

namespace Cert.SpanHead.At
open Cert.KernelIdeal Cert.KernelIdeal.Gen
variable {F : FTy → Type} [FloatOps F]
variable (m : (ℓ : Loc nD τ sig) → Buf (Elt F) ℓ)

/-- The sentence `(b, l)` a grid point works on. -/
def bOf (t : Fin cfg0.N) : Fin 8 := grid0.coords t 0
def lOf (t : Fin cfg0.N) : Fin 16 := grid0.coords t 1

/-- The printed index maps, decided over the grid: a blocked window's block index at a point is `(b, l, 0, 0)`, a
    whole window's is zero. -/
theorem idx_facts : ∀ t : Fin cfg0.N,
    win0_1.index t = ![(bOf t).val, (lOf t).val, 0, 0]
    ∧ win0_2.index t = ![(bOf t).val, (lOf t).val, 0, 0]
    ∧ win0_3.index t = ![(bOf t).val, (lOf t).val, 0, 0]
    ∧ win0_4.index t = ![(bOf t).val, (lOf t).val, 0, 0]
    ∧ win0_5.index t = ![(bOf t).val, (lOf t).val, 0, 0]
    ∧ win0_12.index t = ![(bOf t).val, (lOf t).val, 0, 0]
    ∧ win0_13.index t = ![(bOf t).val, (lOf t).val, 0, 0]
    ∧ win0_14.index t = ![(bOf t).val, (lOf t).val, 0, 0]
    ∧ win0_15.index t = ![(bOf t).val, (lOf t).val, 0, 0]
    ∧ win0_0.index t = ![0]
    ∧ win0_6.index t = ![0, 0]
    ∧ win0_7.index t = ![0]
    ∧ win0_8.index t = ![0, 0]
    ∧ win0_9.index t = ![0]
    ∧ win0_10.index t = ![0, 0]
    ∧ win0_11.index t = ![0] :=
  (by decide +kernel : ∀ t : Fin grid0.N, _)

/-- Every sentence is some point's. -/
theorem idx_onto : ∀ (b : Fin 8) (l : Fin 16), ∃ t : Fin cfg0.N, bOf t = b ∧ lOf t = l :=
  (by decide +kernel : ∀ (b : Fin 8) (l : Fin 16), ∃ t : Fin grid0.N, bOf t = b ∧ lOf t = l)

/-! ## Windows staged whole: the block is the array -/

theorem iblk0_eq (c : Dev nD) (t : Fin cfg0.N) : iblk m c 0 t = V m c main_arg5 := by
  funext y
  show V m c main_arg5 (((cfg0.win 0).blk t).view.emb y) = V m c main_arg5 y
  congr 1
  funext a
  apply Fin.ext
  have e := (idx_facts t).2.2.2.2.2.2.2.2.2.1
  match a with
  | ⟨0, _⟩ => show win0_0.index t (0 : Fin 1) * 8 + 1 * (y 0).val = (y 0).val; have e0 : win0_0.index t (0 : Fin 1) = 0 := congrFun e 0; omega

theorem iblk6_eq (c : Dev nD) (t : Fin cfg0.N) : iblk m c 6 t = V m c main_arg6 := by
  funext y
  show V m c main_arg6 (((cfg0.win 6).blk t).view.emb y) = V m c main_arg6 y
  congr 1
  funext a
  apply Fin.ext
  have e := (idx_facts t).2.2.2.2.2.2.2.2.2.2.1
  match a with
  | ⟨0, _⟩ => show win0_6.index t (0 : Fin 2) * 768 + 1 * (y 0).val = (y 0).val; have e0 : win0_6.index t (0 : Fin 2) = 0 := congrFun e 0; omega
  | ⟨1, _⟩ => show win0_6.index t (1 : Fin 2) * 2 + 1 * (y 1).val = (y 1).val; have e1 : win0_6.index t (1 : Fin 2) = 0 := congrFun e 1; omega

theorem iblk7_eq (c : Dev nD) (t : Fin cfg0.N) : iblk m c 7 t = V m c main_arg7 := by
  funext y
  show V m c main_arg7 (((cfg0.win 7).blk t).view.emb y) = V m c main_arg7 y
  congr 1
  funext a
  apply Fin.ext
  have e := (idx_facts t).2.2.2.2.2.2.2.2.2.2.2.1
  match a with
  | ⟨0, _⟩ => show win0_7.index t (0 : Fin 1) * 2 + 1 * (y 0).val = (y 0).val; have e0 : win0_7.index t (0 : Fin 1) = 0 := congrFun e 0; omega

theorem iblk8_eq (c : Dev nD) (t : Fin cfg0.N) : iblk m c 8 t = V m c main_arg8 := by
  funext y
  show V m c main_arg8 (((cfg0.win 8).blk t).view.emb y) = V m c main_arg8 y
  congr 1
  funext a
  apply Fin.ext
  have e := (idx_facts t).2.2.2.2.2.2.2.2.2.2.2.2.1
  match a with
  | ⟨0, _⟩ => show win0_8.index t (0 : Fin 2) * 768 + 1 * (y 0).val = (y 0).val; have e0 : win0_8.index t (0 : Fin 2) = 0 := congrFun e 0; omega
  | ⟨1, _⟩ => show win0_8.index t (1 : Fin 2) * 1 + 1 * (y 1).val = (y 1).val; have e1 : win0_8.index t (1 : Fin 2) = 0 := congrFun e 1; omega

theorem iblk9_eq (c : Dev nD) (t : Fin cfg0.N) : iblk m c 9 t = V m c main_arg9 := by
  funext y
  show V m c main_arg9 (((cfg0.win 9).blk t).view.emb y) = V m c main_arg9 y
  congr 1
  funext a
  apply Fin.ext
  have e := (idx_facts t).2.2.2.2.2.2.2.2.2.2.2.2.2.1
  match a with
  | ⟨0, _⟩ => show win0_9.index t (0 : Fin 1) * 1 + 1 * (y 0).val = (y 0).val; have e0 : win0_9.index t (0 : Fin 1) = 0 := congrFun e 0; omega

theorem iblk10_eq (c : Dev nD) (t : Fin cfg0.N) : iblk m c 10 t = V m c main_arg10 := by
  funext y
  show V m c main_arg10 (((cfg0.win 10).blk t).view.emb y) = V m c main_arg10 y
  congr 1
  funext a
  apply Fin.ext
  have e := (idx_facts t).2.2.2.2.2.2.2.2.2.2.2.2.2.2.1
  match a with
  | ⟨0, _⟩ => show win0_10.index t (0 : Fin 2) * 2 + 1 * (y 0).val = (y 0).val; have e0 : win0_10.index t (0 : Fin 2) = 0 := congrFun e 0; omega
  | ⟨1, _⟩ => show win0_10.index t (1 : Fin 2) * 1 + 1 * (y 1).val = (y 1).val; have e1 : win0_10.index t (1 : Fin 2) = 0 := congrFun e 1; omega

theorem iblk11_eq (c : Dev nD) (t : Fin cfg0.N) : iblk m c 11 t = V m c main_arg11 := by
  funext y
  show V m c main_arg11 (((cfg0.win 11).blk t).view.emb y) = V m c main_arg11 y
  congr 1
  funext a
  apply Fin.ext
  have e := (idx_facts t).2.2.2.2.2.2.2.2.2.2.2.2.2.2.2
  match a with
  | ⟨0, _⟩ => show win0_11.index t (0 : Fin 1) * 1 + 1 * (y 0).val = (y 0).val; have e0 : win0_11.index t (0 : Fin 1) = 0 := congrFun e 0; omega

/-! ## Blocked windows: the block at `(b, l)` is the slab `[b, l, :, :]` -/

theorem iblk1_at (c : Dev nD) (t : Fin cfg0.N) (i : Fin 512) (j : Fin 768) :
    iblk m c 1 t (ValueIdx.ix4 0 0 i j) = V m c main_arg0 (ValueIdx.ix4 (bOf t) (lOf t) i j) := by
  show V m c main_arg0 (((cfg0.win 1).blk t).view.emb (ValueIdx.ix4 0 0 i j)) = _
  congr 1
  funext a
  apply Fin.ext
  have e := (idx_facts t).1
  have e0 : win0_1.index t (0 : Fin 4) = (bOf t).val := congrFun e 0
  have e1 : win0_1.index t (1 : Fin 4) = (lOf t).val := congrFun e 1
  have e2 : win0_1.index t (2 : Fin 4) = 0 := congrFun e 2
  have e3 : win0_1.index t (3 : Fin 4) = 0 := congrFun e 3
  match a with
  | ⟨0, _⟩ => show win0_1.index t (0 : Fin 4) * 1 + 1 * 0 = (bOf t).val; omega
  | ⟨1, _⟩ => show win0_1.index t (1 : Fin 4) * 1 + 1 * 0 = (lOf t).val; omega
  | ⟨2, _⟩ => show win0_1.index t (2 : Fin 4) * 512 + 1 * (i).val = (i).val; omega
  | ⟨3, _⟩ => show win0_1.index t (3 : Fin 4) * 768 + 1 * j.val = j.val; omega

theorem iblk2_at (c : Dev nD) (t : Fin cfg0.N) (i : Fin 512) (j : Fin 512) :
    iblk m c 2 t (ValueIdx.ix4 0 0 i j) = V m c main_arg3 (ValueIdx.ix4 (bOf t) (lOf t) i j) := by
  show V m c main_arg3 (((cfg0.win 2).blk t).view.emb (ValueIdx.ix4 0 0 i j)) = _
  congr 1
  funext a
  apply Fin.ext
  have e := (idx_facts t).2.1
  have e0 : win0_2.index t (0 : Fin 4) = (bOf t).val := congrFun e 0
  have e1 : win0_2.index t (1 : Fin 4) = (lOf t).val := congrFun e 1
  have e2 : win0_2.index t (2 : Fin 4) = 0 := congrFun e 2
  have e3 : win0_2.index t (3 : Fin 4) = 0 := congrFun e 3
  match a with
  | ⟨0, _⟩ => show win0_2.index t (0 : Fin 4) * 1 + 1 * 0 = (bOf t).val; omega
  | ⟨1, _⟩ => show win0_2.index t (1 : Fin 4) * 1 + 1 * 0 = (lOf t).val; omega
  | ⟨2, _⟩ => show win0_2.index t (2 : Fin 4) * 512 + 1 * (i).val = (i).val; omega
  | ⟨3, _⟩ => show win0_2.index t (3 : Fin 4) * 512 + 1 * j.val = j.val; omega

theorem iblk3_at (c : Dev nD) (t : Fin cfg0.N) (i : Fin 512) (j : Fin 512) :
    iblk m c 3 t (ValueIdx.ix4 0 0 i j) = V m c main_arg4 (ValueIdx.ix4 (bOf t) (lOf t) i j) := by
  show V m c main_arg4 (((cfg0.win 3).blk t).view.emb (ValueIdx.ix4 0 0 i j)) = _
  congr 1
  funext a
  apply Fin.ext
  have e := (idx_facts t).2.2.1
  have e0 : win0_3.index t (0 : Fin 4) = (bOf t).val := congrFun e 0
  have e1 : win0_3.index t (1 : Fin 4) = (lOf t).val := congrFun e 1
  have e2 : win0_3.index t (2 : Fin 4) = 0 := congrFun e 2
  have e3 : win0_3.index t (3 : Fin 4) = 0 := congrFun e 3
  match a with
  | ⟨0, _⟩ => show win0_3.index t (0 : Fin 4) * 1 + 1 * 0 = (bOf t).val; omega
  | ⟨1, _⟩ => show win0_3.index t (1 : Fin 4) * 1 + 1 * 0 = (lOf t).val; omega
  | ⟨2, _⟩ => show win0_3.index t (2 : Fin 4) * 512 + 1 * (i).val = (i).val; omega
  | ⟨3, _⟩ => show win0_3.index t (3 : Fin 4) * 512 + 1 * j.val = j.val; omega

theorem iblk4_at (c : Dev nD) (t : Fin cfg0.N) (j : Fin 512) :
    iblk m c 4 t (ValueIdx.ix4 0 0 (0 : Fin 1) j) = V m c main_v0 (ValueIdx.ix4 (bOf t) (lOf t) (0 : Fin 1) j) := by
  show V m c main_v0 (((cfg0.win 4).blk t).view.emb (ValueIdx.ix4 0 0 (0 : Fin 1) j)) = _
  congr 1
  funext a
  apply Fin.ext
  have e := (idx_facts t).2.2.2.1
  have e0 : win0_4.index t (0 : Fin 4) = (bOf t).val := congrFun e 0
  have e1 : win0_4.index t (1 : Fin 4) = (lOf t).val := congrFun e 1
  have e2 : win0_4.index t (2 : Fin 4) = 0 := congrFun e 2
  have e3 : win0_4.index t (3 : Fin 4) = 0 := congrFun e 3
  match a with
  | ⟨0, _⟩ => show win0_4.index t (0 : Fin 4) * 1 + 1 * 0 = (bOf t).val; omega
  | ⟨1, _⟩ => show win0_4.index t (1 : Fin 4) * 1 + 1 * 0 = (lOf t).val; omega
  | ⟨2, _⟩ => show win0_4.index t (2 : Fin 4) * 1 + 1 * ((0 : Fin 1)).val = ((0 : Fin 1)).val; omega
  | ⟨3, _⟩ => show win0_4.index t (3 : Fin 4) * 512 + 1 * j.val = j.val; omega

theorem iblk5_at (c : Dev nD) (t : Fin cfg0.N) (j : Fin 512) :
    iblk m c 5 t (ValueIdx.ix4 0 0 (0 : Fin 1) j) = V m c main_v1 (ValueIdx.ix4 (bOf t) (lOf t) (0 : Fin 1) j) := by
  show V m c main_v1 (((cfg0.win 5).blk t).view.emb (ValueIdx.ix4 0 0 (0 : Fin 1) j)) = _
  congr 1
  funext a
  apply Fin.ext
  have e := (idx_facts t).2.2.2.2.1
  have e0 : win0_5.index t (0 : Fin 4) = (bOf t).val := congrFun e 0
  have e1 : win0_5.index t (1 : Fin 4) = (lOf t).val := congrFun e 1
  have e2 : win0_5.index t (2 : Fin 4) = 0 := congrFun e 2
  have e3 : win0_5.index t (3 : Fin 4) = 0 := congrFun e 3
  match a with
  | ⟨0, _⟩ => show win0_5.index t (0 : Fin 4) * 1 + 1 * 0 = (bOf t).val; omega
  | ⟨1, _⟩ => show win0_5.index t (1 : Fin 4) * 1 + 1 * 0 = (lOf t).val; omega
  | ⟨2, _⟩ => show win0_5.index t (2 : Fin 4) * 1 + 1 * ((0 : Fin 1)).val = ((0 : Fin 1)).val; omega
  | ⟨3, _⟩ => show win0_5.index t (3 : Fin 4) * 512 + 1 * j.val = j.val; omega

end Cert.SpanHead.At
end
-- ==== Proof.KernelHostPre.lean ====
import proofs.«122283_j2963527434982_1_alg».proof.Proof.Gen.KernelIdeal.Frame
import Idealize.ShloMosaic.Lib.Pipeline.Value
import Idealize.ShloMosaic.Lib.ValueIdx
import Idealize.ShloMosaic.Lib.Tactic
import Idealize.ShloMosaic.Lib.StableHlo.Run

set_option maxRecDepth 16384

noncomputable section
open Idealize.ShloMosaic Idealize.ShloMosaic.TcCoe Idealize.SL.Sem
open Idealize.ShloMosaic.Pipeline (Dat)

/-!
# The two arrays the host writes before the kernel is launched

`start` and `end`, of shape `[8, 16, 512]`, are given a unit third axis (`[8, 16, 1, 512]`) by a host broadcast before
the launch; the kernel's windows 4 and 5 are blocks of those. Read at `(b, l, 0, n)` they are the labels at `(b, l, n)`.
-/

namespace Cert.SpanHead.HostPre
open Cert.KernelIdeal Cert.KernelIdeal.Gen
variable {F : FTy → Type} [FloatOps F]
variable (m : (ℓ : Loc nD τ sig) → Buf (Elt F) ℓ)

theorem V_v0 (c : Dev nD) : (V m c main_v0 : S8x16x1x512.Idx → Elt F .i32)
    = broadcastInDim S8x16x1x512 ![0, 1, 3] bcast_S8x16x512_S8x16x1x512_0_1_3 (m ((c : Thread nD τ).loc main_arg1)) := by
  show StableHlo.after hostOps0 (fun b => m (c, b)) (Proc.devRef .tc main_v0) = _
  after_results

theorem V_v1 (c : Dev nD) : (V m c main_v1 : S8x16x1x512.Idx → Elt F .i32)
    = broadcastInDim S8x16x1x512 ![0, 1, 3] bcast_S8x16x512_S8x16x1x512_0_1_3 (m ((c : Thread nD τ).loc main_arg2)) := by
  show StableHlo.after hostOps0 (fun b => m (c, b)) (Proc.devRef .tc main_v1) = _
  after_results

/-- A `[8, 16, 512]` array given a unit third axis, read at `(b, l, 0, n)`. -/
theorem unit_axis_at {α : Type} (x : S8x16x512.Idx → α) (b : Fin 8) (l : Fin 16) (n : Fin 512) :
    broadcastInDim S8x16x1x512 ![0, 1, 3] bcast_S8x16x512_S8x16x1x512_0_1_3 x (ValueIdx.ix4 b l (0 : Fin 1) n)
      = x (ValueIdx.ix3 b l n) :=
  broadcastInDim_apply _ _ x _ (ValueIdx.ix3 b l n) (fun a => by
    match a with
    | ⟨0, _⟩ => rfl
    | ⟨1, _⟩ => rfl
    | ⟨2, _⟩ => rfl)

theorem V_v0_at (c : Dev nD) (b : Fin 8) (l : Fin 16) (n : Fin 512) :
    V m c main_v0 (ValueIdx.ix4 b l (0 : Fin 1) n) = m ((c : Thread nD τ).loc main_arg1) (ValueIdx.ix3 b l n) := by
  rw [V_v0]; exact unit_axis_at _ b l n

theorem V_v1_at (c : Dev nD) (b : Fin 8) (l : Fin 16) (n : Fin 512) :
    V m c main_v1 (ValueIdx.ix4 b l (0 : Fin 1) n) = m ((c : Thread nD τ).loc main_arg2) (ValueIdx.ix3 b l n) := by
  rw [V_v1]; exact unit_axis_at _ b l n

end Cert.SpanHead.HostPre
end
-- ==== Proof.KernelBlockA.lean ====
import proofs.«122283_j2963527434982_1_alg».proof.Proof.Spec
import proofs.«122283_j2963527434982_1_alg».proof.Proof.Gen.KernelIdeal.Skeleton
import Idealize.ShloMosaic.Lib.ValueLayout
import Idealize.ShloMosaic.PureOps.Ideal.Laws

/-!
# The kernel body's shared intermediate values, read at an index

One grid point `(b, l)` of the kernel works on the sentence's block of `x` (`512 × 768`), on the whole
weight arrays and on the sentence's length word.  This file reads, element by element, the values every
later part of the body uses: the start and end probabilities (a `512 × 768` by `768 × 2` product plus a
bias, through the logistic function, one column each), the token's scalar (the `768 × 1` product plus its
bias), the length mask as a word and as a number, and the span probability of a token pair.  Each is
identified with the specification's function of the argument arrays at `(b, l)`.

The first section reads the layout operations the body uses (a unit axis added or dropped, one column or one
row repeated) at an index given by coordinates; the second the two matrix products as `768`-term sums.
-/

noncomputable section

namespace Cert.SpanHead.Blk

open Idealize.ShloMosaic Idealize.ShloMosaic.ValueIdx Cert.KernelIdeal Cert.KernelIdeal.Gen

/-! ## Layout operations at an index given by coordinates -/

section Layout
variable {α : Type}

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A `[1, 1, 1, a]` array cast to `[a]` reads, at `i`, the operand at `(0, 0, 0, i)`. -/
theorem shapeCast_111a_a_apply {a : ℕ} (x : (⟨4, ![1, 1, 1, a]⟩ : Shape).Idx → α)
    (h : (⟨4, ![1, 1, 1, a]⟩ : Shape).ShapeCasts ⟨1, ![a]⟩) (i : Fin a) :
    shapeCast ⟨1, ![a]⟩ x h (ix1 i) = x (ix4 (0 : Fin 1) (0 : Fin 1) (0 : Fin 1) i) :=
  shapeCast_apply x h _ _ (by
    rw [Shape.rowMajor_val_four, Shape.rowMajor_val_one]
    show ((0 * 1 + 0) * 1 + 0) * a + i.val = i.val
    simp only [Nat.zero_mul, Nat.zero_add])

/-- A `[1, a]` array cast to `[1, 1, 1, a]` reads, at `(u, v, w, i)`, the operand at `(0, i)`. -/
theorem shapeCast_1a_111a_apply {a : ℕ} (x : (⟨2, ![1, a]⟩ : Shape).Idx → α)
    (h : (⟨2, ![1, a]⟩ : Shape).ShapeCasts ⟨4, ![1, 1, 1, a]⟩) (u v w : Fin 1) (i : Fin a) :
    shapeCast ⟨4, ![1, 1, 1, a]⟩ x h (ix4 u v w i) = x (ix2 (0 : Fin 1) i) :=
  shapeCast_apply x h _ _ (by
    have hu : u.val = 0 := by omega
    have hv : v.val = 0 := by omega
    have hw : w.val = 0 := by omega
    rw [Shape.rowMajor_val_two, Shape.rowMajor_val_four]
    show 0 * a + i.val = ((u.val * 1 + v.val) * 1 + w.val) * a + i.val
    rw [hu, hv, hw])

/-- The one element of a `[1]` vector, taken out through a cast to `[1, 1]`. -/
theorem extractAt_shapeCast_1_11 (v : (⟨1, ![1]⟩ : Shape).Idx → α) (h : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ v h) hp = v (ix1 (0 : Fin 1)) := by
  unfold extractAt
  exact shapeCast_apply v h _ _ (by rw [Shape.rowMajor_val_two, Shape.rowMajor_val_one]; rfl)

/-- The one element of a `[1]` vector, taken out through a cast to `[1, 1, 1]`. -/
theorem extractAt_shapeCast_1_111 (v : (⟨1, ![1]⟩ : Shape).Idx → α) (h : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩ v h) hp = v (ix1 (0 : Fin 1)) := by
  unfold extractAt
  exact shapeCast_apply v h _ _ (by rw [Shape.rowMajor_val_three, Shape.rowMajor_val_one]; rfl)

end Layout

/-! ## The two matrix products as sums

Each product contracts the one axis of length `768`; at a result index `(n, k)` the left operand is read along
row `n` and the right one down column `k`. -/

section Products

theorem dse_lhs0 (i : S512x2.Idx) (q : dot_S512x768_S768x2_S512x2_1_0_0_1_n_n.contr.Idx) : (dot_S512x768_S768x2_S512x2_1_0_0_1_n_n.lhsIdx i q 0).val = (i 0).val := by
  unfold DotDims.lhsIdx
  rw [dif_neg (show ¬(0 : Fin S512x768.rank) ∈ dot_S512x768_S768x2_S512x2_1_0_0_1_n_n.lhsBatch by decide),
    dif_pos (show (0 : Fin S512x768.rank) ∈ dot_S512x768_S768x2_S512x2_1_0_0_1_n_n.lhsNonContracting by decide)]
  rfl
theorem dse_lhs1 (i : S512x2.Idx) (q : dot_S512x768_S768x2_S512x2_1_0_0_1_n_n.contr.Idx) :
    (dot_S512x768_S768x2_S512x2_1_0_0_1_n_n.lhsIdx i q 1).val = (q ⟨0, by decide⟩).val :=
  dot_S512x768_S768x2_S512x2_1_0_0_1_n_n.lhsIdx_val_of_single rfl i q
theorem dse_rhs0 (i : S512x2.Idx) (q : dot_S512x768_S768x2_S512x2_1_0_0_1_n_n.contr.Idx) :
    (dot_S512x768_S768x2_S512x2_1_0_0_1_n_n.rhsIdx i q 0).val = (q ⟨0, by decide⟩).val :=
  dot_S512x768_S768x2_S512x2_1_0_0_1_n_n.rhsIdx_val_of_single rfl i q
theorem dse_rhs1 (i : S512x2.Idx) (q : dot_S512x768_S768x2_S512x2_1_0_0_1_n_n.contr.Idx) : (dot_S512x768_S768x2_S512x2_1_0_0_1_n_n.rhsIdx i q 1).val = (i 1).val := by
  unfold DotDims.rhsIdx
  rw [dif_neg (show ¬(1 : Fin S768x2.rank) ∈ dot_S512x768_S768x2_S512x2_1_0_0_1_n_n.rhsBatch by decide),
    dif_pos (show (1 : Fin S768x2.rank) ∈ dot_S512x768_S768x2_S512x2_1_0_0_1_n_n.rhsNonContracting by decide)]
  rfl

/-- The `512 × 768` by `768 × 2` product into a zero accumulator, at `(n, k)`: the sum over the `768` features. -/
theorem matmul_dse_apply (lhs : FVec Ideal S512x768 .f32) (rhs : FVec Ideal S768x2 .f32) (n : Fin 512) (k : Fin 2) :
    matmul dot_S512x768_S768x2_S512x2_1_0_0_1_n_n none lhs rhs (constant (F := Ideal) S512x2 .f32 0x00000000#32) (ix2 n k)
      = ∑ h : Fin 768, lhs (ix2 n h) * rhs (ix2 h k) := by
  simp only [matmul]
  rw [Ideal.matmul_constant_zero_apply,
    ← Equiv.sum_comp (contrEquiv1 dot_S512x768_S768x2_S512x2_1_0_0_1_n_n 768 rfl rfl).symm]
  refine Finset.sum_congr rfl fun h _ => ?_
  have hk := contrEquiv1_symm_val dot_S512x768_S768x2_S512x2_1_0_0_1_n_n 768 rfl rfl h
  have el : dot_S512x768_S768x2_S512x2_1_0_0_1_n_n.lhsIdx (ix2 n k) ((contrEquiv1 dot_S512x768_S768x2_S512x2_1_0_0_1_n_n 768 rfl rfl).symm h) = ix2 n h :=
    funext fun a => Fin.ext (by
      match a with
      | ⟨0, _⟩ => exact dse_lhs0 _ _
      | ⟨1, _⟩ => exact (dse_lhs1 _ _).trans hk)
  have er : dot_S512x768_S768x2_S512x2_1_0_0_1_n_n.rhsIdx (ix2 n k) ((contrEquiv1 dot_S512x768_S768x2_S512x2_1_0_0_1_n_n 768 rfl rfl).symm h) = ix2 h k :=
    funext fun a => Fin.ext (by
      match a with
      | ⟨0, _⟩ => exact (dse_rhs0 _ _).trans hk
      | ⟨1, _⟩ => exact dse_rhs1 _ _)
  rw [el, er]

theorem dys_lhs0 (i : S512x1.Idx) (q : dot_S512x768_S768x1_S512x1_1_0_0_1_n_n.contr.Idx) : (dot_S512x768_S768x1_S512x1_1_0_0_1_n_n.lhsIdx i q 0).val = (i 0).val := by
  unfold DotDims.lhsIdx
  rw [dif_neg (show ¬(0 : Fin S512x768.rank) ∈ dot_S512x768_S768x1_S512x1_1_0_0_1_n_n.lhsBatch by decide),
    dif_pos (show (0 : Fin S512x768.rank) ∈ dot_S512x768_S768x1_S512x1_1_0_0_1_n_n.lhsNonContracting by decide)]
  rfl
theorem dys_lhs1 (i : S512x1.Idx) (q : dot_S512x768_S768x1_S512x1_1_0_0_1_n_n.contr.Idx) :
    (dot_S512x768_S768x1_S512x1_1_0_0_1_n_n.lhsIdx i q 1).val = (q ⟨0, by decide⟩).val :=
  dot_S512x768_S768x1_S512x1_1_0_0_1_n_n.lhsIdx_val_of_single rfl i q
theorem dys_rhs0 (i : S512x1.Idx) (q : dot_S512x768_S768x1_S512x1_1_0_0_1_n_n.contr.Idx) :
    (dot_S512x768_S768x1_S512x1_1_0_0_1_n_n.rhsIdx i q 0).val = (q ⟨0, by decide⟩).val :=
  dot_S512x768_S768x1_S512x1_1_0_0_1_n_n.rhsIdx_val_of_single rfl i q
theorem dys_rhs1 (i : S512x1.Idx) (q : dot_S512x768_S768x1_S512x1_1_0_0_1_n_n.contr.Idx) : (dot_S512x768_S768x1_S512x1_1_0_0_1_n_n.rhsIdx i q 1).val = (i 1).val := by
  unfold DotDims.rhsIdx
  rw [dif_neg (show ¬(1 : Fin S768x1.rank) ∈ dot_S512x768_S768x1_S512x1_1_0_0_1_n_n.rhsBatch by decide),
    dif_pos (show (1 : Fin S768x1.rank) ∈ dot_S512x768_S768x1_S512x1_1_0_0_1_n_n.rhsNonContracting by decide)]
  rfl

/-- The `512 × 768` by `768 × 1` product into a zero accumulator, at `(n, 0)`: the sum over the `768` features. -/
theorem matmul_dys_apply (lhs : FVec Ideal S512x768 .f32) (rhs : FVec Ideal S768x1 .f32) (n : Fin 512) (k : Fin 1) :
    matmul dot_S512x768_S768x1_S512x1_1_0_0_1_n_n none lhs rhs (constant (F := Ideal) S512x1 .f32 0x00000000#32) (ix2 n k)
      = ∑ h : Fin 768, lhs (ix2 n h) * rhs (ix2 h k) := by
  simp only [matmul]
  rw [Ideal.matmul_constant_zero_apply,
    ← Equiv.sum_comp (contrEquiv1 dot_S512x768_S768x1_S512x1_1_0_0_1_n_n 768 rfl rfl).symm]
  refine Finset.sum_congr rfl fun h _ => ?_
  have hk := contrEquiv1_symm_val dot_S512x768_S768x1_S512x1_1_0_0_1_n_n 768 rfl rfl h
  have el : dot_S512x768_S768x1_S512x1_1_0_0_1_n_n.lhsIdx (ix2 n k) ((contrEquiv1 dot_S512x768_S768x1_S512x1_1_0_0_1_n_n 768 rfl rfl).symm h) = ix2 n h :=
    funext fun a => Fin.ext (by
      match a with
      | ⟨0, _⟩ => exact dys_lhs0 _ _
      | ⟨1, _⟩ => exact (dys_lhs1 _ _).trans hk)
  have er : dot_S512x768_S768x1_S512x1_1_0_0_1_n_n.rhsIdx (ix2 n k) ((contrEquiv1 dot_S512x768_S768x1_S512x1_1_0_0_1_n_n 768 rfl rfl).symm h) = ix2 h k :=
    funext fun a => Fin.ext (by
      match a with
      | ⟨0, _⟩ => exact (dys_rhs0 _ _).trans hk
      | ⟨1, _⟩ => exact dys_rhs1 _ _)
  rw [el, er]

end Products

/-! ## Elementwise operations the library does not read at an index (all by definition) -/

section Pointwise
variable {s : Shape}

theorem exp_apply (a : FVec Ideal s .f32) (i : s.Idx) : exp a i = Ideal.exp (a i) := rfl
theorem log_apply (a : FVec Ideal s .f32) (i : s.Idx) : log a i = Ideal.log (a i) := rfl
theorem cmpi_apply {w : ℕ} (p : CmpIPredicate) (a c : IVec s w) (i : s.Idx) : cmpi p a c i = IntOp.cmpi p (a i) (c i) := rfl
theorem muli_apply {w : ℕ} (a c : IVec s w) (i : s.Idx) : muli a c i = IntOp.muli (a i) (c i) := rfl
theorem andi_apply {w : ℕ} (a c : IVec s w) (i : s.Idx) : andi a c i = IntOp.andi (a i) (c i) := rfl

end Pointwise

/-! ## The start and end probabilities -/

/-- The logistic value of the start (`k = 0`) or end (`k = 1`) logit of token `n`, as the body computes it from
    the sentence's block of `x`: the specification's `seProb`. -/
theorem pay3_apply (b : Fin 8) (l : Fin 16) (x : ArrX) (Wse : ArrWse) (bse : ArrBse)
    (v0 : FVec Ideal S1x1x512x768 .f32)
    (hx : ∀ n h, v0 (ix4 (0 : Fin 1) (0 : Fin 1) n h) = x (ix4 b l n h)) (n : Fin 512) (k : Fin 2) :
    k0_pay3 (F := Ideal) v0 Wse bse (ix2 n k) = seProb x Wse bse b l n k := by
  unfold k0_pay3 k0_pay2
  simp only [divf_apply, addf_apply, subf_apply, broadcast_apply, exp_apply, matmul_dse_apply,
    broadcastTo_1b_ab_apply, shapeCast_a_1a_apply, shapeCast_11ab_ab_apply, hx]
  show Ideal.div one (one + Ideal.exp (Ideal.ofBits .f32 0x00000000#32 - _)) = _
  rw [Ideal.ofBits_zero_f32, zero_sub]
  rfl

/-- The one element at `(o, 0)` of a `[2, 1]` array, taken out through its `[1, 1]` slice at row `0`. -/
theorem extractAt_slice_row0 {α : Type} (v : (⟨2, ![2, 1]⟩ : Shape).Idx → α)
    (h : (⟨2, ![2, 1]⟩ : Shape).Slices ![0, 0] ⟨2, ![1, 1]⟩)
    (hp : ∀ a, (![0, 0] : Fin 2 → Nat) a < (⟨2, ![1, 1]⟩ : Shape).size a) :
    extractAt ![0, 0] (extractStridedSlice ⟨2, ![1, 1]⟩ ![0, 0] v h) hp = v (ix2 (0 : Fin 2) (0 : Fin 1)) := by
  unfold extractAt
  exact extractStridedSlice_apply _ v h _ (ix2 (0 : Fin 2) (0 : Fin 1)) (fun a => by
    match a with
    | ⟨0, _⟩ => rfl
    | ⟨1, _⟩ => rfl)

/-- The same at row `1`. -/
theorem extractAt_slice_row1 {α : Type} (v : (⟨2, ![2, 1]⟩ : Shape).Idx → α)
    (h : (⟨2, ![2, 1]⟩ : Shape).Slices ![1, 0] ⟨2, ![1, 1]⟩)
    (hp : ∀ a, (![0, 0] : Fin 2 → Nat) a < (⟨2, ![1, 1]⟩ : Shape).size a) :
    extractAt ![0, 0] (extractStridedSlice ⟨2, ![1, 1]⟩ ![1, 0] v h) hp = v (ix2 (1 : Fin 2) (0 : Fin 1)) := by
  unfold extractAt
  exact extractStridedSlice_apply _ v h _ (ix2 (1 : Fin 2) (0 : Fin 1)) (fun a => by
    match a with
    | ⟨0, _⟩ => rfl
    | ⟨1, _⟩ => rfl)

/-- The one element of a `[1]` vector. -/
theorem extractAt_1 {α : Type} (v : (⟨1, ![1]⟩ : Shape).Idx → α)
    (hp : ∀ a, (![0] : Fin 1 → Nat) a < (⟨1, ![1]⟩ : Shape).size a) :
    extractAt ![0] v hp = v (ix1 (0 : Fin 1)) := by
  unfold extractAt
  exact congrArg v (funext fun a => by match a with | ⟨0, _⟩ => rfl)

section Shared
variable (b : Fin 8) (l : Fin 16) (x : ArrX) (seqlen : ArrLen) (Wse : ArrWse) (bse : ArrBse) (Wys : ArrWys) (bys : ArrB1)
  (Wsp : ArrWsp) (bsp : ArrB1)
  (v0 : FVec Ideal S1x1x512x768 .f32) (hx : ∀ n h, v0 (ix4 (0 : Fin 1) (0 : Fin 1) n h) = x (ix4 b l n h))
  (v29 : BitVec 32) (hlen : v29 = seqlen (ix1 b))
include hx

/-- The start probability of token `n`: column `0` of the logistic values. -/
theorem pay4_apply (n : Fin 512) : k0_pay4 (F := Ideal) v0 Wse bse (ix1 n) = seProb x Wse bse b l n 0 := by
  unfold k0_pay4
  refine (shapeCast_a1_a_apply _ _ n).trans ?_
  refine (slice2_axis1_apply 0 _ _ n (0 : Fin 1) (0 : Fin 2) rfl).trans ?_
  exact pay3_apply b l x Wse bse v0 hx n 0

/-- The end probability of token `n`: column `1` of the logistic values. -/
theorem pay5_apply (n : Fin 512) : k0_pay5 (F := Ideal) v0 Wse bse (ix1 n) = seProb x Wse bse b l n 1 := by
  unfold k0_pay5
  refine (shapeCast_a1_a_apply _ _ n).trans ?_
  refine (slice2_axis1_apply 1 _ _ n (0 : Fin 1) (1 : Fin 2) rfl).trans ?_
  exact pay3_apply b l x Wse bse v0 hx n 1

/-- The token's scalar: the `768 × 1` product plus its bias. -/
theorem pay6_apply (n : Fin 512) : k0_pay6 (F := Ideal) v0 Wys bys (ix1 n) = tokLogit x Wys bys b l n := by
  unfold k0_pay6 k0_pay2
  refine (shapeCast_a1_a_apply _ _ n).trans ?_
  simp only [addf_apply, matmul_dys_apply, broadcastTo_1b_ab_apply, shapeCast_a_1a_apply, shapeCast_11ab_ab_apply, hx]
  rfl

omit hx

/-- The length mask of token `n` as a word: `n` below the sentence's length. -/
theorem pay7_apply (hlen : v29 = seqlen (ix1 b)) (n : Fin 512) : k0_pay7 (F := Ideal) v29 (ix1 n) = maskI seqlen b n := by
  unfold k0_pay7
  simp only [extui_apply, cmpi_apply, broadcast_apply, shapeCast_1a_a_apply, hlen]
  rw [iota_single_apply]
  rfl

/-- The length mask of token `n` as a number. -/
theorem pay8_apply (hlen : v29 = seqlen (ix1 b)) (n : Fin 512) : k0_pay8 (F := Ideal) v29 (ix1 n) = maskF seqlen b n := by
  unfold k0_pay8
  rw [sitofp_apply, pay7_apply b seqlen v29 hlen n]
  rfl

end Shared

/-- The span probability of the token pair `(i, j)`, from the tokens' scalars: row `i`'s scalar times the first
    span weight (one column repeated), column `j`'s times the second (one row repeated), plus the bias, through the
    logistic function. -/
theorem pay14_apply (b : Fin 8) (l : Fin 16) (x : ArrX) (Wys : ArrWys) (bys : ArrB1) (Wsp : ArrWsp) (bsp : ArrB1)
    (v27 : FVec Ideal S512 .f32) (h27 : ∀ n, v27 (ix1 n) = tokLogit x Wys bys b l n) (i j : Fin 512) :
    k0_pay14 (F := Ideal) Wsp bsp v27 (ix2 i j) = spanProb x Wys bys Wsp bsp b l i j := by
  unfold k0_pay14
  simp only [divf_apply, addf_apply, subf_apply, mulf_apply, broadcast_apply, exp_apply,
    broadcastTo_a1_ab_apply, broadcastTo_1b_ab_apply, shapeCast_a_a1_apply, shapeCast_a_1a_apply,
    extractAt_slice_row0, extractAt_slice_row1, extractAt_1, h27]
  show Ideal.div one (one + Ideal.exp (Ideal.ofBits .f32 0x00000000#32 - _)) = _
  rw [Ideal.ofBits_zero_f32, zero_sub]
  rfl

end Cert.SpanHead.Blk

end
-- ==== Proof.KernelBlockB.lean ====
import proofs.«122283_j2963527434982_1_alg».proof.Proof.KernelBlockA

/-!
# The three prediction blocks of one grid point

The body's values are nested terms of its loads: the sentence's block of `x`, the weight arrays, the length word,
and the blocks of `start`, `end`, `span` and `val`.  This file names each value of the body as that term
(`V20`, `V22`, … after the body's own numbering), reads the integer predictions at an index — a probability
above one half, as a word, times the length mask; for a token pair also times the two tokens' predictions and the
upper-triangle indicator —, and identifies the three stored prediction blocks with the specification's
`sePred` and `spanPred` at `(b, l)`.
-/

noncomputable section

namespace Cert.SpanHead.Blk

open Idealize.ShloMosaic Idealize.ShloMosaic.ValueIdx Cert.KernelIdeal Cert.KernelIdeal.Gen

/-! ## The body's values as terms of its loads -/

section Values
variable (v0 : FVec Ideal S1x1x512x768 .f32) (Wse : ArrWse) (bse : ArrBse) (Wys : ArrWys) (bys : ArrB1)
  (Wsp : ArrWsp) (bsp : ArrB1) (v29 : BitVec 32) (v36 v38 : IVec S1x1x1x512 32) (v134 v136 : IVec S1x1x512x512 32)

/-- The start probabilities. -/
abbrev V20 : FVec Ideal S512 .f32 := k0_pay4 (F := Ideal) v0 Wse bse
/-- The end probabilities. -/
abbrev V22 : FVec Ideal S512 .f32 := k0_pay5 (F := Ideal) v0 Wse bse
/-- The tokens' scalars. -/
abbrev V27 : FVec Ideal S512 .f32 := k0_pay6 (F := Ideal) v0 Wys bys
/-- The length mask as words. -/
abbrev V34 : IVec S512 32 := k0_pay7 (F := Ideal) v29
/-- The length mask as numbers. -/
abbrev V35 : FVec Ideal S512 .f32 := k0_pay8 (F := Ideal) v29
/-- The masked start focal terms. -/
abbrev V59 : FVec Ideal S512 .f32 := k0_pay9 (F := Ideal) (V20 v0 Wse bse) (V35 v29) v36
/-- The masked end focal terms. -/
abbrev V79 : FVec Ideal S512 .f32 := k0_pay10 (F := Ideal) (V22 v0 Wse bse) (V35 v29) v38
/-- The start-plus-end focal sum. -/
abbrev V88 : EReal := k0_pay11 (F := Ideal) (V59 v0 Wse bse v29 v36) (V79 v0 Wse bse v29 v38)
/-- The start predictions. -/
abbrev V92 : IVec S512 32 := k0_pay12 (F := Ideal) (V20 v0 Wse bse) (V34 v29)
/-- The end predictions. -/
abbrev V96 : IVec S512 32 := k0_pay13 (F := Ideal) (V22 v0 Wse bse) (V34 v29)
/-- The span probabilities. -/
abbrev V119 : FVec Ideal S512x512 .f32 := k0_pay14 (F := Ideal) Wsp bsp (V27 v0 Wys bys)
/-- The upper-triangle indicator. -/
abbrev V123 : IVec S512x512 32 := k0_pay15
/-- "Span probability above one half" times the row's start prediction. -/
abbrev V129 : IVec S512x512 32 := k0_pay16 (F := Ideal) Wsp bsp (V20 v0 Wse bse) (V27 v0 Wys bys) (V34 v29)
/-- The column's end prediction, one row repeated. -/
abbrev V131 : IVec S512x512 32 := k0_pay17 (F := Ideal) (V22 v0 Wse bse) (V34 v29)
/-- The span predictions. -/
abbrev V133 : IVec S512x512 32 :=
  k0_pay18 (V123) (V129 v0 Wse bse Wys bys Wsp bsp v29) (V131 v0 Wse bse v29)
/-- The `span` block as a matrix. -/
abbrev V135 : IVec S512x512 32 := k0_pay19 (F := Ideal) v134
/-- The span focal sum. -/
abbrev V162 : EReal := k0_pay21 (F := Ideal) (V119 v0 Wys bys Wsp bsp) v134 v136
/-- The sum of `val`. -/
abbrev V166 : EReal := k0_pay22 (F := Ideal) v136
/-- The true-positive indicator. -/
abbrev V173 : FVec Ideal S512x512 .f32 :=
  k0_pay23 (F := Ideal) (V123) (V129 v0 Wse bse Wys bys Wsp bsp v29) (V131 v0 Wse bse v29) v134
/-- The missed-positive count. -/
abbrev V188 : EReal := k0_pay24 (F := Ideal) (V133 v0 Wse bse Wys bys Wsp bsp v29) (V135 v134)
/-- The false-positive count. -/
abbrev V199 : EReal := k0_pay25 (F := Ideal) (V133 v0 Wse bse Wys bys Wsp bsp v29) (V135 v134)
/-- The true-positive count, as a one-element vector. -/
abbrev V211 : FVec Ideal S1 .f32 := k0_pay29 (F := Ideal) (V173 v0 Wse bse Wys bys Wsp bsp v29 v134)

/-- The four stored values, as the body's nest of operations over its loads. -/
theorem spanPredBlock_eq :
    k0_pay26 (V133 v0 Wse bse Wys bys Wsp bsp v29)
      = k0_pay26 (k0_pay18 k0_pay15
          (k0_pay16 (F := Ideal) Wsp bsp (k0_pay4 (F := Ideal) v0 Wse bse) (k0_pay6 (F := Ideal) v0 Wys bys) (k0_pay7 (F := Ideal) v29))
          (k0_pay17 (F := Ideal) (k0_pay5 (F := Ideal) v0 Wse bse) (k0_pay7 (F := Ideal) v29))) := rfl
theorem startPredBlock_eq :
    k0_pay27 (V92 v0 Wse bse v29)
      = k0_pay27 (k0_pay12 (F := Ideal) (k0_pay4 (F := Ideal) v0 Wse bse) (k0_pay7 (F := Ideal) v29)) := rfl
theorem endPredBlock_eq :
    k0_pay28 (V96 v0 Wse bse v29)
      = k0_pay28 (k0_pay13 (F := Ideal) (k0_pay5 (F := Ideal) v0 Wse bse) (k0_pay7 (F := Ideal) v29)) := rfl

end Values

/-! ## The predictions at an index -/

/-- A start prediction: "probability above one half", as a word, times the mask word. -/
theorem pay12_apply (v20 : FVec Ideal S512 .f32) (v34 : IVec S512 32) (n : Fin 512) :
    k0_pay12 (F := Ideal) v20 v34 (ix1 n) = IntOp.muli (gtHalf (v20 (ix1 n))) (v34 (ix1 n)) := rfl

/-- An end prediction likewise. -/
theorem pay13_apply (v22 : FVec Ideal S512 .f32) (v34 : IVec S512 32) (n : Fin 512) :
    k0_pay13 (F := Ideal) v22 v34 (ix1 n) = IntOp.muli (gtHalf (v22 (ix1 n))) (v34 (ix1 n)) := rfl

/-- The upper-triangle indicator at `(i, j)`: the row coordinate at most the column coordinate. -/
theorem pay15_apply (i j : Fin 512) : k0_pay15 (ix2 i j) = triu i j := by
  unfold k0_pay15
  simp only [extui_apply, cmpi_apply]
  rw [iota_single_apply, iota_single_apply]
  rfl

/-- At `(i, j)`: "span probability above one half" times row `i`'s start prediction (one column repeated). -/
theorem pay16_apply (Wsp : ArrWsp) (bsp : ArrB1) (v20 v27 : FVec Ideal S512 .f32) (v34 : IVec S512 32) (i j : Fin 512) :
    k0_pay16 (F := Ideal) Wsp bsp v20 v27 v34 (ix2 i j)
      = IntOp.muli (gtHalf (k0_pay14 (F := Ideal) Wsp bsp v27 (ix2 i j))) (k0_pay12 (F := Ideal) v20 v34 (ix1 i)) := by
  unfold k0_pay16
  simp only [muli_apply, extui_apply, cmpf_apply, broadcast_apply, broadcastTo_a1_ab_apply, shapeCast_a_a1_apply]
  rfl

/-- At `(i, j)`: column `j`'s end prediction (one row repeated). -/
theorem pay17_apply (v22 : FVec Ideal S512 .f32) (v34 : IVec S512 32) (i j : Fin 512) :
    k0_pay17 (F := Ideal) v22 v34 (ix2 i j) = k0_pay13 (F := Ideal) v22 v34 (ix1 j) := by
  unfold k0_pay17
  exact (broadcastTo_1b_ab_apply _ _ i j).trans (shapeCast_a_1a_apply _ _ (0 : Fin 1) j)

/-- The product of the three factors and the triangle indicator, elementwise. -/
theorem pay18_apply (v123 v129 v131 : IVec S512x512 32) (y : S512x512.Idx) :
    k0_pay18 v123 v129 v131 y = IntOp.muli (IntOp.muli (v129 y) (v131 y)) (v123 y) := rfl

/-! ## The three stored prediction blocks -/

section Blocks
variable (b : Fin 8) (l : Fin 16) (x : ArrX) (seqlen : ArrLen) (Wse : ArrWse) (bse : ArrBse) (Wys : ArrWys) (bys : ArrB1)
  (Wsp : ArrWsp) (bsp : ArrB1)
  (v0 : FVec Ideal S1x1x512x768 .f32) (hx : ∀ n h, v0 (ix4 (0 : Fin 1) (0 : Fin 1) n h) = x (ix4 b l n h))
  (v29 : BitVec 32) (hlen : v29 = seqlen (ix1 b))
include hx hlen

/-- The start predictions of sentence `(b, l)`. -/
theorem v92_apply (n : Fin 512) : V92 v0 Wse bse v29 (ix1 n) = sePred x seqlen Wse bse b l n 0 := by
  show k0_pay12 (F := Ideal) (k0_pay4 (F := Ideal) v0 Wse bse) (k0_pay7 (F := Ideal) v29) (ix1 n) = _
  rw [pay12_apply, pay4_apply b l x Wse bse v0 hx n, pay7_apply b seqlen v29 hlen n]
  rfl

/-- The end predictions of sentence `(b, l)`. -/
theorem v96_apply (n : Fin 512) : V96 v0 Wse bse v29 (ix1 n) = sePred x seqlen Wse bse b l n 1 := by
  show k0_pay13 (F := Ideal) (k0_pay5 (F := Ideal) v0 Wse bse) (k0_pay7 (F := Ideal) v29) (ix1 n) = _
  rw [pay13_apply, pay5_apply b l x Wse bse v0 hx n, pay7_apply b seqlen v29 hlen n]
  rfl

omit hlen in
/-- The span probabilities of sentence `(b, l)`. -/
theorem v119_apply (i j : Fin 512) : V119 v0 Wys bys Wsp bsp (ix2 i j) = spanProb x Wys bys Wsp bsp b l i j :=
  pay14_apply b l x Wys bys Wsp bsp _ (pay6_apply b l x Wys bys v0 hx) i j

/-- The span predictions of sentence `(b, l)`. -/
theorem v133_apply (i j : Fin 512) :
    V133 v0 Wse bse Wys bys Wsp bsp v29 (ix2 i j) = spanPred x seqlen Wse bse Wys bys Wsp bsp b l i j := by
  show k0_pay18 k0_pay15 (V129 v0 Wse bse Wys bys Wsp bsp v29) (V131 v0 Wse bse v29) (ix2 i j) = _
  rw [pay18_apply, pay15_apply]
  show IntOp.muli (IntOp.muli
      (k0_pay16 (F := Ideal) Wsp bsp (V20 v0 Wse bse) (V27 v0 Wys bys) (V34 v29) (ix2 i j))
      (k0_pay17 (F := Ideal) (V22 v0 Wse bse) (V34 v29) (ix2 i j))) (triu i j) = _
  rw [pay16_apply, pay17_apply]
  have h1 : k0_pay12 (F := Ideal) (V20 v0 Wse bse) (V34 v29) (ix1 i) = sePred x seqlen Wse bse b l i 0 :=
    v92_apply b l x seqlen Wse bse v0 hx v29 hlen i
  have h2 : k0_pay13 (F := Ideal) (V22 v0 Wse bse) (V34 v29) (ix1 j) = sePred x seqlen Wse bse b l j 1 :=
    v96_apply b l x seqlen Wse bse v0 hx v29 hlen j
  have h3 : k0_pay14 (F := Ideal) Wsp bsp (V27 v0 Wys bys) (ix2 i j) = spanProb x Wys bys Wsp bsp b l i j :=
    v119_apply b l x Wys bys Wsp bsp v0 hx i j
  rw [h1, h2, h3]
  rfl

/-- **The stored `span_pred` block** at `(0, 0, i, j)`. -/
theorem blk_spanPred (i j : Fin 512) :
    k0_pay26 (V133 v0 Wse bse Wys bys Wsp bsp v29) (ix4 (0 : Fin 1) (0 : Fin 1) i j)
      = spanPred x seqlen Wse bse Wys bys Wsp bsp b l i j := by
  unfold k0_pay26
  exact (shapeCast_ab_11ab_apply _ _ (0 : Fin 1) (0 : Fin 1) i j).trans
    (v133_apply b l x seqlen Wse bse Wys bys Wsp bsp v0 hx v29 hlen i j)

/-- **The stored `start_pred` block** at `(0, 0, 0, n)`. -/
theorem blk_startPred (n : Fin 512) :
    k0_pay27 (V92 v0 Wse bse v29) (ix4 (0 : Fin 1) (0 : Fin 1) (0 : Fin 1) n) = sePred x seqlen Wse bse b l n 0 := by
  unfold k0_pay27
  exact ((shapeCast_1a_111a_apply _ _ (0 : Fin 1) (0 : Fin 1) (0 : Fin 1) n).trans
    (shapeCast_a_1a_apply _ _ (0 : Fin 1) n)).trans (v92_apply b l x seqlen Wse bse v0 hx v29 hlen n)

/-- **The stored `end_pred` block** at `(0, 0, 0, n)`. -/
theorem blk_endPred (n : Fin 512) :
    k0_pay28 (V96 v0 Wse bse v29) (ix4 (0 : Fin 1) (0 : Fin 1) (0 : Fin 1) n) = sePred x seqlen Wse bse b l n 1 := by
  unfold k0_pay28
  exact ((shapeCast_1a_111a_apply _ _ (0 : Fin 1) (0 : Fin 1) (0 : Fin 1) n).trans
    (shapeCast_a_1a_apply _ _ (0 : Fin 1) n)).trans (v96_apply b l x seqlen Wse bse v0 hx v29 hlen n)

end Blocks

end Cert.SpanHead.Blk

end
-- ==== Proof.KernelArrays.lean ====
import proofs.«122283_j2963527434982_1_alg».proof.Proof.Spec
import proofs.«122283_j2963527434982_1_alg».proof.Proof.KernelPieces
import proofs.«122283_j2963527434982_1_alg».proof.Proof.KernelAt
import proofs.«122283_j2963527434982_1_alg».proof.Proof.KernelHostPre
import proofs.«122283_j2963527434982_1_alg».proof.Proof.KernelBlockB
import Idealize.ShloMosaic.Lib.Pipeline.Value
import Idealize.ShloMosaic.Lib.ValueIdx
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

/-!
# The three prediction arrays after the run

Each grid point writes back one sentence's slab of `span_pred`, `start_pred` and `end_pred`. A slab is the
restriction of ONE function of the argument arrays (the specification's `spanPred`, `sePred`) to the sentence, and the
slabs cover the arrays; so each array ends holding that function.
-/

namespace Cert.SpanHead.Arr
open Cert.KernelIdeal Cert.KernelIdeal.Gen Cert.SpanHead Cert.SpanHead.At Cert.SpanHead.Pieces Cert.SpanHead.HostPre Cert.SpanHead.Blk
variable (m : (ℓ : Loc nD τ sig) → Buf (Elt Ideal) ℓ)

/-- The argument arrays as the program is launched with them. -/
abbrev aX (c : Dev nD) : ArrX := m ((c : Thread nD τ).loc main_arg0)
abbrev aStart (c : Dev nD) : ArrTok := m ((c : Thread nD τ).loc main_arg1)
abbrev aEnd (c : Dev nD) : ArrTok := m ((c : Thread nD τ).loc main_arg2)
abbrev aSpan (c : Dev nD) : ArrPair := m ((c : Thread nD τ).loc main_arg3)
abbrev aVal (c : Dev nD) : ArrPair := m ((c : Thread nD τ).loc main_arg4)
abbrev aLen (c : Dev nD) : ArrLen := m ((c : Thread nD τ).loc main_arg5)
abbrev aWse (c : Dev nD) : ArrWse := m ((c : Thread nD τ).loc main_arg6)
abbrev aBse (c : Dev nD) : ArrBse := m ((c : Thread nD τ).loc main_arg7)
abbrev aWys (c : Dev nD) : ArrWys := m ((c : Thread nD τ).loc main_arg8)
abbrev aBys (c : Dev nD) : ArrB1 := m ((c : Thread nD τ).loc main_arg9)
abbrev aWsp (c : Dev nD) : ArrWsp := m ((c : Thread nD τ).loc main_arg10)
abbrev aBsp (c : Dev nD) : ArrB1 := m ((c : Thread nD τ).loc main_arg11)

/-- Two slabs `[1, 1, d₂, d₃]` that agree at every `(0, 0, i, j)` are equal. -/
theorem ext_slab {α : Type} {d2 d3 : Nat} (A B : (⟨4, ![1, 1, d2, d3]⟩ : Shape).Idx → α)
    (h : ∀ (i : Fin d2) (j : Fin d3), A (ix4 (0 : Fin 1) (0 : Fin 1) i j) = B (ix4 (0 : Fin 1) (0 : Fin 1) i j)) : A = B := by
  funext y
  have h0 : y 0 = (0 : Fin 1) := Fin.ext (by have hlt : (y 0).val < 1 := (y 0).isLt; show (y 0).val = 0; omega)
  have h1 : y 1 = (0 : Fin 1) := Fin.ext (by have hlt : (y 1).val < 1 := (y 1).isLt; show (y 1).val = 0; omega)
  have e : y = ix4 (0 : Fin 1) (0 : Fin 1) (y 2) (y 3) := by
    funext a
    match a with
    | ⟨0, _⟩ => exact h0
    | ⟨1, _⟩ => exact h1
    | ⟨2, _⟩ => rfl
    | ⟨3, _⟩ => rfl
  rw [e]
  exact h _ _

/-- The sentence's features, read in the argument array. -/
theorem hx_at (c : Dev nD) (t : Fin cfg0.N) (n : Fin 512) (h : Fin 768) :
    iblk m c 1 t (ix4 (0 : Fin 1) (0 : Fin 1) n h) = aX m c (ix4 (bOf t) (lOf t) n h) :=
  (iblk1_at m c t n h).trans (congrFun (V_main_arg0 m c) _)

/-! ## `span_pred` -/

/-- What the `span_pred` array ends holding. -/
def G12 (c : Dev nD) : S8x16x512x512.Idx → BitVec 32 := fun i =>
  spanPred (aX m c) (aLen m c) (aWse m c) (aBse m c) (aWys m c) (aBys m c) (aWsp m c) (aBsp m c) (i 0) (i 1) (i 2) (i 3)

theorem emb12_at (t : Fin cfg0.N) (i : Fin 512) (j : Fin 512) :
    ((cfg0.win 12).blk t).view.emb (ix4 (0 : Fin 1) (0 : Fin 1) i j) = ix4 (bOf t) (lOf t) i j := by
  funext a
  apply Fin.ext
  have e := (idx_facts t).2.2.2.2.2.1
  have e0 : win0_12.index t (0 : Fin 4) = (bOf t).val := congrFun e 0
  have e1 : win0_12.index t (1 : Fin 4) = (lOf t).val := congrFun e 1
  have e2 : win0_12.index t (2 : Fin 4) = 0 := congrFun e 2
  have e3 : win0_12.index t (3 : Fin 4) = 0 := congrFun e 3
  match a with
  | ⟨0, _⟩ => show win0_12.index t (0 : Fin 4) * 1 + 1 * 0 = (bOf t).val; omega
  | ⟨1, _⟩ => show win0_12.index t (1 : Fin 4) * 1 + 1 * 0 = (lOf t).val; omega
  | ⟨2, _⟩ => show win0_12.index t (2 : Fin 4) * 512 + 1 * (i).val = (i).val; omega
  | ⟨3, _⟩ => show win0_12.index t (3 : Fin 4) * 512 + 1 * j.val = j.val; omega

/-- An index of the array is in point `t`'s block iff each coordinate is in the block's range on its axis. -/
theorem mem_blk12 (t : Fin cfg0.N) (i : S8x16x512x512.Idx) :
    i ∈ ((cfg0.win 12).blk t).view.set ↔ ∀ a : Fin 4, win0_12.index t a * S1x1x512x512.size a ≤ (i a).val ∧ (i a).val < win0_12.index t a * S1x1x512x512.size a + S1x1x512x512.size a := by
  show i ∈ ((View.whole main_v2_0).slice (win0_12.rect t)).set ↔ _
  rw [View.set_slice_whole, Rect.mem_set_unit]
  exact Iff.rfl

/-- Every index of the array is in the block of the point of its sentence. -/
theorem cover12 (i : S8x16x512x512.Idx) :
    ∃ t : Fin cfg0.N, (cfg0.win 12).flush t = true ∧ i ∈ ((cfg0.win 12).blk t).view.set := by
  obtain ⟨t, hb, hl⟩ := idx_onto (i 0) (i 1)
  refine ⟨t, flush0_12 t, ?_⟩
  rw [mem_blk12]
  have e := (idx_facts t).2.2.2.2.2.1
  have e0 : win0_12.index t (0 : Fin 4) = (bOf t).val := congrFun e 0
  have e1 : win0_12.index t (1 : Fin 4) = (lOf t).val := congrFun e 1
  have e2 : win0_12.index t (2 : Fin 4) = 0 := congrFun e 2
  have e3 : win0_12.index t (3 : Fin 4) = 0 := congrFun e 3
  have hb' : (bOf t).val = (i 0).val := congrArg Fin.val hb
  have hl' : (lOf t).val = (i 1).val := congrArg Fin.val hl
  have h2 : (i 2).val < 512 := (i 2).isLt
  have h3 : (i 3).val < 512 := (i 3).isLt
  intro a
  match a with
  | ⟨0, _⟩ => show win0_12.index t (0 : Fin 4) * 1 ≤ (i 0).val ∧ (i 0).val < win0_12.index t (0 : Fin 4) * 1 + 1; omega
  | ⟨1, _⟩ => show win0_12.index t (1 : Fin 4) * 1 ≤ (i 1).val ∧ (i 1).val < win0_12.index t (1 : Fin 4) * 1 + 1; omega
  | ⟨2, _⟩ => show win0_12.index t (2 : Fin 4) * 512 ≤ (i 2).val ∧ (i 2).val < win0_12.index t (2 : Fin 4) * 512 + 512; omega
  | ⟨3, _⟩ => show win0_12.index t (3 : Fin 4) * 512 ≤ (i 3).val ∧ (i 3).val < win0_12.index t (3 : Fin 4) * 512 + 512; omega

/-- What point `t` writes back is its sentence's slab of `G12`. -/
theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  unfold outsAt0
  dsimp only
  rw [out12_eq]
  rw [iblk0_eq, iblk6_eq, iblk7_eq, iblk8_eq, iblk9_eq, iblk10_eq, iblk11_eq, V_main_arg5, V_main_arg6, V_main_arg7, V_main_arg8, V_main_arg9, V_main_arg10, V_main_arg11]
  refine ext_slab (d2 := 512) (d3 := 512) _ _ fun i j => ?_
  refine (blk_spanPred (bOf t) (lOf t) (aX m c) (aLen m c) (aWse m c) (aBse m c) (aWys m c) (aBys m c) (aWsp m c) (aBsp m c)
    (iblk m c 1 t) (hx_at m c t) _ rfl i j).trans ?_
  show _ = G12 m c (((cfg0.win 12).blk t).view.emb (ix4 (0 : Fin 1) (0 : Fin 1) i j))
  rw [emb12_at]
  rfl

theorem final12 (c : Dev nD) : (dats m 0 c).arrAt 12 cfg0.N = G12 m c :=
  (dats m 0 c).arrAt_eq_of_cover 12 (G12 m c) (fun t _ => flushed12_eq m c t) cover12

/-! ## `start_pred` and `end_pred` (with their unit third axis) -/

def G13 (c : Dev nD) : S8x16x1x512.Idx → BitVec 32 := fun i =>
  sePred (aX m c) (aLen m c) (aWse m c) (aBse m c) (i 0) (i 1) (i 3) 0
def G14 (c : Dev nD) : S8x16x1x512.Idx → BitVec 32 := fun i =>
  sePred (aX m c) (aLen m c) (aWse m c) (aBse m c) (i 0) (i 1) (i 3) 1

theorem emb13_at (t : Fin cfg0.N) (j : Fin 512) :
    ((cfg0.win 13).blk t).view.emb (ix4 (0 : Fin 1) (0 : Fin 1) (0 : Fin 1) j) = ix4 (bOf t) (lOf t) (0 : Fin 1) j := by
  funext a
  apply Fin.ext
  have e := (idx_facts t).2.2.2.2.2.2.1
  have e0 : win0_13.index t (0 : Fin 4) = (bOf t).val := congrFun e 0
  have e1 : win0_13.index t (1 : Fin 4) = (lOf t).val := congrFun e 1
  have e2 : win0_13.index t (2 : Fin 4) = 0 := congrFun e 2
  have e3 : win0_13.index t (3 : Fin 4) = 0 := congrFun e 3
  match a with
  | ⟨0, _⟩ => show win0_13.index t (0 : Fin 4) * 1 + 1 * 0 = (bOf t).val; omega
  | ⟨1, _⟩ => show win0_13.index t (1 : Fin 4) * 1 + 1 * 0 = (lOf t).val; omega
  | ⟨2, _⟩ => show win0_13.index t (2 : Fin 4) * 1 + 1 * ((0 : Fin 1)).val = ((0 : Fin 1)).val; omega
  | ⟨3, _⟩ => show win0_13.index t (3 : Fin 4) * 512 + 1 * j.val = j.val; omega

/-- An index of the array is in point `t`'s block iff each coordinate is in the block's range on its axis. -/
theorem mem_blk13 (t : Fin cfg0.N) (i : S8x16x1x512.Idx) :
    i ∈ ((cfg0.win 13).blk t).view.set ↔ ∀ a : Fin 4, win0_13.index t a * S1x1x1x512.size a ≤ (i a).val ∧ (i a).val < win0_13.index t a * S1x1x1x512.size a + S1x1x1x512.size a := by
  show i ∈ ((View.whole main_v2_1).slice (win0_13.rect t)).set ↔ _
  rw [View.set_slice_whole, Rect.mem_set_unit]
  exact Iff.rfl

/-- Every index of the array is in the block of the point of its sentence. -/
theorem cover13 (i : S8x16x1x512.Idx) :
    ∃ t : Fin cfg0.N, (cfg0.win 13).flush t = true ∧ i ∈ ((cfg0.win 13).blk t).view.set := by
  obtain ⟨t, hb, hl⟩ := idx_onto (i 0) (i 1)
  refine ⟨t, flush0_13 t, ?_⟩
  rw [mem_blk13]
  have e := (idx_facts t).2.2.2.2.2.2.1
  have e0 : win0_13.index t (0 : Fin 4) = (bOf t).val := congrFun e 0
  have e1 : win0_13.index t (1 : Fin 4) = (lOf t).val := congrFun e 1
  have e2 : win0_13.index t (2 : Fin 4) = 0 := congrFun e 2
  have e3 : win0_13.index t (3 : Fin 4) = 0 := congrFun e 3
  have hb' : (bOf t).val = (i 0).val := congrArg Fin.val hb
  have hl' : (lOf t).val = (i 1).val := congrArg Fin.val hl
  have h2 : (i 2).val < 1 := (i 2).isLt
  have h3 : (i 3).val < 512 := (i 3).isLt
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 1 ≤ (i 1).val ∧ (i 1).val < win0_13.index t (1 : Fin 4) * 1 + 1; omega
  | ⟨2, _⟩ => show win0_13.index t (2 : Fin 4) * 1 ≤ (i 2).val ∧ (i 2).val < win0_13.index t (2 : Fin 4) * 1 + 1; omega
  | ⟨3, _⟩ => show win0_13.index t (3 : Fin 4) * 512 ≤ (i 3).val ∧ (i 3).val < win0_13.index t (3 : Fin 4) * 512 + 512; omega

theorem emb14_at (t : Fin cfg0.N) (j : Fin 512) :
    ((cfg0.win 14).blk t).view.emb (ix4 (0 : Fin 1) (0 : Fin 1) (0 : Fin 1) j) = ix4 (bOf t) (lOf t) (0 : Fin 1) j := by
  funext a
  apply Fin.ext
  have e := (idx_facts t).2.2.2.2.2.2.2.1
  have e0 : win0_14.index t (0 : Fin 4) = (bOf t).val := congrFun e 0
  have e1 : win0_14.index t (1 : Fin 4) = (lOf t).val := congrFun e 1
  have e2 : win0_14.index t (2 : Fin 4) = 0 := congrFun e 2
  have e3 : win0_14.index t (3 : Fin 4) = 0 := congrFun e 3
  match a with
  | ⟨0, _⟩ => show win0_14.index t (0 : Fin 4) * 1 + 1 * 0 = (bOf t).val; omega
  | ⟨1, _⟩ => show win0_14.index t (1 : Fin 4) * 1 + 1 * 0 = (lOf t).val; omega
  | ⟨2, _⟩ => show win0_14.index t (2 : Fin 4) * 1 + 1 * ((0 : Fin 1)).val = ((0 : Fin 1)).val; omega
  | ⟨3, _⟩ => show win0_14.index t (3 : Fin 4) * 512 + 1 * j.val = j.val; omega

/-- An index of the array is in point `t`'s block iff each coordinate is in the block's range on its axis. -/
theorem mem_blk14 (t : Fin cfg0.N) (i : S8x16x1x512.Idx) :
    i ∈ ((cfg0.win 14).blk t).view.set ↔ ∀ a : Fin 4, win0_14.index t a * S1x1x1x512.size a ≤ (i a).val ∧ (i a).val < win0_14.index t a * S1x1x1x512.size a + S1x1x1x512.size a := by
  show i ∈ ((View.whole main_v2_2).slice (win0_14.rect t)).set ↔ _
  rw [View.set_slice_whole, Rect.mem_set_unit]
  exact Iff.rfl

/-- Every index of the array is in the block of the point of its sentence. -/
theorem cover14 (i : S8x16x1x512.Idx) :
    ∃ t : Fin cfg0.N, (cfg0.win 14).flush t = true ∧ i ∈ ((cfg0.win 14).blk t).view.set := by
  obtain ⟨t, hb, hl⟩ := idx_onto (i 0) (i 1)
  refine ⟨t, flush0_14 t, ?_⟩
  rw [mem_blk14]
  have e := (idx_facts t).2.2.2.2.2.2.2.1
  have e0 : win0_14.index t (0 : Fin 4) = (bOf t).val := congrFun e 0
  have e1 : win0_14.index t (1 : Fin 4) = (lOf t).val := congrFun e 1
  have e2 : win0_14.index t (2 : Fin 4) = 0 := congrFun e 2
  have e3 : win0_14.index t (3 : Fin 4) = 0 := congrFun e 3
  have hb' : (bOf t).val = (i 0).val := congrArg Fin.val hb
  have hl' : (lOf t).val = (i 1).val := congrArg Fin.val hl
  have h2 : (i 2).val < 1 := (i 2).isLt
  have h3 : (i 3).val < 512 := (i 3).isLt
  intro a
  match a with
  | ⟨0, _⟩ => show win0_14.index t (0 : Fin 4) * 1 ≤ (i 0).val ∧ (i 0).val < win0_14.index t (0 : Fin 4) * 1 + 1; omega
  | ⟨1, _⟩ => show win0_14.index t (1 : Fin 4) * 1 ≤ (i 1).val ∧ (i 1).val < win0_14.index t (1 : Fin 4) * 1 + 1; omega
  | ⟨2, _⟩ => show win0_14.index t (2 : Fin 4) * 1 ≤ (i 2).val ∧ (i 2).val < win0_14.index t (2 : Fin 4) * 1 + 1; omega
  | ⟨3, _⟩ => show win0_14.index t (3 : Fin 4) * 512 ≤ (i 3).val ∧ (i 3).val < win0_14.index t (3 : Fin 4) * 512 + 512; omega

theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  unfold outsAt0
  dsimp only
  rw [out13_eq]
  rw [iblk0_eq, iblk6_eq, iblk7_eq, V_main_arg5, V_main_arg6, V_main_arg7]
  refine ext_slab (d2 := 1) (d3 := 512) _ _ fun i j => ?_
  obtain rfl : i = (0 : Fin 1) := Fin.ext (by have hlt : i.val < 1 := i.isLt; show i.val = 0; omega)
  refine (blk_startPred (bOf t) (lOf t) (aX m c) (aLen m c) (aWse m c) (aBse m c)
    (iblk m c 1 t) (hx_at m c t) _ rfl j).trans ?_
  show _ = G13 m c (((cfg0.win 13).blk t).view.emb (ix4 (0 : Fin 1) (0 : Fin 1) (0 : Fin 1) j))
  rw [emb13_at]
  rfl

theorem flushed14_eq (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14]
  unfold outsAt0
  dsimp only
  rw [out14_eq]
  rw [iblk0_eq, iblk6_eq, iblk7_eq, V_main_arg5, V_main_arg6, V_main_arg7]
  refine ext_slab (d2 := 1) (d3 := 512) _ _ fun i j => ?_
  obtain rfl : i = (0 : Fin 1) := Fin.ext (by have hlt : i.val < 1 := i.isLt; show i.val = 0; omega)
  refine (blk_endPred (bOf t) (lOf t) (aX m c) (aLen m c) (aWse m c) (aBse m c)
    (iblk m c 1 t) (hx_at m c t) _ rfl j).trans ?_
  show _ = G14 m c (((cfg0.win 14).blk t).view.emb (ix4 (0 : Fin 1) (0 : Fin 1) (0 : Fin 1) j))
  rw [emb14_at]
  rfl

theorem final13 (c : Dev nD) : (dats m 0 c).arrAt 13 cfg0.N = G13 m c :=
  (dats m 0 c).arrAt_eq_of_cover 13 (G13 m c) (fun t _ => flushed13_eq m c t) cover13

theorem final14 (c : Dev nD) : (dats m 0 c).arrAt 14 cfg0.N = G14 m c :=
  (dats m 0 c).arrAt_eq_of_cover 14 (G14 m c) (fun t _ => flushed14_eq m c t) cover14

end Cert.SpanHead.Arr
end
-- ==== Proof.KernelTailA.lean ====
import proofs.«122283_j2963527434982_1_alg».proof.Proof.Spec
import proofs.«122283_j2963527434982_1_alg».proof.Proof.KernelPieces
import proofs.«122283_j2963527434982_1_alg».proof.Proof.KernelAt
import proofs.«122283_j2963527434982_1_alg».proof.Proof.KernelHostPre
import proofs.«122283_j2963527434982_1_alg».proof.Proof.KernelArrays
import Idealize.ShloMosaic.Lib.Pipeline.Value
import Idealize.ShloMosaic.Lib.ValueIdx
import Idealize.ShloMosaic.Lib.Tactic
import Idealize.ShloMosaic.Lib.StableHlo.Run
import Idealize.ShloMosaic.Lib.IdealHost

set_option maxRecDepth 16384

noncomputable section
open Idealize.ShloMosaic Idealize.ShloMosaic.TcCoe Idealize.SL.Sem Idealize.ShloMosaic.ValueIdx
open Idealize.ShloMosaic.Pipeline (Dat)

/-!
# The host lines after the kernel: the two reshaped prediction arrays

After the launch the host drops the unit third axis of the kernel's `start_pred` and `end_pred` arrays
(`[8, 16, 1, 512] → [8, 16, 512]`). Read at `(b, l, n)` the reshaped array is the kernel's array at `(b, l, 0, n)`.
-/

namespace Cert.SpanHead.Tail
open Cert.KernelIdeal Cert.KernelIdeal.Gen Cert.SpanHead Cert.SpanHead.At Cert.SpanHead.Arr
variable (m : (ℓ : Loc nD τ sig) → Buf (Elt Ideal) ℓ)

/-- Dropping the unit third axis, read at an index. -/
theorem drop_unit_at {α : Type} (A : S8x16x1x512.Idx → α) (i : S8x16x512.Idx) :
    shapeCast S8x16x512 A shapeCasts_S8x16x1x512_S8x16x512 i = A (ix4 (i 0) (i 1) (0 : Fin 1) (i 2)) :=
  shapeCast_apply A shapeCasts_S8x16x1x512_S8x16x512 i _ (by
    rw [Shape.rowMajor_val_four, Shape.rowMajor_val_three]
    have h0 : (i 0).val < 8 := (i 0).isLt
    have h1 : (i 1).val < 16 := (i 1).isLt
    have h2 : (i 2).val < 512 := (i 2).isLt
    show (((i 0).val * 16 + (i 1).val) * 1 + 0) * 512 + (i 2).val = ((i 0).val * 16 + (i 1).val) * 512 + (i 2).val
    omega)

/-- What the lines after the launch find in the kernel's output arrays. -/
theorem arr13 (c : Dev nD) :
    Pipeline.withArrays spec0 c (V0 m c) (fun w => (dats m 0 c).arrAt w cfg0.N) (Proc.devRef .tc main_v2_1) = G13 m c :=
  (Pipeline.withArrays_arr spec0 launch0.win.arr_inj c _ _ 13).trans (final13 m c)

theorem arr14 (c : Dev nD) :
    Pipeline.withArrays spec0 c (V0 m c) (fun w => (dats m 0 c).arrAt w cfg0.N) (Proc.devRef .tc main_v2_2) = G14 m c :=
  (Pipeline.withArrays_arr spec0 launch0.win.arr_inj c _ _ 14).trans (final14 m c)

/-- `start_pred`, as returned. -/
theorem tail_v3 (c : Dev nD) : Pipeline.afterTail₀ cfgs (dats m) 0 (V0 m) [hostOps1] c main_v3
    = fun i => sePred (aX m c) (aLen m c) (aWse m c) (aBse m c) (i 0) (i 1) (i 2) 0 := by
  unfold Pipeline.afterTail₀
  show StableHlo.after hostOps1 _ (Proc.devRef .tc main_v3) = _
  after_results
  show (fun i => shapeCast S8x16x512 (Pipeline.withArrays spec0 c (V0 m c) (fun w => (dats m 0 c).arrAt w cfg0.N)
    (Proc.devRef .tc main_v2_1)) shapeCasts_S8x16x1x512_S8x16x512 i) = _
  rw [arr13]
  funext i
  rw [drop_unit_at]
  rfl

/-- `end_pred`, as returned. -/
theorem tail_v4 (c : Dev nD) : Pipeline.afterTail₀ cfgs (dats m) 0 (V0 m) [hostOps1] c main_v4
    = fun i => sePred (aX m c) (aLen m c) (aWse m c) (aBse m c) (i 0) (i 1) (i 2) 1 := by
  unfold Pipeline.afterTail₀
  show StableHlo.after hostOps1 _ (Proc.devRef .tc main_v4) = _
  after_results
  show (fun i => shapeCast S8x16x512 (Pipeline.withArrays spec0 c (V0 m c) (fun w => (dats m 0 c).arrAt w cfg0.N)
    (Proc.devRef .tc main_v2_2)) shapeCasts_S8x16x1x512_S8x16x512 i) = _
  rw [arr14]
  funext i
  rw [drop_unit_at]
  rfl

end Cert.SpanHead.Tail
end
-- ==== Proof.LibIdxSums.lean ====
import Idealize.ShloMosaic.Lib.ValueIdx
import Idealize.ShloMosaic.PureOps.Ideal
import Idealize.ShloMosaic.PureOps.Ideal.Laws
import Mathlib

/-!
# Sums over index sets, coordinate by coordinate

An index of a rank-`n` array is the tuple of its coordinates, so a sum over every index of a rank-3 or
rank-4 array is the iterated sum over the coordinates (`sum_idx3`, `sum_idx4`).  A float sum of a rank-4
array over its axes 0, 1 and 3, read at the extended reals and at one index of the remaining axis, is
the initial value plus the triple sum over the three removed coordinates (`hostReduceAdd_013`).  Last, a
quantity that does not depend on a 128-long axis, summed along that axis as well and then divided by
`128`, is the sum without that axis — also when some values are infinite (`lane_avg`).
-/

noncomputable section

open scoped BigOperators

namespace Cert.LibIdxSums

open Idealize.ShloMosaic Idealize.ShloMosaic.ValueIdx

/-! ## Rank-3 and rank-4 index sets as products of coordinate ranges -/

/-- A rank-3 index set is the product of its three coordinate ranges: an index goes to its three
    coordinates, and back by `ix3`. -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over every index of a rank-3 array is the triple sum over the coordinates, in any additive
    commutative monoid. -/
theorem sum_idx3 {M : Type*} [AddCommMonoid M] {a b c : Nat} (f : (⟨3, ![a, b, c]⟩ : Shape).Idx → M) :
    ∑ i, f i = ∑ p : Fin a, ∑ q : Fin b, ∑ r : Fin c, f (ix3 p q r) := by
  rw [← Equiv.sum_comp (idxEquiv3 (a := a) (b := b) (c := c)).symm f, Fintype.sum_prod_type]
  refine Finset.sum_congr rfl fun p _ => ?_
  rw [Fintype.sum_prod_type]
  rfl

/-- A rank-4 index set is the product of its four coordinate ranges: an index goes to its four
    coordinates, and back by `ix4`. -/
def idxEquiv4 {a b c d : Nat} : (⟨4, ![a, b, c, d]⟩ : Shape).Idx ≃ Fin a × Fin b × Fin c × Fin d where
  toFun i := (i 0, i 1, i 2, i 3)
  invFun p := ix4 p.1 p.2.1 p.2.2.1 p.2.2.2
  left_inv i := (eq_ix4 i).symm
  right_inv _ := rfl

/-- A sum over every index of a rank-4 array is the fourfold sum over the coordinates, in any additive
    commutative monoid. -/
theorem sum_idx4 {M : Type*} [AddCommMonoid M] {a b c d : Nat} (f : (⟨4, ![a, b, c, d]⟩ : Shape).Idx → M) :
    ∑ i, f i = ∑ p : Fin a, ∑ q : Fin b, ∑ r : Fin c, ∑ t : Fin d, f (ix4 p q r t) := by
  rw [← Equiv.sum_comp (idxEquiv4 (a := a) (b := b) (c := c) (d := d)).symm f, Fintype.sum_prod_type]
  refine Finset.sum_congr rfl fun p _ => ?_
  rw [Fintype.sum_prod_type]
  refine Finset.sum_congr rfl fun q _ => ?_
  rw [Fintype.sum_prod_type]
  rfl

/-! ## A float sum over axes 0, 1 and 3 of a rank-4 array -/

/-- The float sum of a rank-4 array over its axes 0, 1 and 3, at the extended reals: at coordinate `k` of
    the remaining axis it is the initial value plus the triple sum, over the three removed coordinates, of
    the array at `(p, q, k, r)`.  An index `(p, q, r', r)` is sent to `k` exactly when `r' = k`. -/
theorem hostReduceAdd_013 {a b c d : Nat} (h' : (⟨4, ![a, b, c, d]⟩ : Shape).ReducesTo [0, 1, 3] ⟨1, ![c]⟩)
    (x : (⟨4, ![a, b, c, d]⟩ : Shape).Idx → EReal) (init : EReal) (k : Fin c) :
    Ideal.hostReduceAdd h' x init (ix1 k) = init + ∑ p : Fin a, ∑ q : Fin b, ∑ r : Fin d, x (ix4 p q k r) := by
  unfold Ideal.hostReduceAdd
  congr 1
  rw [Finset.sum_filter, sum_idx4]
  refine Finset.sum_congr rfl fun p _ => Finset.sum_congr rfl fun q _ => ?_
  have key : ∀ (r : Fin c) (t : Fin d), (h'.drop (ix4 p q r t) = ix1 k) ↔ r = k := by
    intro r t
    have hv : ((h'.drop (ix4 p q r t)) (0 : Fin 1) : Nat) = r.val := rfl
    constructor
    · intro h
      apply Fin.ext
      rw [← hv, h]
    · intro h
      funext e
      obtain rfl : e = (0 : Fin 1) := Subsingleton.elim _ _
      apply Fin.ext
      rw [hv, h]
  simp only [key]
  rw [Finset.sum_eq_single k]
  · simp
  · intro r _ hr
    simp [hr]
  · intro hk
    exact absurd (Finset.mem_univ k) hk

/-! ## The average over a 128-long axis of a quantity that does not depend on it -/

/-- A quantity `f p q` that does not depend on a third coordinate ranging over `128` values, summed over all
    three coordinates from `0` and divided by `128`, is the sum of `f` over the first two — for every
    extended-real `f`, infinite values included.  A constant summed `128` times is `128 •` it; `128 •` comes
    out of the finite sums; on the extended reals `128 • S = 128 * S`; division by the real `128` is the
    product with the real `1/128`; and `128 * (1/128) = 1`, so by commutativity and associativity of the
    extended reals' product nothing else is left. -/
theorem lane_avg (f : Fin 8 → Fin 16 → EReal) :
    Ideal.div (Ideal.ofBits .f32 0x00000000#32 + ∑ p : Fin 8, ∑ q : Fin 16, ∑ _r : Fin 128, f p q)
      (Ideal.ofBits .f32 0x43000000#32) = ∑ p : Fin 8, ∑ q : Fin 16, f p q := by
  have h128 : Ideal.ofBits .f32 0x43000000#32 = ((128 : ℝ) : EReal) := by
    simp [Ideal.ofBits, Ideal.ieee, -EReal.coe_mul]; norm_num
  have hsum : ∑ p : Fin 8, ∑ q : Fin 16, ∑ _r : Fin 128, f p q
      = ((128 : ℕ) : EReal) * ∑ p : Fin 8, ∑ q : Fin 16, f p q := by
    simp only [Finset.sum_const, Finset.card_univ, Fintype.card_fin]
    simp only [Finset.sum_nsmul]
    exact EReal.nsmul_eq_mul 128 _
  have hone : ((128 : ℕ) : EReal) * ((1 / 128 : ℝ) : EReal) = 1 := by
    have hc : ((128 : ℕ) : EReal) = ((128 : ℝ) : EReal) := by norm_cast
    have hr : (128 : ℝ) * (1 / 128) = 1 := by norm_num
    rw [hc, ← EReal.coe_mul, hr, EReal.coe_one]
  rw [Ideal.ofBits_zero_f32, zero_add, h128, Ideal.div_coe (by norm_num), hsum,
    mul_comm ((128 : ℕ) : EReal), mul_assoc, hone, mul_one]

end Cert.LibIdxSums

end
-- ==== Proof.KernelStats.lean ====
import proofs.«122283_j2963527434982_1_alg».proof.Proof.Spec
import proofs.«122283_j2963527434982_1_alg».proof.Proof.KernelPieces
import proofs.«122283_j2963527434982_1_alg».proof.Proof.KernelAt
import proofs.«122283_j2963527434982_1_alg».proof.Proof.KernelHostPre
import proofs.«122283_j2963527434982_1_alg».proof.Proof.KernelArrays
import proofs.«122283_j2963527434982_1_alg».proof.Proof.LibIdxSums
import Idealize.ShloMosaic.Lib.Pipeline.Value
import Idealize.ShloMosaic.Lib.ValueIdx
import Idealize.ShloMosaic.Lib.Tactic
import Idealize.ShloMosaic.Lib.StableHlo.Run
import Idealize.ShloMosaic.Lib.IdealHost

set_option maxRecDepth 16384

noncomputable section
open Idealize.ShloMosaic Idealize.ShloMosaic.TcCoe Idealize.SL.Sem Idealize.ShloMosaic.ValueIdx
open Idealize.ShloMosaic.Pipeline (Dat)

/-!
# The per-sentence statistics and their lane-repeated tile

The kernel writes, for each sentence `(b, l)`, a `6 × 128` tile whose row `k` repeats the sentence's `k`-th
statistic over 128 lanes: the counts of true positives, missed positives and false positives, the masked
start/end focal sum, the weighted span focal sum, and the sum of `val`. The host adds the tiles over sentences AND
lanes and divides by 128; that is the sum over sentences alone, at every extended real.
-/

namespace Cert.SpanHead.Stats
open Cert.KernelIdeal Cert.KernelIdeal.Gen Cert.SpanHead Cert.SpanHead.At Cert.SpanHead.Arr
variable (m : (ℓ : Loc nD τ sig) → Buf (Elt Ideal) ℓ)

/-- Sentence `(b, l)`'s `k`-th statistic. -/
def statOf (c : Dev nD) (k : Fin 6) (b : Fin 8) (l : Fin 16) : EReal :=
  match k with
  | 0 => ∑ i, ∑ j, tpTerm (aX m c) (aSpan m c) (aLen m c) (aWse m c) (aBse m c) (aWys m c) (aBys m c) (aWsp m c) (aBsp m c) b l i j
  | 1 => ∑ i, ∑ j, tnTerm (aX m c) (aSpan m c) (aLen m c) (aWse m c) (aBse m c) (aWys m c) (aBys m c) (aWsp m c) (aBsp m c) b l i j
  | 2 => ∑ i, ∑ j, fpTerm (aX m c) (aSpan m c) (aLen m c) (aWse m c) (aBse m c) (aWys m c) (aBys m c) (aWsp m c) (aBsp m c) b l i j
  | 3 => (∑ n, seTerm (aX m c) (aStart m c) (aLen m c) (aWse m c) (aBse m c) 0 b l n)
          + (∑ n, seTerm (aX m c) (aEnd m c) (aLen m c) (aWse m c) (aBse m c) 1 b l n)
  | 4 => ∑ i, ∑ j, spanTerm (aX m c) (aSpan m c) (aVal m c) (aWys m c) (aBys m c) (aWsp m c) (aBsp m c) b l i j
  | 5 => ∑ i, ∑ j, valF (aVal m c) b l i j

/-- What the statistics array `[8, 16, 6, 128]` ends holding. -/
def G15 (c : Dev nD) : S8x16x6x128.Idx → EReal := fun i => statOf m c (i 2) (i 0) (i 1)

/-- The host's reduction of a lane-repeated tile array: summed over sentences and lanes and divided by 128, row `k`
    is the sum over sentences of the `k`-th statistic. -/
theorem stat_at (A : S8x16x6x128.Idx → EReal) (f : Fin 6 → Fin 8 → Fin 16 → EReal)
    (hA : ∀ (p : Fin 8) (q : Fin 16) (k : Fin 6) (r : Fin 128), A (ix4 p q k r) = f k p q) (k : Fin 6) :
    Host.divf (F := Ideal) (Host.reduceAdd (F := Ideal) A (constant (F := Ideal) S_ .f32 0x00000000#32) reducesTo_S8x16x6x128_S6_d0_1_3 h_S_)
      (broadcastInDim S6 ![] bcast_S_S6 (constant (F := Ideal) S_ .f32 0x43000000#32)) (ix1 k) = ∑ p, ∑ q, f k p q := by
  show Ideal.div (Host.reduceAdd (F := Ideal) A (constant (F := Ideal) S_ .f32 0x00000000#32) reducesTo_S8x16x6x128_S6_d0_1_3 h_S_ (ix1 k))
    (broadcastInDim S6 ![] bcast_S_S6 (constant (F := Ideal) S_ .f32 0x43000000#32) (ix1 k)) = _
  rw [broadcastInDim_scalar_apply]
  simp only [Host.reduceAdd, Ideal.hostReduceAdd_def]
  rw [Cert.LibIdxSums.hostReduceAdd_013]
  simp only [hA]
  exact Cert.LibIdxSums.lane_avg (f k)

/-- A `[1]` array as a scalar is its one element. -/
theorem cast1_at {α : Type} (A : S1.Idx → α) (j : S_.Idx) :
    shapeCast S_ A shapeCasts_S1_S_ j = A (ix1 (0 : Fin 1)) :=
  shapeCast_apply A shapeCasts_S1_S_ j _ (by
    rw [Shape.rowMajor_val_one]
    exact (Shape.rowMajorPi_zero _ j).symm)

/-- Row `k` of the reduced statistics, sliced out and read as a scalar. -/
theorem stat_read (A : S8x16x6x128.Idx → EReal) (f : Fin 6 → Fin 8 → Fin 16 → EReal)
    (hA : ∀ (p : Fin 8) (q : Fin 16) (k : Fin 6) (r : Fin 128), A (ix4 p q k r) = f k p q) (k : Fin 6)
    (off : Fin 1 → Nat) (hs : S6.Slices off S1) (hoff : off 0 = k.val) (i : S_.Idx) :
    shapeCast S_ (extractStridedSlice S1 off
      (Host.divf (F := Ideal) (Host.reduceAdd (F := Ideal) A (constant (F := Ideal) S_ .f32 0x00000000#32) reducesTo_S8x16x6x128_S6_d0_1_3 h_S_)
        (broadcastInDim S6 ![] bcast_S_S6 (constant (F := Ideal) S_ .f32 0x43000000#32))) hs) shapeCasts_S1_S_ i
      = ∑ p, ∑ q, f k p q := by
  rw [cast1_at, extractStridedSlice_apply off _ hs _ (ix1 k) (fun a => by
    match a with
    | ⟨0, _⟩ => show k.val = off 0 + 0; omega)]
  exact stat_at A f hA k

end Cert.SpanHead.Stats
end
-- ==== Proof.KernelTailB.lean ====
import proofs.«122283_j2963527434982_1_alg».proof.Proof.Spec
import proofs.«122283_j2963527434982_1_alg».proof.Proof.KernelPieces
import proofs.«122283_j2963527434982_1_alg».proof.Proof.KernelAt
import proofs.«122283_j2963527434982_1_alg».proof.Proof.KernelHostPre
import proofs.«122283_j2963527434982_1_alg».proof.Proof.KernelStats
import proofs.«122283_j2963527434982_1_alg».proof.Proof.Lengths
import Idealize.ShloMosaic.Lib.Pipeline.Value
import Idealize.ShloMosaic.Lib.ValueIdx
import Idealize.ShloMosaic.Lib.Tactic
import Idealize.ShloMosaic.Lib.StableHlo.Run
import Idealize.ShloMosaic.Lib.IdealHost

set_option maxRecDepth 16384

noncomputable section
open Idealize.ShloMosaic Idealize.ShloMosaic.TcCoe Idealize.SL.Sem Idealize.ShloMosaic.ValueIdx
open Idealize.ShloMosaic.Pipeline (Dat)

/-!
# The host lines after the kernel: the counts and the two losses

Each count is a row of the reduced statistics. `se_loss` divides row 3 by `32` times the lengths added up as
integers and converted; `span_loss` divides row 4 by row 5 plus `1e-7`.
-/

namespace Cert.SpanHead.Tail
open Cert.KernelIdeal Cert.KernelIdeal.Gen Cert.SpanHead Cert.SpanHead.At Cert.SpanHead.Arr Cert.SpanHead.Stats
variable (m : (ℓ : Loc nD τ sig) → Buf (Elt Ideal) ℓ)

/-- What the lines after the launch find in the statistics array, and in the lengths. -/
theorem arr15 (c : Dev nD) (h15 : (dats m 0 c).arrAt 15 cfg0.N = G15 m c) :
    Pipeline.withArrays spec0 c (V0 m c) (fun w => (dats m 0 c).arrAt w cfg0.N) (Proc.devRef .tc main_v2_3) = G15 m c :=
  (Pipeline.withArrays_arr spec0 launch0.win.arr_inj c _ _ 15).trans h15

theorem arr0 (c : Dev nD) :
    Pipeline.withArrays spec0 c (V0 m c) (fun w => (dats m 0 c).arrAt w cfg0.N) (Proc.devRef .tc main_arg5) = aLen m c :=
  (Pipeline.withArrays_arr spec0 launch0.win.arr_inj c _ _ 0).trans
    (((dats m 0 c).arrAt_in 0 rfl _).trans ((A_eq m c 0).trans (V_main_arg5 m c)))

/-- \`tp\`, as returned: the sum over all sentences and pairs. -/
theorem tail_v9 (c : Dev nD) (h15 : (dats m 0 c).arrAt 15 cfg0.N = G15 m c) :
    Pipeline.afterTail₀ cfgs (dats m) 0 (V0 m) [hostOps1] c main_v9
      = fun _ => total (tpTerm (aX m c) (aSpan m c) (aLen m c) (aWse m c) (aBse m c) (aWys m c) (aBys m c) (aWsp m c) (aBsp m c)) := by
  unfold Pipeline.afterTail₀
  show StableHlo.after hostOps1 _ (Proc.devRef .tc main_v9) = _
  after_results
  show (fun i => shapeCast S_ (extractStridedSlice S1 ![0] (Host.divf (F := Ideal) (Host.reduceAdd (F := Ideal) (Pipeline.withArrays spec0 c (V0 m c) (fun w => (dats m 0 c).arrAt w cfg0.N) (Proc.devRef .tc main_v2_3)) (constant (F := Ideal) S_ .f32 0x00000000#32) reducesTo_S8x16x6x128_S6_d0_1_3 h_S_)
      (broadcastInDim S6 ![] bcast_S_S6 (constant (F := Ideal) S_ .f32 0x43000000#32))) slices_S6_S1_0) shapeCasts_S1_S_ i) = _
  rw [arr15 m c h15]
  funext i
  exact stat_read (G15 m c) (statOf m c) (fun _ _ _ _ => rfl) 0 _ _ rfl i

/-- \`tn\`, as returned: the sum over all sentences and pairs. -/
theorem tail_v11 (c : Dev nD) (h15 : (dats m 0 c).arrAt 15 cfg0.N = G15 m c) :
    Pipeline.afterTail₀ cfgs (dats m) 0 (V0 m) [hostOps1] c main_v11
      = fun _ => total (tnTerm (aX m c) (aSpan m c) (aLen m c) (aWse m c) (aBse m c) (aWys m c) (aBys m c) (aWsp m c) (aBsp m c)) := by
  unfold Pipeline.afterTail₀
  show StableHlo.after hostOps1 _ (Proc.devRef .tc main_v11) = _
  after_results
  show (fun i => shapeCast S_ (extractStridedSlice S1 ![1] (Host.divf (F := Ideal) (Host.reduceAdd (F := Ideal) (Pipeline.withArrays spec0 c (V0 m c) (fun w => (dats m 0 c).arrAt w cfg0.N) (Proc.devRef .tc main_v2_3)) (constant (F := Ideal) S_ .f32 0x00000000#32) reducesTo_S8x16x6x128_S6_d0_1_3 h_S_)
      (broadcastInDim S6 ![] bcast_S_S6 (constant (F := Ideal) S_ .f32 0x43000000#32))) slices_S6_S1_1) shapeCasts_S1_S_ i) = _
  rw [arr15 m c h15]
  funext i
  exact stat_read (G15 m c) (statOf m c) (fun _ _ _ _ => rfl) 1 _ _ rfl i

/-- \`fp\`, as returned: the sum over all sentences and pairs. -/
theorem tail_v13 (c : Dev nD) (h15 : (dats m 0 c).arrAt 15 cfg0.N = G15 m c) :
    Pipeline.afterTail₀ cfgs (dats m) 0 (V0 m) [hostOps1] c main_v13
      = fun _ => total (fpTerm (aX m c) (aSpan m c) (aLen m c) (aWse m c) (aBse m c) (aWys m c) (aBys m c) (aWsp m c) (aBsp m c)) := by
  unfold Pipeline.afterTail₀
  show StableHlo.after hostOps1 _ (Proc.devRef .tc main_v13) = _
  after_results
  show (fun i => shapeCast S_ (extractStridedSlice S1 ![2] (Host.divf (F := Ideal) (Host.reduceAdd (F := Ideal) (Pipeline.withArrays spec0 c (V0 m c) (fun w => (dats m 0 c).arrAt w cfg0.N) (Proc.devRef .tc main_v2_3)) (constant (F := Ideal) S_ .f32 0x00000000#32) reducesTo_S8x16x6x128_S6_d0_1_3 h_S_)
      (broadcastInDim S6 ![] bcast_S_S6 (constant (F := Ideal) S_ .f32 0x43000000#32))) slices_S6_S1_2) shapeCasts_S1_S_ i) = _
  rw [arr15 m c h15]
  funext i
  exact stat_read (G15 m c) (statOf m c) (fun _ _ _ _ => rfl) 2 _ _ rfl i

set_option maxHeartbeats 4000000 in
/-- `se_loss`, as returned, when every length lies in `[0, 512]`. -/
theorem tail_v24 (c : Dev nD) (h15 : (dats m 0 c).arrAt 15 cfg0.N = G15 m c) (hl : LenOk (aLen m c)) :
    Pipeline.afterTail₀ cfgs (dats m) 0 (V0 m) [hostOps1] c main_v24
      = fun _ => seLoss (aX m c) (aStart m c) (aEnd m c) (aLen m c) (aWse m c) (aBse m c) := by
  unfold Pipeline.afterTail₀
  show StableHlo.after hostOps1 _ (Proc.devRef .tc main_v24) = _
  after_results
  show Host.divf (F := Ideal) (fun i => shapeCast S_ (extractStridedSlice S1 ![3] (Host.divf (F := Ideal) (Host.reduceAdd (F := Ideal) (Pipeline.withArrays spec0 c (V0 m c) (fun w => (dats m 0 c).arrAt w cfg0.N) (Proc.devRef .tc main_v2_3)) (constant (F := Ideal) S_ .f32 0x00000000#32) reducesTo_S8x16x6x128_S6_d0_1_3 h_S_)
      (broadcastInDim S6 ![] bcast_S_S6 (constant (F := Ideal) S_ .f32 0x43000000#32))) slices_S6_S1_3) shapeCasts_S1_S_ i)
      (mulf (sitofp (F := Ideal) .f32 (Host.reduce IntOp.addi (Pipeline.withArrays spec0 c (V0 m c) (fun w => (dats m 0 c).arrAt w cfg0.N) (Proc.devRef .tc main_arg5)) (constantI S_ 32 0#32) reducesTo_S8_S_d0 h_S_))
        (constant (F := Ideal) S_ .f32 0x42000000#32)) = _
  rw [arr15 m c h15, arr0, sitofp_reduce_len (aLen m c) hl]
  funext i
  show Ideal.div (shapeCast S_ (extractStridedSlice S1 ![3] (Host.divf (F := Ideal) (Host.reduceAdd (F := Ideal) (G15 m c) (constant (F := Ideal) S_ .f32 0x00000000#32) reducesTo_S8x16x6x128_S6_d0_1_3 h_S_)
      (broadcastInDim S6 ![] bcast_S_S6 (constant (F := Ideal) S_ .f32 0x43000000#32))) slices_S6_S1_3) shapeCasts_S1_S_ i)
    (tokCount (aLen m c) * c32) = _
  rw [stat_read (G15 m c) (statOf m c) (fun _ _ _ _ => rfl) 3 _ _ rfl i]
  rfl

set_option maxHeartbeats 4000000 in
/-- `span_loss`, as returned. -/
theorem tail_v25 (c : Dev nD) (h15 : (dats m 0 c).arrAt 15 cfg0.N = G15 m c) :
    Pipeline.afterTail₀ cfgs (dats m) 0 (V0 m) [hostOps1] c main_v25
      = fun _ => spanLoss (aX m c) (aSpan m c) (aVal m c) (aWys m c) (aBys m c) (aWsp m c) (aBsp m c) := by
  unfold Pipeline.afterTail₀
  show StableHlo.after hostOps1 _ (Proc.devRef .tc main_v25) = _
  after_results
  show Host.divf (F := Ideal) (fun i => shapeCast S_ (extractStridedSlice S1 ![4] (Host.divf (F := Ideal) (Host.reduceAdd (F := Ideal) (Pipeline.withArrays spec0 c (V0 m c) (fun w => (dats m 0 c).arrAt w cfg0.N) (Proc.devRef .tc main_v2_3)) (constant (F := Ideal) S_ .f32 0x00000000#32) reducesTo_S8x16x6x128_S6_d0_1_3 h_S_)
      (broadcastInDim S6 ![] bcast_S_S6 (constant (F := Ideal) S_ .f32 0x43000000#32))) slices_S6_S1_4) shapeCasts_S1_S_ i)
      (addf (fun i => shapeCast S_ (extractStridedSlice S1 ![5] (Host.divf (F := Ideal) (Host.reduceAdd (F := Ideal) (Pipeline.withArrays spec0 c (V0 m c) (fun w => (dats m 0 c).arrAt w cfg0.N) (Proc.devRef .tc main_v2_3)) (constant (F := Ideal) S_ .f32 0x00000000#32) reducesTo_S8x16x6x128_S6_d0_1_3 h_S_)
      (broadcastInDim S6 ![] bcast_S_S6 (constant (F := Ideal) S_ .f32 0x43000000#32))) slices_S6_S1_5) shapeCasts_S1_S_ i) (constant (F := Ideal) S_ .f32 0x33D6BF95#32)) = _
  rw [arr15 m c h15]
  funext i
  show Ideal.div (shapeCast S_ (extractStridedSlice S1 ![4] (Host.divf (F := Ideal) (Host.reduceAdd (F := Ideal) (G15 m c) (constant (F := Ideal) S_ .f32 0x00000000#32) reducesTo_S8x16x6x128_S6_d0_1_3 h_S_)
      (broadcastInDim S6 ![] bcast_S_S6 (constant (F := Ideal) S_ .f32 0x43000000#32))) slices_S6_S1_4) shapeCasts_S1_S_ i)
    (shapeCast S_ (extractStridedSlice S1 ![5] (Host.divf (F := Ideal) (Host.reduceAdd (F := Ideal) (G15 m c) (constant (F := Ideal) S_ .f32 0x00000000#32) reducesTo_S8x16x6x128_S6_d0_1_3 h_S_)
      (broadcastInDim S6 ![] bcast_S_S6 (constant (F := Ideal) S_ .f32 0x43000000#32))) slices_S6_S1_5) shapeCasts_S1_S_ i + eps) = _
  rw [stat_read (G15 m c) (statOf m c) (fun _ _ _ _ => rfl) 4 _ _ rfl i,
    stat_read (G15 m c) (statOf m c) (fun _ _ _ _ => rfl) 5 _ _ rfl i]
  rfl

end Cert.SpanHead.Tail
end
-- ==== Proof.KernelRun.lean ====
import proofs.«122283_j2963527434982_1_alg».proof.Proof.Spec
import proofs.«122283_j2963527434982_1_alg».proof.Proof.KernelPieces
import proofs.«122283_j2963527434982_1_alg».proof.Proof.KernelAt
import proofs.«122283_j2963527434982_1_alg».proof.Proof.KernelHostPre
import proofs.«122283_j2963527434982_1_alg».proof.Proof.KernelTailA
import proofs.«122283_j2963527434982_1_alg».proof.Proof.KernelTailB
import Idealize.ShloMosaic.Lib.Pipeline.Value
import Idealize.ShloMosaic.Lib.ValueIdx
import Idealize.ShloMosaic.Lib.Tactic
import Idealize.ShloMosaic.Lib.StableHlo.Run
import Idealize.ShloMosaic.Lib.IdealHost

set_option maxRecDepth 16384

noncomputable section
open Idealize.ShloMosaic Idealize.ShloMosaic.TcCoe Idealize.SL.Sem Idealize.ShloMosaic.ValueIdx
open Idealize.ShloMosaic.Pipeline (Dat)

/-!
# The kernel program's run, read

Every weakly fair execution of the kernel program ends with its eight results at the specification's functions of
the argument arrays, and the arguments unchanged — given that the statistics array ends at its tile function and that
every length lies in `[0, 512]` (the one place the precondition enters: the kernel divides by the lengths added up,
the reference by the number of unmasked tokens).
-/

namespace Cert.SpanHead.Run
open Cert.KernelIdeal Cert.KernelIdeal.Gen Cert.SpanHead Cert.SpanHead.At Cert.SpanHead.Arr Cert.SpanHead.Stats Cert.SpanHead.Tail
variable (m : (ℓ : Loc nD τ sig) → Buf (Elt Ideal) ℓ) (ρ : Dev nD → PrngReg)

theorem run (h15 : ∀ c, (dats m 0 c).arrAt 15 cfg0.N = G15 m c) (hl : ∀ c, LenOk (aLen m c)) :
    θ_run defs (onTc (τ := τ) (main (F := Ideal))) ⟨m, fun _ => 0, ρ⟩ fun r => ∀ c : Dev nD,
      r.2.mem ((c.tc : Thread nD τ).loc main_v2_0) = G12 m c
      ∧ r.2.mem ((c.tc : Thread nD τ).loc main_v3) = (fun i => sePred (aX m c) (aLen m c) (aWse m c) (aBse m c) (i 0) (i 1) (i 2) 0)
      ∧ r.2.mem ((c.tc : Thread nD τ).loc main_v4) = (fun i => sePred (aX m c) (aLen m c) (aWse m c) (aBse m c) (i 0) (i 1) (i 2) 1)
      ∧ r.2.mem ((c.tc : Thread nD τ).loc main_v9) = (fun _ => total (tpTerm (aX m c) (aSpan m c) (aLen m c) (aWse m c) (aBse m c) (aWys m c) (aBys m c) (aWsp m c) (aBsp m c)))
      ∧ r.2.mem ((c.tc : Thread nD τ).loc main_v11) = (fun _ => total (tnTerm (aX m c) (aSpan m c) (aLen m c) (aWse m c) (aBse m c) (aWys m c) (aBys m c) (aWsp m c) (aBsp m c)))
      ∧ r.2.mem ((c.tc : Thread nD τ).loc main_v13) = (fun _ => total (fpTerm (aX m c) (aSpan m c) (aLen m c) (aWse m c) (aBse m c) (aWys m c) (aBys m c) (aWsp m c) (aBsp m c)))
      ∧ r.2.mem ((c.tc : Thread nD τ).loc main_v24) = (fun _ => seLoss (aX m c) (aStart m c) (aEnd m c) (aLen m c) (aWse m c) (aBse m c))
      ∧ r.2.mem ((c.tc : Thread nD τ).loc main_v25) = (fun _ => spanLoss (aX m c) (aSpan m c) (aVal m c) (aWys m c) (aBys m c) (aWsp m c) (aBsp m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).1 12).trans (final12 m c),
      ((h c).2 main_v3 (Pipeline.mem_restRefs_of main_v3 (by decide) (by decide))).trans (tail_v3 m c),
      ((h c).2 main_v4 (Pipeline.mem_restRefs_of main_v4 (by decide) (by decide))).trans (tail_v4 m c),
      ((h c).2 main_v9 (Pipeline.mem_restRefs_of main_v9 (by decide) (by decide))).trans (tail_v9 m c (h15 c)),
      ((h c).2 main_v11 (Pipeline.mem_restRefs_of main_v11 (by decide) (by decide))).trans (tail_v11 m c (h15 c)),
      ((h c).2 main_v13 (Pipeline.mem_restRefs_of main_v13 (by decide) (by decide))).trans (tail_v13 m c (h15 c)),
      ((h c).2 main_v24 (Pipeline.mem_restRefs_of main_v24 (by decide) (by decide))).trans (tail_v24 m c (h15 c) (hl c)),
      ((h c).2 main_v25 (Pipeline.mem_restRefs_of main_v25 (by decide) (by decide))).trans (tail_v25 m c (h15 c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 0).trans (((dats m 0 c).arrAt_in 0 rfl _).trans ((A_eq m c 0).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩)
    (run_main m ρ)

end Cert.SpanHead.Run
end
-- ==== Proof.KernelBlockC.lean ====
import proofs.«122283_j2963527434982_1_alg».proof.Proof.KernelBlockB
import proofs.«122283_j2963527434982_1_alg».proof.Proof.LibIdxSums

/-!
# The statistics tile of one grid point

The fourth stored block is a `6 × 128` tile: row `k` repeats the sentence's `k`-th statistic over its `128`
lanes.  The six statistics are total sums: over the `512 × 512` token pairs of the true-positive, the
missed-positive and the false-positive indicators of the span predictions, of the weighted span focal terms
and of `val`; and over the `512` tokens of the masked start and end focal terms, added.

This file reads the tile at `(0, 0, k, q)` as the `k`-th of the six joined one-element vectors, reads a total sum
of a matrix (or a vector) as the iterated sum over its coordinates, reads each summand at an index, and
identifies the six rows with the specification's sums at `(b, l)`.
-/

noncomputable section

namespace Cert.SpanHead.Blk

open Idealize.ShloMosaic Idealize.ShloMosaic.ValueIdx Cert.KernelIdeal Cert.KernelIdeal.Gen

/-! ## Six one-element vectors joined, read at a position -/

/-- Six `[1]` vectors joined into a `[6]` vector: position `k` reads the `k`-th one's element. -/
theorem concat6_apply (p0 p1 p2 p3 p4 p5 : FVec Ideal S1 .f32) (h : Shape.Concatenates [S1, S1, S1, S1, S1, S1] S6 0)
    (k : Fin 6) :
    concatenate S6 0 [⟨S1, p0⟩, ⟨S1, p1⟩, ⟨S1, p2⟩, ⟨S1, p3⟩, ⟨S1, p4⟩, ⟨S1, p5⟩] h (ix1 k)
      = (![p0, p1, p2, p3, p4, p5] : Fin 6 → FVec Ideal S1 .f32) k (ix1 (0 : Fin 1)) := by
  show concatenate S6 0 (List.ofFn fun n : Fin 6 =>
      (⟨S1, (![p0, p1, p2, p3, p4, p5] : Fin 6 → FVec Ideal S1 .f32) n⟩ : (s : Shape) × (s.Idx → EReal))) h (ix1 k) = _
  exact concatenate_ofFn_unit_apply (0 : Fin S6.rank)
    (fun n : Fin 6 => (![p0, p1, p2, p3, p4, p5] : Fin 6 → FVec Ideal S1 .f32) n) h rfl rfl (ix1 k) k rfl
    (ix1 (0 : Fin 1))
    (fun b hb => absurd (Fin.ext (by have hb1 : b.val < 1 := b.isLt; show b.val = 0; omega)) hb)

/-- The tile at `(0, 0, k, q)`: the `k`-th statistic, whatever the lane `q`. -/
theorem pay1_apply (v88 v162 v166 v188 v199 : EReal) (v211 : FVec Ideal S1 .f32) (k : Fin 6) (q : Fin 128) :
    k0_pay1 (F := Ideal) v88 v162 v166 v188 v199 v211 (ix4 (0 : Fin 1) (0 : Fin 1) k q)
      = (![v211 (ix1 (0 : Fin 1)), v188, v199, v88, v162, v166] : Fin 6 → EReal) k := by
  unfold k0_pay1
  refine (shapeCast_ab_11ab_apply _ _ (0 : Fin 1) (0 : Fin 1) k q).trans ?_
  refine (broadcastTo_a1_ab_apply _ _ k q).trans ?_
  rw [shapeCast_self]
  refine (shapeCast_a_a1_apply _ _ k (0 : Fin 1)).trans ?_
  refine (concat6_apply _ _ _ _ _ _ _ k).trans ?_
  match k with
  | ⟨0, _⟩ => rfl
  | ⟨1, _⟩ => rfl
  | ⟨2, _⟩ => rfl
  | ⟨3, _⟩ => rfl
  | ⟨4, _⟩ => rfl
  | ⟨5, _⟩ => rfl

/-! ## Total sums -/

/-- The total of a `512 × 512` matrix, as the body takes it: viewed `[1, 512, 512]`, summed over its two long axes
    into a one-element vector, the element taken out. It is the double sum over rows and columns. -/
theorem matSum_apply (m : FVec Ideal S512x512 .f32) (h1 : S512x512.ShapeCasts S1x512x512)
    (h2 : S1x512x512.Reduces [1, 2] S1) (hφ : FKind.Formats .f32)
    (hacc : (0x00000000#32 : BitVec 32) = FKind.add.neutral .f32 hφ) (h3 : S1.ShapeCasts S1x1x1)
    (hp : ∀ a, (![0, 0, 0] : Fin 3 → Nat) a < S1x1x1.size a) :
    extractAt ![0, 0, 0]
        (shapeCast S1x1x1 (multiReduction .add [1, 2] S1 (shapeCast S1x512x512 m h1) 0x00000000#32 h2 hφ hacc) h3) hp
      = ∑ i : Fin 512, ∑ j : Fin 512, m (ix2 i j) := by
  refine (extractAt_shapeCast_1_111 _ _ _).trans ?_
  refine (Ideal.multiReduction_add_total _ _ h2 (fun b => by match b with | ⟨0, _⟩ => rfl) hφ hacc
    (ix1 (0 : Fin 1))).trans ?_
  refine (Cert.LibIdxSums.sum_idx3 _).trans ?_
  rw [Fin.sum_univ_one]
  exact Finset.sum_congr rfl fun i _ => Finset.sum_congr rfl fun j _ => shapeCast_ab_1ab_apply m h1 (0 : Fin 1) i j

/-- The total of a `512`-vector, as the body takes it: viewed `[1, 512]`, summed along its long axis into a
    one-element vector, the element taken out. -/
theorem vecSum_apply (v : FVec Ideal S512 .f32) (h1 : S512.ShapeCasts S1x512)
    (h2 : S1x512.Reduces [1] S1) (hφ : FKind.Formats .f32)
    (hacc : (0x00000000#32 : BitVec 32) = FKind.add.neutral .f32 hφ) (h3 : S1.ShapeCasts S1x1)
    (hp : ∀ a, (![0, 0] : Fin 2 → Nat) a < S1x1.size a) :
    extractAt ![0, 0]
        (shapeCast S1x1 (multiReduction .add [1] S1 (shapeCast S1x512 v h1) 0x00000000#32 h2 hφ hacc) h3) hp
      = ∑ n : Fin 512, v (ix1 n) := by
  refine (extractAt_shapeCast_1_11 _ _ _).trans ?_
  refine (Ideal.multiReduction_add_total _ _ h2 (fun b => by match b with | ⟨0, _⟩ => rfl) hφ hacc
    (ix1 (0 : Fin 1))).trans ?_
  refine (sum_idx2 _).trans ?_
  rw [Fin.sum_univ_one]
  exact Finset.sum_congr rfl fun n _ => shapeCast_a_1a_apply v h1 (0 : Fin 1) n

/-! ## The summands at an index -/

/-- The `span` (or `val`) block viewed as a matrix. -/
theorem pay19_apply (v134 : IVec S1x1x512x512 32) (i j : Fin 512) :
    k0_pay19 (F := Ideal) v134 (ix2 i j) = v134 (ix4 (0 : Fin 1) (0 : Fin 1) i j) := by
  unfold k0_pay19
  exact shapeCast_11ab_ab_apply _ _ i j

/-- The `val` block as numbers. -/
theorem pay20_apply (v136 : IVec S1x1x512x512 32) (i j : Fin 512) :
    k0_pay20 (F := Ideal) v136 (ix2 i j) = (((v136 (ix4 (0 : Fin 1) (0 : Fin 1) i j)).toInt : ℝ) : EReal) := by
  unfold k0_pay20
  rw [sitofp_apply, shapeCast_11ab_ab_apply]
  rfl

/-- A token's masked focal term: the focal term of its label at its probability, times the mask. -/
theorem pay9_apply (v20 v35 : FVec Ideal S512 .f32) (v36 : IVec S1x1x1x512 32) (n : Fin 512) :
    k0_pay9 (F := Ideal) v20 v35 v36 (ix1 n)
      = focal (v36 (ix4 (0 : Fin 1) (0 : Fin 1) (0 : Fin 1) n)) (v20 (ix1 n)) * v35 (ix1 n) := by
  unfold k0_pay9
  simp only [mulf_apply, select_apply, cmpi_apply, broadcast_apply, addf_apply, subf_apply, log_apply,
    shapeCast_111a_a_apply]
  rfl

/-- The same for the end labels and probabilities. -/
theorem pay10_apply (v22 v35 : FVec Ideal S512 .f32) (v38 : IVec S1x1x1x512 32) (n : Fin 512) :
    k0_pay10 (F := Ideal) v22 v35 v38 (ix1 n)
      = focal (v38 (ix4 (0 : Fin 1) (0 : Fin 1) (0 : Fin 1) n)) (v22 (ix1 n)) * v35 (ix1 n) := by
  unfold k0_pay10
  simp only [mulf_apply, select_apply, cmpi_apply, broadcast_apply, addf_apply, subf_apply, log_apply,
    shapeCast_111a_a_apply]
  rfl

/-- The start-plus-end focal sum: the two totals over the tokens, added. -/
theorem pay11_eq (v59 v79 : FVec Ideal S512 .f32) :
    k0_pay11 (F := Ideal) v59 v79 = (∑ n : Fin 512, v59 (ix1 n)) + (∑ n : Fin 512, v79 (ix1 n)) := by
  unfold k0_pay11
  show (extractAt _ _ _ : EReal) + (extractAt _ _ _ : EReal) = _
  exact congrArg₂ (· + ·) (vecSum_apply v59 _ _ _ _ _ _) (vecSum_apply v79 _ _ _ _ _ _)

/-- The span focal sum: over the token pairs, the focal term of the pair's label at its probability times `val`. -/
theorem pay21_eq (v119 : FVec Ideal S512x512 .f32) (v134 v136 : IVec S1x1x512x512 32) :
    k0_pay21 (F := Ideal) v119 v134 v136
      = ∑ i : Fin 512, ∑ j : Fin 512, focal (v134 (ix4 (0 : Fin 1) (0 : Fin 1) i j)) (v119 (ix2 i j))
          * (((v136 (ix4 (0 : Fin 1) (0 : Fin 1) i j)).toInt : ℝ) : EReal) := by
  unfold k0_pay21
  refine (matSum_apply _ _ _ _ _ _ _).trans ?_
  refine Finset.sum_congr rfl fun i _ => Finset.sum_congr rfl fun j _ => ?_
  simp only [mulf_apply, select_apply, cmpi_apply, broadcast_apply, addf_apply, subf_apply, log_apply,
    pay19_apply, pay20_apply]
  rfl

/-- The sum of `val` over the token pairs. -/
theorem pay22_eq (v136 : IVec S1x1x512x512 32) :
    k0_pay22 (F := Ideal) v136
      = ∑ i : Fin 512, ∑ j : Fin 512, (((v136 (ix4 (0 : Fin 1) (0 : Fin 1) i j)).toInt : ℝ) : EReal) := by
  unfold k0_pay22
  refine (matSum_apply _ _ _ _ _ _ _).trans ?_
  exact Finset.sum_congr rfl fun i _ => Finset.sum_congr rfl fun j _ => pay20_apply v136 i j

/-- The true-positive indicator of a pair: label `1` and prediction `1`. -/
theorem pay23_apply (v123 v129 v131 : IVec S512x512 32) (v134 : IVec S1x1x512x512 32) (i j : Fin 512) :
    k0_pay23 (F := Ideal) v123 v129 v131 v134 (ix2 i j)
      = ind (IntOp.andi (IntOp.cmpi .eq (v134 (ix4 (0 : Fin 1) (0 : Fin 1) i j)) 1#32)
          (IntOp.cmpi .eq (k0_pay18 v123 v129 v131 (ix2 i j)) 1#32)) := by
  unfold k0_pay23
  simp only [sitofp_apply, extui_apply, andi_apply, cmpi_apply, broadcast_apply, pay19_apply]
  rfl

/-- The true-positive count, as the one element of its vector. -/
theorem pay29_apply (v173 : FVec Ideal S512x512 .f32) :
    k0_pay29 (F := Ideal) v173 (ix1 (0 : Fin 1)) = ∑ i : Fin 512, ∑ j : Fin 512, v173 (ix2 i j) := by
  unfold k0_pay29
  rw [broadcast_apply]
  exact matSum_apply _ _ _ _ _ _ _

/-- The missed-positive count: label `1` and prediction not `1`. -/
theorem pay24_eq (v133 v135 : IVec S512x512 32) :
    k0_pay24 (F := Ideal) v133 v135
      = ∑ i : Fin 512, ∑ j : Fin 512,
          ind (IntOp.andi (IntOp.cmpi .eq (v135 (ix2 i j)) 1#32) (IntOp.cmpi .ne (v133 (ix2 i j)) 1#32)) := by
  unfold k0_pay24
  refine (matSum_apply _ _ _ _ _ _ _).trans ?_
  refine Finset.sum_congr rfl fun i _ => Finset.sum_congr rfl fun j _ => ?_
  simp only [sitofp_apply, extui_apply, andi_apply, cmpi_apply, broadcast_apply]
  rfl

/-- The false-positive count: label `0` and prediction `1`. -/
theorem pay25_eq (v133 v135 : IVec S512x512 32) :
    k0_pay25 (F := Ideal) v133 v135
      = ∑ i : Fin 512, ∑ j : Fin 512,
          ind (IntOp.andi (IntOp.cmpi .eq (v135 (ix2 i j)) 0#32) (IntOp.cmpi .eq (v133 (ix2 i j)) 1#32)) := by
  unfold k0_pay25
  refine (matSum_apply _ _ _ _ _ _ _).trans ?_
  refine Finset.sum_congr rfl fun i _ => Finset.sum_congr rfl fun j _ => ?_
  simp only [sitofp_apply, extui_apply, andi_apply, cmpi_apply, broadcast_apply]
  rfl

/-! ## The tile's rows, one by one -/

section TileRows
variable (v88 v162 v166 v188 v199 : EReal) (v211 : FVec Ideal S1 .f32) (q : Fin 128)

theorem pay1_row0 : k0_pay1 (F := Ideal) v88 v162 v166 v188 v199 v211 (ix4 (0 : Fin 1) (0 : Fin 1) (0 : Fin 6) q)
    = v211 (ix1 (0 : Fin 1)) := pay1_apply v88 v162 v166 v188 v199 v211 0 q
theorem pay1_row1 : k0_pay1 (F := Ideal) v88 v162 v166 v188 v199 v211 (ix4 (0 : Fin 1) (0 : Fin 1) (1 : Fin 6) q)
    = v188 := pay1_apply v88 v162 v166 v188 v199 v211 1 q
theorem pay1_row2 : k0_pay1 (F := Ideal) v88 v162 v166 v188 v199 v211 (ix4 (0 : Fin 1) (0 : Fin 1) (2 : Fin 6) q)
    = v199 := pay1_apply v88 v162 v166 v188 v199 v211 2 q
theorem pay1_row3 : k0_pay1 (F := Ideal) v88 v162 v166 v188 v199 v211 (ix4 (0 : Fin 1) (0 : Fin 1) (3 : Fin 6) q)
    = v88 := pay1_apply v88 v162 v166 v188 v199 v211 3 q
theorem pay1_row4 : k0_pay1 (F := Ideal) v88 v162 v166 v188 v199 v211 (ix4 (0 : Fin 1) (0 : Fin 1) (4 : Fin 6) q)
    = v162 := pay1_apply v88 v162 v166 v188 v199 v211 4 q
theorem pay1_row5 : k0_pay1 (F := Ideal) v88 v162 v166 v188 v199 v211 (ix4 (0 : Fin 1) (0 : Fin 1) (5 : Fin 6) q)
    = v166 := pay1_apply v88 v162 v166 v188 v199 v211 5 q

end TileRows

end Cert.SpanHead.Blk

end
-- ==== Proof.KernelBlockD.lean ====
import proofs.«122283_j2963527434982_1_alg».proof.Proof.KernelBlockC

/-!
# The six rows of the statistics tile

The stored statistics tile of grid point `(b, l)` is named as a term of the body's loads, and each of its six
rows is identified with the specification's sum for sentence `(b, l)`: the true-positive, missed-positive and
false-positive counts of the span predictions against `span`; the masked start and end focal sums, added; the
`val`-weighted span focal sum; and the sum of `val`.  Each row is the tile read at that row, the total sum read
as an iterated sum, and the summand read at an index from the blocks' coordinates.
-/

noncomputable section

namespace Cert.SpanHead.Blk

open Idealize.ShloMosaic Idealize.ShloMosaic.ValueIdx Cert.KernelIdeal Cert.KernelIdeal.Gen
/-! ## The stored tile as a term of the loads -/

section Tile
variable (v0 : FVec Ideal S1x1x512x768 .f32) (Wse : ArrWse) (bse : ArrBse) (Wys : ArrWys) (bys : ArrB1)
  (Wsp : ArrWsp) (bsp : ArrB1) (v29 : BitVec 32) (v36 v38 : IVec S1x1x1x512 32) (v134 v136 : IVec S1x1x512x512 32)

/-- The stored statistics tile, over the body's values. -/
abbrev StatsTile : FVec Ideal S1x1x6x128 .f32 :=
  k0_pay1 (F := Ideal) (V88 v0 Wse bse v29 v36 v38) (V162 v0 Wys bys Wsp bsp v134 v136) (V166 v136)
    (V188 v0 Wse bse Wys bys Wsp bsp v29 v134) (V199 v0 Wse bse Wys bys Wsp bsp v29 v134)
    (V211 v0 Wse bse Wys bys Wsp bsp v29 v134)

/-- The same as the body's full nest of operations over its loads. -/
theorem statsTile_eq :
    StatsTile v0 Wse bse Wys bys Wsp bsp v29 v36 v38 v134 v136
      = k0_pay1 (F := Ideal)
          (k0_pay11 (F := Ideal) (k0_pay9 (F := Ideal) (k0_pay4 (F := Ideal) v0 Wse bse) (k0_pay8 (F := Ideal) v29) v36) (k0_pay10 (F := Ideal) (k0_pay5 (F := Ideal) v0 Wse bse) (k0_pay8 (F := Ideal) v29) v38))
          (k0_pay21 (F := Ideal) (k0_pay14 (F := Ideal) Wsp bsp (k0_pay6 (F := Ideal) v0 Wys bys)) v134 v136)
          (k0_pay22 (F := Ideal) v136)
          (k0_pay24 (F := Ideal) (k0_pay18 k0_pay15 (k0_pay16 (F := Ideal) Wsp bsp (k0_pay4 (F := Ideal) v0 Wse bse) (k0_pay6 (F := Ideal) v0 Wys bys) (k0_pay7 (F := Ideal) v29)) (k0_pay17 (F := Ideal) (k0_pay5 (F := Ideal) v0 Wse bse) (k0_pay7 (F := Ideal) v29))) (k0_pay19 (F := Ideal) v134))
          (k0_pay25 (F := Ideal) (k0_pay18 k0_pay15 (k0_pay16 (F := Ideal) Wsp bsp (k0_pay4 (F := Ideal) v0 Wse bse) (k0_pay6 (F := Ideal) v0 Wys bys) (k0_pay7 (F := Ideal) v29)) (k0_pay17 (F := Ideal) (k0_pay5 (F := Ideal) v0 Wse bse) (k0_pay7 (F := Ideal) v29))) (k0_pay19 (F := Ideal) v134))
          (k0_pay29 (F := Ideal) (k0_pay23 (F := Ideal) k0_pay15 (k0_pay16 (F := Ideal) Wsp bsp (k0_pay4 (F := Ideal) v0 Wse bse) (k0_pay6 (F := Ideal) v0 Wys bys) (k0_pay7 (F := Ideal) v29)) (k0_pay17 (F := Ideal) (k0_pay5 (F := Ideal) v0 Wse bse) (k0_pay7 (F := Ideal) v29)) v134)) := rfl

end Tile

/-! ## The six rows -/

section Rows
variable (b : Fin 8) (l : Fin 16) (x : ArrX) (start end_ : ArrTok) (span val : ArrPair) (seqlen : ArrLen)
  (Wse : ArrWse) (bse : ArrBse) (Wys : ArrWys) (bys : ArrB1) (Wsp : ArrWsp) (bsp : ArrB1)
  (v0 : FVec Ideal S1x1x512x768 .f32) (hx : ∀ n h, v0 (ix4 (0 : Fin 1) (0 : Fin 1) n h) = x (ix4 b l n h))
  (v29 : BitVec 32) (hlen : v29 = seqlen (ix1 b))
  (v36 v38 : IVec S1x1x1x512 32)
  (hs : ∀ n, v36 (ix4 (0 : Fin 1) (0 : Fin 1) (0 : Fin 1) n) = start (ix3 b l n))
  (he : ∀ n, v38 (ix4 (0 : Fin 1) (0 : Fin 1) (0 : Fin 1) n) = end_ (ix3 b l n))
  (v134 v136 : IVec S1x1x512x512 32)
  (hsp : ∀ i j, v134 (ix4 (0 : Fin 1) (0 : Fin 1) i j) = span (ix4 b l i j))
  (hv : ∀ i j, v136 (ix4 (0 : Fin 1) (0 : Fin 1) i j) = val (ix4 b l i j))

include hx hlen hsp in
/-- **Row 0**: the number of true positives of sentence `(b, l)`. -/
theorem blk_stats_tp (q : Fin 128) :
    StatsTile v0 Wse bse Wys bys Wsp bsp v29 v36 v38 v134 v136 (ix4 (0 : Fin 1) (0 : Fin 1) (0 : Fin 6) q)
      = ∑ i : Fin 512, ∑ j : Fin 512, tpTerm x span seqlen Wse bse Wys bys Wsp bsp b l i j := by
  refine (pay1_row0 _ _ _ _ _ _ q).trans ?_
  show k0_pay29 (F := Ideal) (V173 v0 Wse bse Wys bys Wsp bsp v29 v134) (ix1 (0 : Fin 1)) = _
  rw [pay29_apply]
  refine Finset.sum_congr rfl fun i _ => Finset.sum_congr rfl fun j _ => ?_
  show k0_pay23 (F := Ideal) k0_pay15 (V129 v0 Wse bse Wys bys Wsp bsp v29) (V131 v0 Wse bse v29) v134 (ix2 i j) = _
  have h : k0_pay18 k0_pay15 (V129 v0 Wse bse Wys bys Wsp bsp v29) (V131 v0 Wse bse v29) (ix2 i j)
      = spanPred x seqlen Wse bse Wys bys Wsp bsp b l i j :=
    v133_apply b l x seqlen Wse bse Wys bys Wsp bsp v0 hx v29 hlen i j
  rw [pay23_apply, hsp, h]
  rfl

include hx hlen hsp in
/-- **Row 1**: the number of missed positives. -/
theorem blk_stats_tn (q : Fin 128) :
    StatsTile v0 Wse bse Wys bys Wsp bsp v29 v36 v38 v134 v136 (ix4 (0 : Fin 1) (0 : Fin 1) (1 : Fin 6) q)
      = ∑ i : Fin 512, ∑ j : Fin 512, tnTerm x span seqlen Wse bse Wys bys Wsp bsp b l i j := by
  refine (pay1_row1 _ _ _ _ _ _ q).trans ?_
  show k0_pay24 (F := Ideal) (k0_pay18 k0_pay15 (V129 v0 Wse bse Wys bys Wsp bsp v29) (V131 v0 Wse bse v29)) (k0_pay19 (F := Ideal) v134) = _
  rw [pay24_eq]
  refine Finset.sum_congr rfl fun i _ => Finset.sum_congr rfl fun j _ => ?_
  have h : k0_pay18 k0_pay15 (V129 v0 Wse bse Wys bys Wsp bsp v29) (V131 v0 Wse bse v29) (ix2 i j)
      = spanPred x seqlen Wse bse Wys bys Wsp bsp b l i j :=
    v133_apply b l x seqlen Wse bse Wys bys Wsp bsp v0 hx v29 hlen i j
  rw [pay19_apply, hsp, h]
  rfl

include hx hlen hsp in
/-- **Row 2**: the number of false positives. -/
theorem blk_stats_fp (q : Fin 128) :
    StatsTile v0 Wse bse Wys bys Wsp bsp v29 v36 v38 v134 v136 (ix4 (0 : Fin 1) (0 : Fin 1) (2 : Fin 6) q)
      = ∑ i : Fin 512, ∑ j : Fin 512, fpTerm x span seqlen Wse bse Wys bys Wsp bsp b l i j := by
  refine (pay1_row2 _ _ _ _ _ _ q).trans ?_
  show k0_pay25 (F := Ideal) (k0_pay18 k0_pay15 (V129 v0 Wse bse Wys bys Wsp bsp v29) (V131 v0 Wse bse v29)) (k0_pay19 (F := Ideal) v134) = _
  rw [pay25_eq]
  refine Finset.sum_congr rfl fun i _ => Finset.sum_congr rfl fun j _ => ?_
  have h : k0_pay18 k0_pay15 (V129 v0 Wse bse Wys bys Wsp bsp v29) (V131 v0 Wse bse v29) (ix2 i j)
      = spanPred x seqlen Wse bse Wys bys Wsp bsp b l i j :=
    v133_apply b l x seqlen Wse bse Wys bys Wsp bsp v0 hx v29 hlen i j
  rw [pay19_apply, hsp, h]
  rfl

include hx hlen hs he in
/-- **Row 3**: the masked start focal terms plus the masked end focal terms, summed over the tokens. -/
theorem blk_stats_se (q : Fin 128) :
    StatsTile v0 Wse bse Wys bys Wsp bsp v29 v36 v38 v134 v136 (ix4 (0 : Fin 1) (0 : Fin 1) (3 : Fin 6) q)
      = (∑ n : Fin 512, seTerm x start seqlen Wse bse 0 b l n) + (∑ n : Fin 512, seTerm x end_ seqlen Wse bse 1 b l n) := by
  refine (pay1_row3 _ _ _ _ _ _ q).trans ?_
  show k0_pay11 (F := Ideal) (k0_pay9 (F := Ideal) (k0_pay4 (F := Ideal) v0 Wse bse) (k0_pay8 (F := Ideal) v29) v36)
      (k0_pay10 (F := Ideal) (k0_pay5 (F := Ideal) v0 Wse bse) (k0_pay8 (F := Ideal) v29) v38) = _
  rw [pay11_eq]
  refine congrArg₂ (· + ·) (Finset.sum_congr rfl fun n _ => ?_) (Finset.sum_congr rfl fun n _ => ?_)
  · rw [pay9_apply, hs, pay4_apply b l x Wse bse v0 hx n, pay8_apply b seqlen v29 hlen n]
    rfl
  · rw [pay10_apply, he, pay5_apply b l x Wse bse v0 hx n, pay8_apply b seqlen v29 hlen n]
    rfl

include hx hsp hv in
/-- **Row 4**: the weighted span focal terms, summed over the token pairs. -/
theorem blk_stats_span (q : Fin 128) :
    StatsTile v0 Wse bse Wys bys Wsp bsp v29 v36 v38 v134 v136 (ix4 (0 : Fin 1) (0 : Fin 1) (4 : Fin 6) q)
      = ∑ i : Fin 512, ∑ j : Fin 512, spanTerm x span val Wys bys Wsp bsp b l i j := by
  refine (pay1_row4 _ _ _ _ _ _ q).trans ?_
  show k0_pay21 (F := Ideal) (k0_pay14 (F := Ideal) Wsp bsp (k0_pay6 (F := Ideal) v0 Wys bys)) v134 v136 = _
  rw [pay21_eq]
  refine Finset.sum_congr rfl fun i _ => Finset.sum_congr rfl fun j _ => ?_
  have h : k0_pay14 (F := Ideal) Wsp bsp (k0_pay6 (F := Ideal) v0 Wys bys) (ix2 i j) = spanProb x Wys bys Wsp bsp b l i j :=
    v119_apply b l x Wys bys Wsp bsp v0 hx i j
  rw [hsp, hv, h]
  rfl

include hv in
/-- **Row 5**: the sum of `val` over the token pairs. -/
theorem blk_stats_val (q : Fin 128) :
    StatsTile v0 Wse bse Wys bys Wsp bsp v29 v36 v38 v134 v136 (ix4 (0 : Fin 1) (0 : Fin 1) (5 : Fin 6) q)
      = ∑ i : Fin 512, ∑ j : Fin 512, valF val b l i j := by
  refine (pay1_row5 _ _ _ _ _ _ q).trans ?_
  show k0_pay22 (F := Ideal) v136 = _
  rw [pay22_eq]
  refine Finset.sum_congr rfl fun i _ => Finset.sum_congr rfl fun j _ => ?_
  rw [hv]
  rfl

end Rows

/-! The six rows under their row numbers. -/
alias blk_stat0 := blk_stats_tp
alias blk_stat1 := blk_stats_tn
alias blk_stat2 := blk_stats_fp
alias blk_stat3 := blk_stats_se
alias blk_stat4 := blk_stats_span
alias blk_stat5 := blk_stats_val

end Cert.SpanHead.Blk

end
-- ==== Proof.KernelRows.lean ====
import proofs.«122283_j2963527434982_1_alg».proof.Proof.Spec
import proofs.«122283_j2963527434982_1_alg».proof.Proof.KernelPieces
import proofs.«122283_j2963527434982_1_alg».proof.Proof.KernelAt
import proofs.«122283_j2963527434982_1_alg».proof.Proof.KernelHostPre
import proofs.«122283_j2963527434982_1_alg».proof.Proof.KernelArrays
import proofs.«122283_j2963527434982_1_alg».proof.Proof.KernelStats
import proofs.«122283_j2963527434982_1_alg».proof.Proof.KernelBlockD
import Idealize.ShloMosaic.Lib.Pipeline.Value
import Idealize.ShloMosaic.Lib.ValueIdx
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

/-!
# A sentence's statistics tile, row by row

Over any blocks that are the sentence's slabs of the argument arrays, row `k` of the tile the body stores is the
sentence's `k`-th statistic, in every lane.
-/

namespace Cert.SpanHead.Rows
open Cert.KernelIdeal Cert.KernelIdeal.Gen Cert.SpanHead Cert.SpanHead.Pieces Cert.SpanHead.Blk Cert.SpanHead.Arr Cert.SpanHead.Stats
variable (m : (ℓ : Loc nD τ sig) → Buf (Elt Ideal) ℓ)

/-- The tile as the body's stores compose it is the tile the row lemmas are stated of. -/
theorem statTile_eq (w : BitVec 32) (x1 : FVec Ideal S1x1x512x768 .f32) (x2 x3 : IVec S1x1x512x512 32)
    (x4 x5 : IVec S1x1x1x512 32) (x6 : FVec Ideal S768x2 .f32) (x7 : FVec Ideal S2 .f32)
    (x8 : FVec Ideal S768x1 .f32) (x9 : FVec Ideal S1 .f32) (x10 : FVec Ideal S2x1 .f32) (x11 : FVec Ideal S1 .f32) :
    statTile (F := Ideal) w x1 x2 x3 x4 x5 x6 x7 x8 x9 x10 x11 = StatsTile x1 x6 x7 x8 x9 x10 x11 w x4 x5 x2 x3 := rfl

theorem row0 (c : Dev nD) (b : Fin 8) (l : Fin 16) (v0 : FVec Ideal S1x1x512x768 .f32)
    (hx : ∀ n h, v0 (ix4 (0 : Fin 1) (0 : Fin 1) n h) = aX m c (ix4 b l n h))
    (v36 v38 : IVec S1x1x1x512 32)
    (hs : ∀ n, v36 (ix4 (0 : Fin 1) (0 : Fin 1) (0 : Fin 1) n) = aStart m c (ix3 b l n))
    (he : ∀ n, v38 (ix4 (0 : Fin 1) (0 : Fin 1) (0 : Fin 1) n) = aEnd m c (ix3 b l n))
    (v134 v136 : IVec S1x1x512x512 32)
    (hsp : ∀ i j, v134 (ix4 (0 : Fin 1) (0 : Fin 1) i j) = aSpan m c (ix4 b l i j))
    (hv : ∀ i j, v136 (ix4 (0 : Fin 1) (0 : Fin 1) i j) = aVal m c (ix4 b l i j)) (q : Fin 128) :
    StatsTile v0 (aWse m c) (aBse m c) (aWys m c) (aBys m c) (aWsp m c) (aBsp m c) (aLen m c (ix1 b)) v36 v38 v134 v136 (ix4 (0 : Fin 1) (0 : Fin 1) (0 : Fin 6) q) = statOf m c 0 b l :=
  blk_stat0 b l (aX m c) (aSpan m c) (aLen m c) (aWse m c) (aBse m c) (aWys m c) (aBys m c) (aWsp m c) (aBsp m c) v0 hx _ rfl v36 v38 v134 v136 hsp q

theorem row1 (c : Dev nD) (b : Fin 8) (l : Fin 16) (v0 : FVec Ideal S1x1x512x768 .f32)
    (hx : ∀ n h, v0 (ix4 (0 : Fin 1) (0 : Fin 1) n h) = aX m c (ix4 b l n h))
    (v36 v38 : IVec S1x1x1x512 32)
    (hs : ∀ n, v36 (ix4 (0 : Fin 1) (0 : Fin 1) (0 : Fin 1) n) = aStart m c (ix3 b l n))
    (he : ∀ n, v38 (ix4 (0 : Fin 1) (0 : Fin 1) (0 : Fin 1) n) = aEnd m c (ix3 b l n))
    (v134 v136 : IVec S1x1x512x512 32)
    (hsp : ∀ i j, v134 (ix4 (0 : Fin 1) (0 : Fin 1) i j) = aSpan m c (ix4 b l i j))
    (hv : ∀ i j, v136 (ix4 (0 : Fin 1) (0 : Fin 1) i j) = aVal m c (ix4 b l i j)) (q : Fin 128) :
    StatsTile v0 (aWse m c) (aBse m c) (aWys m c) (aBys m c) (aWsp m c) (aBsp m c) (aLen m c (ix1 b)) v36 v38 v134 v136 (ix4 (0 : Fin 1) (0 : Fin 1) (1 : Fin 6) q) = statOf m c 1 b l :=
  blk_stat1 b l (aX m c) (aSpan m c) (aLen m c) (aWse m c) (aBse m c) (aWys m c) (aBys m c) (aWsp m c) (aBsp m c) v0 hx _ rfl v36 v38 v134 v136 hsp q

theorem row2 (c : Dev nD) (b : Fin 8) (l : Fin 16) (v0 : FVec Ideal S1x1x512x768 .f32)
    (hx : ∀ n h, v0 (ix4 (0 : Fin 1) (0 : Fin 1) n h) = aX m c (ix4 b l n h))
    (v36 v38 : IVec S1x1x1x512 32)
    (hs : ∀ n, v36 (ix4 (0 : Fin 1) (0 : Fin 1) (0 : Fin 1) n) = aStart m c (ix3 b l n))
    (he : ∀ n, v38 (ix4 (0 : Fin 1) (0 : Fin 1) (0 : Fin 1) n) = aEnd m c (ix3 b l n))
    (v134 v136 : IVec S1x1x512x512 32)
    (hsp : ∀ i j, v134 (ix4 (0 : Fin 1) (0 : Fin 1) i j) = aSpan m c (ix4 b l i j))
    (hv : ∀ i j, v136 (ix4 (0 : Fin 1) (0 : Fin 1) i j) = aVal m c (ix4 b l i j)) (q : Fin 128) :
    StatsTile v0 (aWse m c) (aBse m c) (aWys m c) (aBys m c) (aWsp m c) (aBsp m c) (aLen m c (ix1 b)) v36 v38 v134 v136 (ix4 (0 : Fin 1) (0 : Fin 1) (2 : Fin 6) q) = statOf m c 2 b l :=
  blk_stat2 b l (aX m c) (aSpan m c) (aLen m c) (aWse m c) (aBse m c) (aWys m c) (aBys m c) (aWsp m c) (aBsp m c) v0 hx _ rfl v36 v38 v134 v136 hsp q

theorem row3 (c : Dev nD) (b : Fin 8) (l : Fin 16) (v0 : FVec Ideal S1x1x512x768 .f32)
    (hx : ∀ n h, v0 (ix4 (0 : Fin 1) (0 : Fin 1) n h) = aX m c (ix4 b l n h))
    (v36 v38 : IVec S1x1x1x512 32)
    (hs : ∀ n, v36 (ix4 (0 : Fin 1) (0 : Fin 1) (0 : Fin 1) n) = aStart m c (ix3 b l n))
    (he : ∀ n, v38 (ix4 (0 : Fin 1) (0 : Fin 1) (0 : Fin 1) n) = aEnd m c (ix3 b l n))
    (v134 v136 : IVec S1x1x512x512 32)
    (hsp : ∀ i j, v134 (ix4 (0 : Fin 1) (0 : Fin 1) i j) = aSpan m c (ix4 b l i j))
    (hv : ∀ i j, v136 (ix4 (0 : Fin 1) (0 : Fin 1) i j) = aVal m c (ix4 b l i j)) (q : Fin 128) :
    StatsTile v0 (aWse m c) (aBse m c) (aWys m c) (aBys m c) (aWsp m c) (aBsp m c) (aLen m c (ix1 b)) v36 v38 v134 v136 (ix4 (0 : Fin 1) (0 : Fin 1) (3 : Fin 6) q) = statOf m c 3 b l :=
  blk_stat3 b l (aX m c) (aStart m c) (aEnd m c) (aLen m c) (aWse m c) (aBse m c) (aWys m c) (aBys m c) (aWsp m c) (aBsp m c) v0 hx _ rfl v36 v38 hs he v134 v136 q

theorem row4 (c : Dev nD) (b : Fin 8) (l : Fin 16) (v0 : FVec Ideal S1x1x512x768 .f32)
    (hx : ∀ n h, v0 (ix4 (0 : Fin 1) (0 : Fin 1) n h) = aX m c (ix4 b l n h))
    (v36 v38 : IVec S1x1x1x512 32)
    (hs : ∀ n, v36 (ix4 (0 : Fin 1) (0 : Fin 1) (0 : Fin 1) n) = aStart m c (ix3 b l n))
    (he : ∀ n, v38 (ix4 (0 : Fin 1) (0 : Fin 1) (0 : Fin 1) n) = aEnd m c (ix3 b l n))
    (v134 v136 : IVec S1x1x512x512 32)
    (hsp : ∀ i j, v134 (ix4 (0 : Fin 1) (0 : Fin 1) i j) = aSpan m c (ix4 b l i j))
    (hv : ∀ i j, v136 (ix4 (0 : Fin 1) (0 : Fin 1) i j) = aVal m c (ix4 b l i j)) (q : Fin 128) :
    StatsTile v0 (aWse m c) (aBse m c) (aWys m c) (aBys m c) (aWsp m c) (aBsp m c) (aLen m c (ix1 b)) v36 v38 v134 v136 (ix4 (0 : Fin 1) (0 : Fin 1) (4 : Fin 6) q) = statOf m c 4 b l :=
  blk_stat4 b l (aX m c) (aSpan m c) (aVal m c) (aWse m c) (aBse m c) (aWys m c) (aBys m c) (aWsp m c) (aBsp m c) v0 hx _ v36 v38 v134 v136 hsp hv q

theorem row5 (c : Dev nD) (b : Fin 8) (l : Fin 16) (v0 : FVec Ideal S1x1x512x768 .f32)
    (hx : ∀ n h, v0 (ix4 (0 : Fin 1) (0 : Fin 1) n h) = aX m c (ix4 b l n h))
    (v36 v38 : IVec S1x1x1x512 32)
    (hs : ∀ n, v36 (ix4 (0 : Fin 1) (0 : Fin 1) (0 : Fin 1) n) = aStart m c (ix3 b l n))
    (he : ∀ n, v38 (ix4 (0 : Fin 1) (0 : Fin 1) (0 : Fin 1) n) = aEnd m c (ix3 b l n))
    (v134 v136 : IVec S1x1x512x512 32)
    (hsp : ∀ i j, v134 (ix4 (0 : Fin 1) (0 : Fin 1) i j) = aSpan m c (ix4 b l i j))
    (hv : ∀ i j, v136 (ix4 (0 : Fin 1) (0 : Fin 1) i j) = aVal m c (ix4 b l i j)) (q : Fin 128) :
    StatsTile v0 (aWse m c) (aBse m c) (aWys m c) (aBys m c) (aWsp m c) (aBsp m c) (aLen m c (ix1 b)) v36 v38 v134 v136 (ix4 (0 : Fin 1) (0 : Fin 1) (5 : Fin 6) q) = statOf m c 5 b l :=
  blk_stat5 b l (aVal m c) (aWse m c) (aBse m c) (aWys m c) (aBys m c) (aWsp m c) (aBsp m c) v0 _ v36 v38 v134 v136 hv q

/-- Row `k` of the tile is the sentence's `k`-th statistic. -/
theorem tile_at (c : Dev nD) (b : Fin 8) (l : Fin 16) (v0 : FVec Ideal S1x1x512x768 .f32)
    (hx : ∀ n h, v0 (ix4 (0 : Fin 1) (0 : Fin 1) n h) = aX m c (ix4 b l n h))
    (v36 v38 : IVec S1x1x1x512 32)
    (hs : ∀ n, v36 (ix4 (0 : Fin 1) (0 : Fin 1) (0 : Fin 1) n) = aStart m c (ix3 b l n))
    (he : ∀ n, v38 (ix4 (0 : Fin 1) (0 : Fin 1) (0 : Fin 1) n) = aEnd m c (ix3 b l n))
    (v134 v136 : IVec S1x1x512x512 32)
    (hsp : ∀ i j, v134 (ix4 (0 : Fin 1) (0 : Fin 1) i j) = aSpan m c (ix4 b l i j))
    (hv : ∀ i j, v136 (ix4 (0 : Fin 1) (0 : Fin 1) i j) = aVal m c (ix4 b l i j)) (k : Fin 6) (q : Fin 128) :
    StatsTile v0 (aWse m c) (aBse m c) (aWys m c) (aBys m c) (aWsp m c) (aBsp m c) (aLen m c (ix1 b)) v36 v38 v134 v136 (ix4 (0 : Fin 1) (0 : Fin 1) k q) = statOf m c k b l :=
  match k with
  | 0 => row0 m c b l v0 hx v36 v38 hs he v134 v136 hsp hv q
  | 1 => row1 m c b l v0 hx v36 v38 hs he v134 v136 hsp hv q
  | 2 => row2 m c b l v0 hx v36 v38 hs he v134 v136 hsp hv q
  | 3 => row3 m c b l v0 hx v36 v38 hs he v134 v136 hsp hv q
  | 4 => row4 m c b l v0 hx v36 v38 hs he v134 v136 hsp hv q
  | 5 => row5 m c b l v0 hx v36 v38 hs he v134 v136 hsp hv q

end Cert.SpanHead.Rows
end
-- ==== Proof.KernelArrays15.lean ====
import proofs.«122283_j2963527434982_1_alg».proof.Proof.Spec
import proofs.«122283_j2963527434982_1_alg».proof.Proof.KernelPieces
import proofs.«122283_j2963527434982_1_alg».proof.Proof.KernelAt
import proofs.«122283_j2963527434982_1_alg».proof.Proof.KernelHostPre
import proofs.«122283_j2963527434982_1_alg».proof.Proof.KernelArrays
import proofs.«122283_j2963527434982_1_alg».proof.Proof.KernelStats
import proofs.«122283_j2963527434982_1_alg».proof.Proof.KernelBlockD
import proofs.«122283_j2963527434982_1_alg».proof.Proof.KernelRows
import Idealize.ShloMosaic.Lib.Pipeline.Value
import Idealize.ShloMosaic.Lib.ValueIdx
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

/-!
# The statistics array after the run

Each grid point writes back its sentence's `6 × 128` tile: row `k` is the sentence's `k`-th statistic in every lane.
The tiles cover the `[8, 16, 6, 128]` array, so it ends holding the tile function `G15`.
-/

namespace Cert.SpanHead.Arr15
open Cert.KernelIdeal Cert.KernelIdeal.Gen Cert.SpanHead Cert.SpanHead.At Cert.SpanHead.Pieces Cert.SpanHead.HostPre Cert.SpanHead.Blk Cert.SpanHead.Arr Cert.SpanHead.Stats Cert.SpanHead.Rows
variable (m : (ℓ : Loc nD τ sig) → Buf (Elt Ideal) ℓ)

/-- The sentence's labels and tiles, read in the argument arrays. -/
theorem hs_at (c : Dev nD) (t : Fin cfg0.N) (n : Fin 512) :
    iblk m c 4 t (ix4 (0 : Fin 1) (0 : Fin 1) (0 : Fin 1) n) = aStart m c (ix3 (bOf t) (lOf t) n) :=
  (iblk4_at m c t n).trans (V_v0_at m c (bOf t) (lOf t) n)

theorem he_at (c : Dev nD) (t : Fin cfg0.N) (n : Fin 512) :
    iblk m c 5 t (ix4 (0 : Fin 1) (0 : Fin 1) (0 : Fin 1) n) = aEnd m c (ix3 (bOf t) (lOf t) n) :=
  (iblk5_at m c t n).trans (V_v1_at m c (bOf t) (lOf t) n)

theorem hsp_at (c : Dev nD) (t : Fin cfg0.N) (i j : Fin 512) :
    iblk m c 2 t (ix4 (0 : Fin 1) (0 : Fin 1) i j) = aSpan m c (ix4 (bOf t) (lOf t) i j) :=
  (iblk2_at m c t i j).trans (congrFun (V_main_arg3 m c) _)

theorem hv_at (c : Dev nD) (t : Fin cfg0.N) (i j : Fin 512) :
    iblk m c 3 t (ix4 (0 : Fin 1) (0 : Fin 1) i j) = aVal m c (ix4 (bOf t) (lOf t) i j) :=
  (iblk3_at m c t i j).trans (congrFun (V_main_arg4 m c) _)

theorem emb15_at (t : Fin cfg0.N) (i : Fin 6) (j : Fin 128) :
    ((cfg0.win 15).blk t).view.emb (ix4 (0 : Fin 1) (0 : Fin 1) i j) = ix4 (bOf t) (lOf t) i j := by
  funext a
  apply Fin.ext
  have e := (idx_facts t).2.2.2.2.2.2.2.2.1
  have e0 : win0_15.index t (0 : Fin 4) = (bOf t).val := congrFun e 0
  have e1 : win0_15.index t (1 : Fin 4) = (lOf t).val := congrFun e 1
  have e2 : win0_15.index t (2 : Fin 4) = 0 := congrFun e 2
  have e3 : win0_15.index t (3 : Fin 4) = 0 := congrFun e 3
  match a with
  | ⟨0, _⟩ => show win0_15.index t (0 : Fin 4) * 1 + 1 * 0 = (bOf t).val; omega
  | ⟨1, _⟩ => show win0_15.index t (1 : Fin 4) * 1 + 1 * 0 = (lOf t).val; omega
  | ⟨2, _⟩ => show win0_15.index t (2 : Fin 4) * 6 + 1 * (i).val = (i).val; omega
  | ⟨3, _⟩ => show win0_15.index t (3 : Fin 4) * 128 + 1 * j.val = j.val; omega

/-- An index of the array is in point `t`'s block iff each coordinate is in the block's range on its axis. -/
theorem mem_blk15 (t : Fin cfg0.N) (i : S8x16x6x128.Idx) :
    i ∈ ((cfg0.win 15).blk t).view.set ↔ ∀ a : Fin 4, win0_15.index t a * S1x1x6x128.size a ≤ (i a).val ∧ (i a).val < win0_15.index t a * S1x1x6x128.size a + S1x1x6x128.size a := by
  show i ∈ ((View.whole main_v2_3).slice (win0_15.rect t)).set ↔ _
  rw [View.set_slice_whole, Rect.mem_set_unit]
  exact Iff.rfl

/-- Every index of the array is in the block of the point of its sentence. -/
theorem cover15 (i : S8x16x6x128.Idx) :
    ∃ t : Fin cfg0.N, (cfg0.win 15).flush t = true ∧ i ∈ ((cfg0.win 15).blk t).view.set := by
  obtain ⟨t, hb, hl⟩ := idx_onto (i 0) (i 1)
  refine ⟨t, flush0_15 t, ?_⟩
  rw [mem_blk15]
  have e := (idx_facts t).2.2.2.2.2.2.2.2.1
  have e0 : win0_15.index t (0 : Fin 4) = (bOf t).val := congrFun e 0
  have e1 : win0_15.index t (1 : Fin 4) = (lOf t).val := congrFun e 1
  have e2 : win0_15.index t (2 : Fin 4) = 0 := congrFun e 2
  have e3 : win0_15.index t (3 : Fin 4) = 0 := congrFun e 3
  have hb' : (bOf t).val = (i 0).val := congrArg Fin.val hb
  have hl' : (lOf t).val = (i 1).val := congrArg Fin.val hl
  have h2 : (i 2).val < 6 := (i 2).isLt
  have h3 : (i 3).val < 128 := (i 3).isLt
  intro a
  match a with
  | ⟨0, _⟩ => show win0_15.index t (0 : Fin 4) * 1 ≤ (i 0).val ∧ (i 0).val < win0_15.index t (0 : Fin 4) * 1 + 1; omega
  | ⟨1, _⟩ => show win0_15.index t (1 : Fin 4) * 1 ≤ (i 1).val ∧ (i 1).val < win0_15.index t (1 : Fin 4) * 1 + 1; omega
  | ⟨2, _⟩ => show win0_15.index t (2 : Fin 4) * 6 ≤ (i 2).val ∧ (i 2).val < win0_15.index t (2 : Fin 4) * 6 + 6; omega
  | ⟨3, _⟩ => show win0_15.index t (3 : Fin 4) * 128 ≤ (i 3).val ∧ (i 3).val < win0_15.index t (3 : Fin 4) * 128 + 128; omega

/-- What point `t` writes back is its sentence's tile of `G15`. -/
theorem flushed15_eq (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after0_15]
  unfold outsAt0
  dsimp only
  rw [out15_eq]
  rw [iblk0_eq, iblk6_eq, iblk7_eq, iblk8_eq, iblk9_eq, iblk10_eq, iblk11_eq, V_main_arg5, V_main_arg6, V_main_arg7, V_main_arg8, V_main_arg9, V_main_arg10, V_main_arg11]
  rw [statTile_eq]
  refine ext_slab (d2 := 6) (d3 := 128) _ _ fun k q => ?_
  refine (tile_at m c (bOf t) (lOf t) (iblk m c 1 t) (hx_at m c t) (iblk m c 4 t) (iblk m c 5 t) (hs_at m c t) (he_at m c t)
    (iblk m c 2 t) (iblk m c 3 t) (hsp_at m c t) (hv_at m c t) k q).trans ?_
  show _ = G15 m c (((cfg0.win 15).blk t).view.emb (ix4 (0 : Fin 1) (0 : Fin 1) k q))
  rw [emb15_at]
  rfl

theorem final15 (c : Dev nD) : (dats m 0 c).arrAt 15 cfg0.N = G15 m c :=
  (dats m 0 c).arrAt_eq_of_cover 15 (G15 m c) (fun t _ => flushed15_eq m c t) cover15

end Cert.SpanHead.Arr15
end
-- ==== Proof.RefValue.lean ====
import proofs.«122283_j2963527434982_1_alg».proof.Proof.Spec
import proofs.«122283_j2963527434982_1_alg».proof.Proof.Gen.ReferenceIdeal.Read

/-!
# The reference program, result by result: the start and end predictions

Each stage of the reference is read at an index built from its coordinates, down to the argument arrays, and
identified with the specification's term. The token probabilities are the logistic function of the affine map
`x·W_se + b_se`; the two columns of that map are laid one after the other along the sentence axis, so a row
below 16 of the joined array is a start probability and a row from 16 on an end probability; thresholding,
masking by the sentence length and cutting the joined array back into its halves give the two predictions.
-/

noncomputable section

namespace Cert.SpanHead.Ref

open Cert.ReferenceIdeal Cert.ReferenceIdeal.Gen Cert.ReferenceIdeal.Read Idealize.ShloMosaic
  Idealize.ShloMosaic.ValueIdx

/-! ## Layout operations at an index -/

section Layout
variable {α : Type}

/-- Two `[8, 16, 512]` arrays joined along axis 1: a row below 16 reads the first array. -/
theorem cat_fst (A B : S8x16x512.Idx → α) (b : Fin 8) (l : Fin 16) (n : Fin 512) :
    concatenate S8x32x512 1 [⟨S8x16x512, A⟩, ⟨S8x16x512, B⟩] concatenates_S8x16x512_S8x16x512_S8x32x512_d1
      (ix3 b (⟨l.val, by have := l.isLt; omega⟩ : Fin 32) n) = A (ix3 b l n) :=
  concatenate_pair_apply_left (t := S8x32x512) 1 A B concatenates_S8x16x512_S8x16x512_S8x32x512_d1
    (ix3 b (⟨l.val, by have := l.isLt; omega⟩ : Fin 32) n) rfl (ix3 b l n) (fun a => by
    match a with
    | ⟨0, _⟩ => rfl
    | ⟨1, _⟩ => rfl
    | ⟨2, _⟩ => rfl)

/-- … and a row from 16 on reads the second array, 16 rows up. -/
theorem cat_snd (A B : S8x16x512.Idx → α) (b : Fin 8) (l : Fin 16) (n : Fin 512) :
    concatenate S8x32x512 1 [⟨S8x16x512, A⟩, ⟨S8x16x512, B⟩] concatenates_S8x16x512_S8x16x512_S8x32x512_d1
      (ix3 b (⟨16 + l.val, by have := l.isLt; omega⟩ : Fin 32) n) = B (ix3 b l n) :=
  concatenate_pair_apply_right (t := S8x32x512) 1 A B concatenates_S8x16x512_S8x16x512_S8x32x512_d1
    (ix3 b (⟨16 + l.val, by have := l.isLt; omega⟩ : Fin 32) n) rfl rfl (ix3 b l n)
    (fun a ha => by
      match a with
      | ⟨0, _⟩ => rfl
      | ⟨1, _⟩ => exact absurd rfl ha
      | ⟨2, _⟩ => rfl)
    (by show l.val + 16 = 16 + l.val; omega)

/-- Dropping a trailing unit axis: `[8, 16, 512, 1] → [8, 16, 512]` keeps the three coordinates. -/
theorem cast_drop_unit (A : S8x16x512x1.Idx → α) (b : Fin 8) (l : Fin 16) (n : Fin 512) :
    shapeCast S8x16x512 A shapeCasts_S8x16x512x1_S8x16x512 (ix3 b l n) = A (ix4 b l n (0 : Fin 1)) :=
  shapeCast_apply A shapeCasts_S8x16x512x1_S8x16x512 _ _ (by
    rw [Shape.rowMajor_val_four, Shape.rowMajor_val_three]
    show ((b.val * 16 + l.val) * 512 + n.val) * 1 + 0 = (b.val * 16 + l.val) * 512 + n.val
    omega)

/-- A `[1, 1]` array as a scalar is its one element. -/
theorem cast_1x1 (A : S1x1.Idx → α) (j : S_.Idx) :
    shapeCast S_ A shapeCasts_S1x1_S_ j = A (ix2 (0 : Fin 1) (0 : Fin 1)) :=
  shapeCast_apply A shapeCasts_S1x1_S_ j _ (by
    rw [Shape.rowMajor_val_two]
    exact (Shape.rowMajorPi_zero _ j).symm)

/-- A `[1]` array as a scalar is its one element. -/
theorem cast_1 (A : S1.Idx → α) (j : S_.Idx) :
    shapeCast S_ A shapeCasts_S1_S_ j = A (ix1 (0 : Fin 1)) :=
  shapeCast_apply A shapeCasts_S1_S_ j _ (by
    rw [Shape.rowMajor_val_one]
    exact (Shape.rowMajorPi_zero _ j).symm)

end Layout

/-! ## The token probabilities -/

/-- The logistic function of `x·W_se + b_se`, column `k`, at a token. -/
theorem prob_at (x0 : ArrX) (x6 : ArrWse) (x7 : ArrBse) (b : Fin 8) (l : Fin 16) (n : Fin 512) (k : Fin 2) :
    val_main_v9 (F := Ideal) x0 x6 x7 (ix4 b l n k) = seProb x0 x6 x7 b l n k := by
  have el : ∀ h : Fin 768, lidx_main_v0 (ix4 b l n k) h = ix4 b l n h := fun h => funext fun a => by
    match a with
    | ⟨0, _⟩ => rfl
    | ⟨1, _⟩ => rfl
    | ⟨2, _⟩ => rfl
    | ⟨3, _⟩ => rfl
  have er : ∀ h : Fin 768, ridx_main_v0 (ix4 b l n k) h = ix2 h k := fun h => funext fun a => by
    match a with
    | ⟨0, _⟩ => rfl
    | ⟨1, _⟩ => rfl
  have eb : idx_main_v1 (idx_main_v2 (ix4 b l n k)) = ix1 k := funext fun a => by
    match a with
    | ⟨0, _⟩ => rfl
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply, eb]
  simp only [el, er]
  rfl

/-- The start column, as a `[8, 16, 512]` array. -/
theorem start_col_at (x0 : ArrX) (x6 : ArrWse) (x7 : ArrBse) (b : Fin 8) (l : Fin 16) (n : Fin 512) :
    val_main_v11 (F := Ideal) x0 x6 x7 (ix3 b l n) = seProb x0 x6 x7 b l n 0 := by
  have e : idx_main_v10 (ix4 b l n (0 : Fin 1)) = ix4 b l n (0 : Fin 2) := funext fun a => by
    match a with
    | ⟨0, _⟩ => rfl
    | ⟨1, _⟩ => rfl
    | ⟨2, _⟩ => rfl
    | ⟨3, _⟩ => rfl
  have h : val_main_v11 (F := Ideal) x0 x6 x7 (ix3 b l n)
      = val_main_v10 (F := Ideal) x0 x6 x7 (ix4 b l n (0 : Fin 1)) := cast_drop_unit _ b l n
  rw [h, val_main_v10_apply, e, prob_at]

/-- The end column, as a `[8, 16, 512]` array. -/
theorem end_col_at (x0 : ArrX) (x6 : ArrWse) (x7 : ArrBse) (b : Fin 8) (l : Fin 16) (n : Fin 512) :
    val_main_v13 (F := Ideal) x0 x6 x7 (ix3 b l n) = seProb x0 x6 x7 b l n 1 := by
  have e : idx_main_v12 (ix4 b l n (0 : Fin 1)) = ix4 b l n (1 : Fin 2) := funext fun a => by
    match a with
    | ⟨0, _⟩ => rfl
    | ⟨1, _⟩ => rfl
    | ⟨2, _⟩ => rfl
    | ⟨3, _⟩ => rfl
  have h : val_main_v13 (F := Ideal) x0 x6 x7 (ix3 b l n)
      = val_main_v12 (F := Ideal) x0 x6 x7 (ix4 b l n (0 : Fin 1)) := cast_drop_unit _ b l n
  rw [h, val_main_v12_apply, e, prob_at]

/-- The joined probabilities: a row below 16 is a start probability … -/
theorem joined_fst (x0 : ArrX) (x6 : ArrWse) (x7 : ArrBse) (b : Fin 8) (l : Fin 16) (n : Fin 512) :
    val_main_v14 (F := Ideal) x0 x6 x7 (ix3 b (⟨l.val, by have := l.isLt; omega⟩ : Fin 32) n)
      = seProb x0 x6 x7 b l n 0 :=
  (cat_fst _ _ b l n).trans (start_col_at x0 x6 x7 b l n)

/-- … and a row from 16 on an end probability. -/
theorem joined_snd (x0 : ArrX) (x6 : ArrWse) (x7 : ArrBse) (b : Fin 8) (l : Fin 16) (n : Fin 512) :
    val_main_v14 (F := Ideal) x0 x6 x7 (ix3 b (⟨16 + l.val, by have := l.isLt; omega⟩ : Fin 32) n)
      = seProb x0 x6 x7 b l n 1 :=
  (cat_snd _ _ b l n).trans (end_col_at x0 x6 x7 b l n)

/-! ## Threshold and mask -/

/-- The thresholded joined array at an index is "above one half" of the probability there. -/
theorem thresh_at (x0 : ArrX) (x6 : ArrWse) (x7 : ArrBse) (j : S8x32x512.Idx) :
    val_main_v17 (F := Ideal) x0 x6 x7 j = gtHalf (val_main_v14 (F := Ideal) x0 x6 x7 j) := by
  rw [val_main_v17_apply, val_main_v16_apply, val_main_v15_apply, val_main_cst_1_apply]
  rfl

/-- The length mask, repeated over the 32 rows: token `n` lies inside sentence `b`'s length. -/
theorem mask_at (x5 : ArrLen) (b : Fin 8) (l' : Fin 32) (n : Fin 512) :
    val_main_v26 (F := Ideal) x5 (ix3 b l' n) = maskI x5 b n := by
  have e : idx_main_v20 (idx_main_v22 (idx_main_v25 (idx_main_v26 (ix3 b l' n)))) = ix1 b := funext fun a => by
    match a with
    | ⟨0, _⟩ => rfl
  rw [val_main_v26_apply, val_main_v25_apply, val_main_v24_apply, val_main_v23_apply, val_main_v21_apply,
    val_main_v19_apply, val_main_v18_apply, val_main_v22_apply, val_main_v20_apply, e]
  rfl

/-! ## The two predictions -/

/-- `start_pred`. -/
theorem ref_startPred (x0 : ArrX) (x5 : ArrLen) (x6 : ArrWse) (x7 : ArrBse) :
    val_main_v28 (F := Ideal) x0 x5 x6 x7 = fun i => sePred x0 x5 x6 x7 (i 0) (i 1) (i 2) 0 := by
  funext i
  obtain ⟨b, l, n, rfl⟩ : ∃ (b : Fin 8) (l : Fin 16) (n : Fin 512), i = ix3 b l n := ⟨i 0, i 1, i 2, eq_ix3 i⟩
  have e : idx_main_v28 (ix3 b l n) = ix3 b (⟨l.val, by have := l.isLt; omega⟩ : Fin 32) n := funext fun a => by
    match a with
    | ⟨0, _⟩ => rfl
    | ⟨1, _⟩ => rfl
    | ⟨2, _⟩ => rfl
  rw [val_main_v28_apply, e, val_main_v27_apply, thresh_at, mask_at, joined_fst]
  rfl

/-- `end_pred`. -/
theorem ref_endPred (x0 : ArrX) (x5 : ArrLen) (x6 : ArrWse) (x7 : ArrBse) :
    val_main_v29 (F := Ideal) x0 x5 x6 x7 = fun i => sePred x0 x5 x6 x7 (i 0) (i 1) (i 2) 1 := by
  funext i
  obtain ⟨b, l, n, rfl⟩ : ∃ (b : Fin 8) (l : Fin 16) (n : Fin 512), i = ix3 b l n := ⟨i 0, i 1, i 2, eq_ix3 i⟩
  have e : idx_main_v29 (ix3 b l n) = ix3 b (⟨16 + l.val, by have := l.isLt; omega⟩ : Fin 32) n := funext fun a => by
    match a with
    | ⟨0, _⟩ => rfl
    | ⟨1, _⟩ => rfl
    | ⟨2, _⟩ => rfl
  rw [val_main_v29_apply, e, val_main_v27_apply, thresh_at, mask_at, joined_snd]
  rfl

end Cert.SpanHead.Ref

end
-- ==== Proof.RefValueB.lean ====
import proofs.«122283_j2963527434982_1_alg».proof.Proof.RefValue

/-!
# The reference program, result by result: the span prediction

The token scalar `x·W_ys + b_ys` is multiplied by the two entries of `W_span`, one product laid along the
rows of the pair table and the other along its columns; their sum plus `b_span` is the pair's logit, its
logistic value the pair's probability. The prediction is "above one half", times the start prediction of the
row token, times the end prediction of the column token, times the indicator that the row token does not
come after the column token.
-/

noncomputable section

namespace Cert.SpanHead.Ref

open Cert.ReferenceIdeal Cert.ReferenceIdeal.Gen Cert.ReferenceIdeal.Read Idealize.ShloMosaic
  Idealize.ShloMosaic.ValueIdx

/-! ## The pair's logit -/

/-- The token scalar `x·W_ys + b_ys`. -/
theorem tok_at (x0 : ArrX) (x8 : ArrWys) (x9 : ArrB1) (b : Fin 8) (l : Fin 16) (n : Fin 512) :
    val_main_v66 (F := Ideal) x0 x8 x9 (ix3 b l n) = tokLogit x0 x8 x9 b l n := by
  have el : ∀ h : Fin 768, lidx_main_v62 (ix4 b l n (0 : Fin 1)) h = ix4 b l n h := fun h => funext fun a => by
    match a with
    | ⟨0, _⟩ => rfl
    | ⟨1, _⟩ => rfl
    | ⟨2, _⟩ => rfl
    | ⟨3, _⟩ => rfl
  have er : ∀ h : Fin 768, ridx_main_v62 (ix4 b l n (0 : Fin 1)) h = ix2 h (0 : Fin 1) := fun h => funext fun a => by
    match a with
    | ⟨0, _⟩ => rfl
    | ⟨1, _⟩ => rfl
  have eb : idx_main_v63 (idx_main_v64 (ix4 b l n (0 : Fin 1))) = ix1 (0 : Fin 1) := funext fun a => by
    match a with
    | ⟨0, _⟩ => rfl
  have h : val_main_v66 (F := Ideal) x0 x8 x9 (ix3 b l n)
      = val_main_v65 (F := Ideal) x0 x8 x9 (ix4 b l n (0 : Fin 1)) := cast_drop_unit _ b l n
  rw [h, val_main_v65_apply, val_main_v62_apply, val_main_v64_apply, val_main_v63_apply, eb]
  simp only [el, er]
  rfl

/-- `W_span[0, 0]` as a scalar. -/
theorem wsp0_at (x10 : ArrWsp) (j : S_.Idx) :
    val_main_v68 (F := Ideal) x10 j = x10 (ix2 (0 : Fin 2) (0 : Fin 1)) := by
  have e : idx_main_v67 (ix2 (0 : Fin 1) (0 : Fin 1)) = ix2 (0 : Fin 2) (0 : Fin 1) := funext fun a => by
    match a with
    | ⟨0, _⟩ => rfl
    | ⟨1, _⟩ => rfl
  have h : val_main_v68 (F := Ideal) x10 j = val_main_v67 (F := Ideal) x10 (ix2 (0 : Fin 1) (0 : Fin 1)) :=
    cast_1x1 _ j
  rw [h, val_main_v67_apply, e]

/-- `W_span[1, 0]` as a scalar. -/
theorem wsp1_at (x10 : ArrWsp) (j : S_.Idx) :
    val_main_v72 (F := Ideal) x10 j = x10 (ix2 (1 : Fin 2) (0 : Fin 1)) := by
  have e : idx_main_v71 (ix2 (0 : Fin 1) (0 : Fin 1)) = ix2 (1 : Fin 2) (0 : Fin 1) := funext fun a => by
    match a with
    | ⟨0, _⟩ => rfl
    | ⟨1, _⟩ => rfl
  have h : val_main_v72 (F := Ideal) x10 j = val_main_v71 (F := Ideal) x10 (ix2 (0 : Fin 1) (0 : Fin 1)) :=
    cast_1x1 _ j
  rw [h, val_main_v71_apply, e]

/-- `b_span[0]` as a scalar. -/
theorem bsp_at (x11 : ArrB1) (j : S_.Idx) : val_main_v80 (F := Ideal) x11 j = x11 (ix1 (0 : Fin 1)) :=
  cast_1 _ j

/-- The pair's logit `s_i + e_j + b`. -/
theorem logit_at (x0 : ArrX) (x8 : ArrWys) (x9 : ArrB1) (x10 : ArrWsp) (x11 : ArrB1)
    (b : Fin 8) (l : Fin 16) (i j : Fin 512) :
    val_main_v82 (F := Ideal) x0 x8 x9 x10 x11 (ix4 b l i j)
      = (tokLogit x0 x8 x9 b l i * x10 (ix2 0 0) + tokLogit x0 x8 x9 b l j * x10 (ix2 1 0)) + x11 (ix1 0) := by
  have e1 : idx_main_v75 (idx_main_v77 (ix4 b l i j)) = ix3 b l i := funext fun a => by
    match a with
    | ⟨0, _⟩ => rfl
    | ⟨1, _⟩ => rfl
    | ⟨2, _⟩ => rfl
  have e2 : idx_main_v76 (idx_main_v78 (ix4 b l i j)) = ix3 b l j := funext fun a => by
    match a with
    | ⟨0, _⟩ => rfl
    | ⟨1, _⟩ => rfl
    | ⟨2, _⟩ => rfl
  rw [val_main_v82_apply, val_main_v79_apply, val_main_v77_apply, val_main_v75_apply, e1, val_main_v78_apply,
    val_main_v76_apply, e2, val_main_v70_apply, val_main_v74_apply, val_main_v69_apply, val_main_v73_apply,
    val_main_v81_apply, wsp0_at, wsp1_at, bsp_at, tok_at, tok_at]
  rfl

/-- The pair's probability. -/
theorem pair_prob_at (x0 : ArrX) (x8 : ArrWys) (x9 : ArrB1) (x10 : ArrWsp) (x11 : ArrB1)
    (b : Fin 8) (l : Fin 16) (i j : Fin 512) :
    val_main_v88 (F := Ideal) x0 x8 x9 x10 x11 (ix4 b l i j) = spanProb x0 x8 x9 x10 x11 b l i j := by
  rw [val_main_v88_apply, val_main_v87_apply, val_main_cst_14_apply, val_main_v86_apply, val_main_v85_apply,
    val_main_cst_13_apply, val_main_v84_apply, val_main_v83_apply, logit_at]
  rfl

/-! ## The four factors of the prediction -/

/-- The thresholded pair table at an index is "above one half" of the probability there. -/
theorem pair_thresh_at (x0 : ArrX) (x8 : ArrWys) (x9 : ArrB1) (x10 : ArrWsp) (x11 : ArrB1) (q : S8x16x512x512.Idx) :
    val_main_v99 (F := Ideal) x0 x8 x9 x10 x11 q = gtHalf (val_main_v88 (F := Ideal) x0 x8 x9 x10 x11 q) := by
  rw [val_main_v99_apply, val_main_v98_apply, val_main_v97_apply, val_main_cst_15_apply]
  rfl

/-- The start prediction, repeated along the columns. -/
theorem row_pred_at (x0 : ArrX) (x5 : ArrLen) (x6 : ArrWse) (x7 : ArrBse) (b : Fin 8) (l : Fin 16) (i j : Fin 512) :
    val_main_v101 (F := Ideal) x0 x5 x6 x7 (ix4 b l i j) = sePred x0 x5 x6 x7 b l i 0 := by
  have e : idx_main_v100 (idx_main_v101 (ix4 b l i j)) = ix3 b l i := funext fun a => by
    match a with
    | ⟨0, _⟩ => rfl
    | ⟨1, _⟩ => rfl
    | ⟨2, _⟩ => rfl
  rw [val_main_v101_apply, val_main_v100_apply, e, ref_startPred]

/-- The end prediction, repeated along the rows. -/
theorem col_pred_at (x0 : ArrX) (x5 : ArrLen) (x6 : ArrWse) (x7 : ArrBse) (b : Fin 8) (l : Fin 16) (i j : Fin 512) :
    val_main_v104 (F := Ideal) x0 x5 x6 x7 (ix4 b l i j) = sePred x0 x5 x6 x7 b l j 1 := by
  have e : idx_main_v103 (idx_main_v104 (ix4 b l i j)) = ix3 b l j := funext fun a => by
    match a with
    | ⟨0, _⟩ => rfl
    | ⟨1, _⟩ => rfl
    | ⟨2, _⟩ => rfl
  rw [val_main_v104_apply, val_main_v103_apply, e, ref_endPred]

/-- The upper-triangle indicator, repeated over the sentences. -/
theorem triu_at (b : Fin 8) (l : Fin 16) (i j : Fin 512) :
    val_main_v107 (F := Ideal) (ix4 b l i j) = triu i j := by
  rw [val_main_v107_apply, val_main_v106_apply, val_main_v96_apply, val_main_v95_apply, val_main_v93_apply,
    val_main_v90_apply, val_main_v89_apply, val_main_v94_apply, val_main_v92_apply, val_main_v91_apply]
  rfl

/-- `span_pred` at a token pair. -/
theorem span_pred_at (x0 : ArrX) (x5 : ArrLen) (x6 : ArrWse) (x7 : ArrBse) (x8 : ArrWys) (x9 : ArrB1) (x10 : ArrWsp)
    (x11 : ArrB1) (b : Fin 8) (l : Fin 16) (i j : Fin 512) :
    val_main_v108 (F := Ideal) x0 x5 x6 x7 x8 x9 x10 x11 (ix4 b l i j)
      = spanPred x0 x5 x6 x7 x8 x9 x10 x11 b l i j := by
  rw [val_main_v108_apply, val_main_v105_apply, val_main_v102_apply, pair_thresh_at, pair_prob_at, row_pred_at,
    col_pred_at, triu_at]
  rfl

/-- `span_pred`. -/
theorem ref_spanPred (x0 : ArrX) (x5 : ArrLen) (x6 : ArrWse) (x7 : ArrBse) (x8 : ArrWys) (x9 : ArrB1) (x10 : ArrWsp)
    (x11 : ArrB1) :
    val_main_v108 (F := Ideal) x0 x5 x6 x7 x8 x9 x10 x11
      = fun i => spanPred x0 x5 x6 x7 x8 x9 x10 x11 (i 0) (i 1) (i 2) (i 3) := by
  funext q
  obtain ⟨b, l, i, j, rfl⟩ : ∃ (b : Fin 8) (l : Fin 16) (i j : Fin 512), q = ix4 b l i j :=
    ⟨q 0, q 1, q 2, q 3, eq_ix4 q⟩
  exact span_pred_at x0 x5 x6 x7 x8 x9 x10 x11 b l i j

end Cert.SpanHead.Ref

end
-- ==== Proof.RefValueC.lean ====
import proofs.«122283_j2963527434982_1_alg».proof.Proof.RefValueB
import proofs.«122283_j2963527434982_1_alg».proof.Proof.LibIdxSums

/-!
# The reference program, result by result: the three counts

Each count is the sum, over every sentence and every token pair, of the number `0` or `1` that a one-bit
condition on the pair's label and prediction converts to. The reference converts the bit by reading it as an
unsigned one-bit word; the specification widens it to 32 bits and reads that signed: the same number. The sum
over the index set of the pair table is the fourfold sum over its coordinates, and the sum's initial value is
the word of `0.0`.
-/

noncomputable section

namespace Cert.SpanHead.Ref

open Cert.ReferenceIdeal Cert.ReferenceIdeal.Gen Cert.ReferenceIdeal.Read Idealize.ShloMosaic
  Idealize.ShloMosaic.ValueIdx

/-- A one-bit word read unsigned is the number its 32-bit widening reads signed. -/
theorem uitofp_bit (c : BitVec 1) : FloatOps.uitofp (F := Ideal) .f32 c = ind c := by
  rcases BitVec.eq_zero_or_eq_one c with h | h <;> subst h <;> simp [ind, FloatOps.uitofp]

/-- A float sum of a pair table from the word `0.0`, when the table's element at every pair is `g`'s, is
    `g`'s total. -/
theorem sum_pairs (f : S8x16x512x512.Idx → EReal) (g : Fin 8 → Fin 16 → Fin 512 → Fin 512 → EReal)
    (h : ∀ b l i j, f (ix4 b l i j) = g b l i j) :
    Ideal.ofBits .f32 0x00000000#32 + ∑ q : S8x16x512x512.Idx, f q = total g := by
  rw [Ideal.ofBits_zero_f32, zero_add]
  refine (Cert.LibIdxSums.sum_idx4 (a := 8) (b := 16) (c := 512) (d := 512) f).trans ?_
  unfold total
  exact Finset.sum_congr rfl fun b _ => Finset.sum_congr rfl fun l _ => Finset.sum_congr rfl fun i _ =>
    Finset.sum_congr rfl fun j _ => h b l i j

/-! ## True positives -/

theorem tp_term_at (x0 : ArrX) (x3 : ArrPair) (x5 : ArrLen) (x6 : ArrWse) (x7 : ArrBse) (x8 : ArrWys) (x9 : ArrB1) (x10 : ArrWsp) (x11 : ArrB1) (b : Fin 8) (l : Fin 16) (i j : Fin 512) :
    val_main_v143 (F := Ideal) x0 x3 x5 x6 x7 x8 x9 x10 x11 (ix4 b l i j) = tpTerm x0 x3 x5 x6 x7 x8 x9 x10 x11 b l i j := by
  rw [val_main_v143_apply, val_main_v142_apply, val_main_v139_apply, val_main_v138_apply, val_main_c_28_apply,
    val_main_v141_apply, val_main_v140_apply, val_main_c_29_apply, span_pred_at, uitofp_bit]
  rfl

/-- `tp`. -/
theorem ref_tp (x0 : ArrX) (x3 : ArrPair) (x5 : ArrLen) (x6 : ArrWse) (x7 : ArrBse) (x8 : ArrWys) (x9 : ArrB1) (x10 : ArrWsp) (x11 : ArrB1) :
    val_main_v144 (F := Ideal) x0 x3 x5 x6 x7 x8 x9 x10 x11 = fun _ => total (tpTerm x0 x3 x5 x6 x7 x8 x9 x10 x11) := by
  funext q
  rw [val_main_v144_apply, val_main_cst_30_apply]
  exact sum_pairs _ _ (tp_term_at x0 x3 x5 x6 x7 x8 x9 x10 x11)

/-! ## Missed positives -/

theorem tn_term_at (x0 : ArrX) (x3 : ArrPair) (x5 : ArrLen) (x6 : ArrWse) (x7 : ArrBse) (x8 : ArrWys) (x9 : ArrB1) (x10 : ArrWsp) (x11 : ArrB1) (b : Fin 8) (l : Fin 16) (i j : Fin 512) :
    val_main_v150 (F := Ideal) x0 x3 x5 x6 x7 x8 x9 x10 x11 (ix4 b l i j) = tnTerm x0 x3 x5 x6 x7 x8 x9 x10 x11 b l i j := by
  rw [val_main_v150_apply, val_main_v149_apply, val_main_v146_apply, val_main_v145_apply, val_main_c_31_apply,
    val_main_v148_apply, val_main_v147_apply, val_main_c_32_apply, span_pred_at, uitofp_bit]
  rfl

/-- `tn`. -/
theorem ref_tn (x0 : ArrX) (x3 : ArrPair) (x5 : ArrLen) (x6 : ArrWse) (x7 : ArrBse) (x8 : ArrWys) (x9 : ArrB1) (x10 : ArrWsp) (x11 : ArrB1) :
    val_main_v151 (F := Ideal) x0 x3 x5 x6 x7 x8 x9 x10 x11 = fun _ => total (tnTerm x0 x3 x5 x6 x7 x8 x9 x10 x11) := by
  funext q
  rw [val_main_v151_apply, val_main_cst_33_apply]
  exact sum_pairs _ _ (tn_term_at x0 x3 x5 x6 x7 x8 x9 x10 x11)

/-! ## False positives -/

theorem fp_term_at (x0 : ArrX) (x3 : ArrPair) (x5 : ArrLen) (x6 : ArrWse) (x7 : ArrBse) (x8 : ArrWys) (x9 : ArrB1) (x10 : ArrWsp) (x11 : ArrB1) (b : Fin 8) (l : Fin 16) (i j : Fin 512) :
    val_main_v157 (F := Ideal) x0 x3 x5 x6 x7 x8 x9 x10 x11 (ix4 b l i j) = fpTerm x0 x3 x5 x6 x7 x8 x9 x10 x11 b l i j := by
  rw [val_main_v157_apply, val_main_v156_apply, val_main_v153_apply, val_main_v152_apply, val_main_c_34_apply,
    val_main_v155_apply, val_main_v154_apply, val_main_c_35_apply, span_pred_at, uitofp_bit]
  rfl

/-- `fp`. -/
theorem ref_fp (x0 : ArrX) (x3 : ArrPair) (x5 : ArrLen) (x6 : ArrWse) (x7 : ArrBse) (x8 : ArrWys) (x9 : ArrB1) (x10 : ArrWsp) (x11 : ArrB1) :
    val_main_v158 (F := Ideal) x0 x3 x5 x6 x7 x8 x9 x10 x11 = fun _ => total (fpTerm x0 x3 x5 x6 x7 x8 x9 x10 x11) := by
  funext q
  rw [val_main_v158_apply, val_main_cst_36_apply]
  exact sum_pairs _ _ (fp_term_at x0 x3 x5 x6 x7 x8 x9 x10 x11)

end Cert.SpanHead.Ref

end
-- ==== Proof.RefValueD.lean ====
import proofs.«122283_j2963527434982_1_alg».proof.Proof.RefValueC

/-!
# The reference program, result by result: the span loss

The pair's focal term, computed with squares by `pow · 2` on a logistic value and so equal to the
specification's term with products, is weighted by `val` as a number and summed over the pair table; the
divisor is the sum of `val` plus `1e-7`.
-/

noncomputable section

namespace Cert.SpanHead.Ref

open Cert.ReferenceIdeal Cert.ReferenceIdeal.Gen Cert.ReferenceIdeal.Read Idealize.ShloMosaic
  Idealize.ShloMosaic.ValueIdx

/-- `val` as a number. -/
theorem val_at (x4 : ArrPair) (b : Fin 8) (l : Fin 16) (i j : Fin 512) :
    val_main_v109 (F := Ideal) x4 (ix4 b l i j) = valF x4 b l i j := rfl

/-- A pair's weighted focal term. -/
theorem span_term_at (x0 : ArrX) (x3 x4 : ArrPair) (x8 : ArrWys) (x9 : ArrB1) (x10 : ArrWsp) (x11 : ArrB1) (b : Fin 8) (l : Fin 16) (i j : Fin 512) :
    val_main_v135 (F := Ideal) x0 x3 x4 x8 x9 x10 x11 (ix4 b l i j) = spanTerm x0 x3 x4 x8 x9 x10 x11 b l i j := by
  rw [val_main_v135_apply, val_main_v134_apply, val_main_v133_apply, val_main_v132_apply, val_main_c_26_apply,
    val_main_v121_apply, val_main_v117_apply, val_main_v116_apply, val_main_cst_20_apply, val_main_v115_apply,
    val_main_v113_apply, val_main_v112_apply, val_main_cst_18_apply, val_main_v114_apply, val_main_cst_19_apply,
    val_main_v120_apply, val_main_v119_apply, val_main_v118_apply, val_main_cst_21_apply, val_main_v131_apply,
    val_main_v125_apply, val_main_v124_apply, val_main_cst_23_apply, val_main_v123_apply, val_main_v122_apply,
    val_main_cst_22_apply, val_main_v130_apply, val_main_v129_apply, val_main_v127_apply, val_main_v126_apply,
    val_main_cst_24_apply, val_main_v128_apply, val_main_cst_25_apply, val_main_v109_apply, pair_prob_at]
  unfold spanTerm spanProb
  rw [← focal_pow]
  rfl

/-- `span_loss`. -/
theorem ref_spanLoss (x0 : ArrX) (x3 x4 : ArrPair) (x8 : ArrWys) (x9 : ArrB1) (x10 : ArrWsp) (x11 : ArrB1) :
    val_main_v137 (F := Ideal) x0 x3 x4 x8 x9 x10 x11 = fun _ => spanLoss x0 x3 x4 x8 x9 x10 x11 := by
  funext q
  rw [val_main_v137_apply, val_main_v136_apply, val_main_cst_27_apply, val_main_v111_apply, val_main_v110_apply,
    val_main_cst_16_apply, val_main_cst_17_apply]
  simp only [Ideal.ofBits_def]
  rw [sum_pairs (val_main_v135 (F := Ideal) x0 x3 x4 x8 x9 x10 x11) (spanTerm x0 x3 x4 x8 x9 x10 x11) (span_term_at x0 x3 x4 x8 x9 x10 x11),
    sum_pairs (val_main_v109 (F := Ideal) x4) (valF x4) (val_at x4)]
  rfl

end Cert.SpanHead.Ref

end
-- ==== Proof.RefValueE.lean ====
import proofs.«122283_j2963527434982_1_alg».proof.Proof.RefValue
import proofs.«122283_j2963527434982_1_alg».proof.Proof.LibIdxSums

/-!
# The reference program, result by result: the start/end loss

The focal term is computed on the joined `[8, 32, 512]` arrays: rows below 16 pair the start labels with the
start probabilities, rows from 16 on the end labels with the end probabilities. Every probability there is a
logistic value, so the reference's squares by `pow · 2` are products. The term is weighted by the length
mask as a number and summed over the joined array; splitting the 32 rows into the two halves and regrouping
gives, sentence by sentence, the start tokens' sum plus the end tokens' sum. The divisor is the sum of the
mask over `[8, 512]` times `32`.
-/

noncomputable section

namespace Cert.SpanHead.Ref

open Cert.ReferenceIdeal Cert.ReferenceIdeal.Gen Cert.ReferenceIdeal.Read Idealize.ShloMosaic
  Idealize.ShloMosaic.ValueIdx

/-! ## The mask as a number -/

/-- The length mask on `[8, 512]`. -/
theorem mask2_at (x5 : ArrLen) (b : Fin 8) (n : Fin 512) :
    val_main_v24 (F := Ideal) x5 (ix2 b n) = maskI x5 b n := by
  have e : idx_main_v20 (idx_main_v22 (ix2 b n)) = ix1 b := funext fun a => by
    match a with
    | ⟨0, _⟩ => rfl
  rw [val_main_v24_apply, val_main_v23_apply, val_main_v21_apply, val_main_v19_apply, val_main_v18_apply,
    val_main_v22_apply, val_main_v20_apply, e]
  rfl

/-- … converted to a number … -/
theorem maskf2_at (x5 : ArrLen) (b : Fin 8) (n : Fin 512) :
    val_main_v31 (F := Ideal) x5 (ix2 b n) = maskF x5 b n := by
  rw [val_main_v31_apply, mask2_at]
  rfl

/-- … and repeated over the 32 rows. -/
theorem maskf_at (x5 : ArrLen) (b : Fin 8) (l' : Fin 32) (n : Fin 512) :
    val_main_v56 (F := Ideal) x5 (ix3 b l' n) = maskF x5 b n := by
  have e : idx_main_v55 (idx_main_v56 (ix3 b l' n)) = ix2 b n := funext fun a => by
    match a with
    | ⟨0, _⟩ => rfl
    | ⟨1, _⟩ => rfl
  rw [val_main_v56_apply, val_main_v55_apply, e, maskf2_at]

/-! ## The focal term on the joined arrays -/

/-- Where the joined label is `y` and the joined probability a logistic value, the selected term is the
    specification's focal term: the squares by `pow · 2` are products there. -/
theorem focal_joined_at (x0 : ArrX) (x1 x2 : ArrTok) (x6 : ArrWse) (x7 : ArrBse) (j : S8x32x512.Idx)
    (y : BitVec 32) (z : EReal) (hy : val_main_v30 (F := Ideal) x1 x2 j = y)
    (hp : val_main_v14 (F := Ideal) x0 x6 x7 j = sg z) :
    val_main_v54 (F := Ideal) x0 x1 x2 x6 x7 j = focal y (sg z) := by
  rw [val_main_v54_apply, val_main_v53_apply, val_main_v52_apply, val_main_c_apply, val_main_v41_apply,
    val_main_v37_apply, val_main_v36_apply, val_main_cst_4_apply, val_main_v35_apply, val_main_v33_apply,
    val_main_v32_apply, val_main_cst_2_apply, val_main_v34_apply, val_main_cst_3_apply, val_main_v40_apply,
    val_main_v39_apply, val_main_v38_apply, val_main_cst_5_apply, val_main_v51_apply, val_main_v45_apply,
    val_main_v44_apply, val_main_cst_7_apply, val_main_v43_apply, val_main_v42_apply, val_main_cst_6_apply,
    val_main_v50_apply, val_main_v49_apply, val_main_v47_apply, val_main_v46_apply, val_main_cst_8_apply,
    val_main_v48_apply, val_main_cst_9_apply, hy, hp, ← focal_pow]
  rfl

/-- A row below 16 of the weighted term is a start token's term. -/
theorem se_term_fst (x0 : ArrX) (x1 x2 : ArrTok) (x5 : ArrLen) (x6 : ArrWse) (x7 : ArrBse)
    (b : Fin 8) (l : Fin 16) (n : Fin 512) :
    val_main_v57 (F := Ideal) x0 x1 x2 x5 x6 x7 (ix3 b (⟨l.val, by have := l.isLt; omega⟩ : Fin 32) n)
      = seTerm x0 x1 x5 x6 x7 0 b l n := by
  rw [val_main_v57_apply, maskf_at,
    focal_joined_at x0 x1 x2 x6 x7 _ (x1 (ix3 b l n)) (seLogit x0 x6 x7 b l n 0) (cat_fst x1 x2 b l n)
      (joined_fst x0 x6 x7 b l n)]
  rfl

/-- A row from 16 on is an end token's term. -/
theorem se_term_snd (x0 : ArrX) (x1 x2 : ArrTok) (x5 : ArrLen) (x6 : ArrWse) (x7 : ArrBse)
    (b : Fin 8) (l : Fin 16) (n : Fin 512) :
    val_main_v57 (F := Ideal) x0 x1 x2 x5 x6 x7 (ix3 b (⟨16 + l.val, by have := l.isLt; omega⟩ : Fin 32) n)
      = seTerm x0 x2 x5 x6 x7 1 b l n := by
  rw [val_main_v57_apply, maskf_at,
    focal_joined_at x0 x1 x2 x6 x7 _ (x2 (ix3 b l n)) (seLogit x0 x6 x7 b l n 1) (cat_snd x1 x2 b l n)
      (joined_snd x0 x6 x7 b l n)]
  rfl

/-! ## The sums -/

/-- A sum over 32 rows is the sum over the first 16 plus the sum over the last 16. -/
theorem sum_fin32 (f : Fin 32 → EReal) :
    ∑ l' : Fin 32, f l' = (∑ l : Fin 16, f (⟨l.val, by have := l.isLt; omega⟩ : Fin 32))
      + ∑ l : Fin 16, f (⟨16 + l.val, by have := l.isLt; omega⟩ : Fin 32) :=
  Fin.sum_univ_add (a := 16) (b := 16) f

/-- A sum over a joined `[8, 32, 512]` array whose rows below 16 are `g0`'s and whose rows from 16 on are `g1`'s
    is, sentence by sentence, `g0`'s sum over the tokens plus `g1`'s. -/
theorem sum_joined (F : S8x32x512.Idx → EReal) (g0 g1 : Fin 8 → Fin 16 → Fin 512 → EReal)
    (h0 : ∀ (b : Fin 8) (l : Fin 16) (n : Fin 512),
      F (ix3 b (⟨l.val, by have := l.isLt; omega⟩ : Fin 32) n) = g0 b l n)
    (h1 : ∀ (b : Fin 8) (l : Fin 16) (n : Fin 512),
      F (ix3 b (⟨16 + l.val, by have := l.isLt; omega⟩ : Fin 32) n) = g1 b l n) :
    ∑ j : S8x32x512.Idx, F j
      = ∑ b : Fin 8, ∑ l : Fin 16, ((∑ n : Fin 512, g0 b l n) + ∑ n : Fin 512, g1 b l n) := by
  refine (Cert.LibIdxSums.sum_idx3 (a := 8) (b := 32) (c := 512) F).trans ?_
  refine Finset.sum_congr rfl fun b _ => ?_
  refine (sum_fin32 fun l' : Fin 32 => ∑ n : Fin 512, F (ix3 b l' n)).trans ?_
  rw [← Finset.sum_add_distrib]
  refine Finset.sum_congr rfl fun l _ => ?_
  simp only [h0, h1]

/-- The numerator: the weighted term summed over the joined array is the specification's sentence-by-sentence
    sum. -/
theorem se_num_eq (x0 : ArrX) (x1 x2 : ArrTok) (x5 : ArrLen) (x6 : ArrWse) (x7 : ArrBse) :
    Ideal.ofBits .f32 0x00000000#32 + ∑ j : S8x32x512.Idx, val_main_v57 (F := Ideal) x0 x1 x2 x5 x6 x7 j
      = seNum x0 x1 x2 x5 x6 x7 := by
  rw [Ideal.ofBits_zero_f32, zero_add]
  exact sum_joined (val_main_v57 (F := Ideal) x0 x1 x2 x5 x6 x7) (seTerm x0 x1 x5 x6 x7 0) (seTerm x0 x2 x5 x6 x7 1)
    (se_term_fst x0 x1 x2 x5 x6 x7) (se_term_snd x0 x1 x2 x5 x6 x7)

/-- The divisor's sum: the mask summed over `[8, 512]`. -/
theorem se_den_eq (x5 : ArrLen) :
    Ideal.ofBits .f32 0x00000000#32 + ∑ j : S8x512.Idx, val_main_v31 (F := Ideal) x5 j
      = ∑ b : Fin 8, ∑ n : Fin 512, maskF x5 b n := by
  rw [Ideal.ofBits_zero_f32, zero_add]
  refine (sum_idx2 (n0 := 8) (n1 := 512) (val_main_v31 (F := Ideal) x5)).trans ?_
  exact Finset.sum_congr rfl fun b _ => Finset.sum_congr rfl fun n _ => maskf2_at x5 b n

/-- `se_loss`. -/
theorem ref_seLoss (x0 : ArrX) (x1 x2 : ArrTok) (x5 : ArrLen) (x6 : ArrWse) (x7 : ArrBse) :
    val_main_v61 (F := Ideal) x0 x1 x2 x5 x6 x7
      = fun _ => Ideal.div (seNum x0 x1 x2 x5 x6 x7) ((∑ b : Fin 8, ∑ n : Fin 512, maskF x5 b n) * c32) := by
  funext q
  rw [val_main_v61_apply, val_main_v58_apply, val_main_cst_10_apply, val_main_v60_apply, val_main_v59_apply,
    val_main_cst_11_apply, val_main_cst_12_apply]
  simp only [Ideal.ofBits_def]
  rw [se_num_eq, se_den_eq]
  rfl

end Cert.SpanHead.Ref

end
-- ==== Proof.lean ====
/-
  The span-extraction head: a Pallas kernel over a grid of 8 × 16 sentences against its jnp reference, on the extended reals.

  Per sentence of 512 tokens with 768 features the two programs compute the same eight results: the integer arrays
  span_pred, start_pred, end_pred; the counts tp, tn, fp; and the two focal losses se_loss and span_loss. They differ in
  how they get there, and each difference is one law:

  * the kernel multiplies a probability by itself where the reference raises it to the power 2.0 — equal because a
    logistic value 1 / (1 + e^(-z)) is a real number at every extended real z (Spec.focal_pow);
  * the kernel reduces per sentence, repeats each per-sentence statistic over 128 lanes, and lets the host add the
    tiles over sentences and lanes and divide by 128, where the reference adds over the whole arrays — equal because
    addition of extended reals is commutative and associative and 128 copies of c, divided by 128, are c, at
    infinite values too (LibIdxSums.lane_avg, sum_idx3, sum_idx4); the start and end halves of the reference's
    concatenated [8, 32, 512] arrays are the kernel's two per-sentence sums;
  * se_loss's denominator is 32 times the lengths added up as integers in the kernel, and 32 times the number of
    unmasked tokens in the reference — equal when every length lies in [0, 512], the padded sentence length
    (Lengths.mask_total, Lengths.sitofp_reduce_len); this is the one use of the precondition, whose float
    conjuncts (finiteness) no law here needs.

  The kernel side reads the generated frame run: each grid point's stores as compositions of the body's arithmetic
  (KernelPieces), that arithmetic at an index (KernelBlockA–D), each block's place in its array (KernelAt,
  KernelHostPre), the four output arrays after the run (KernelArrays, KernelArrays15, KernelStats), and the host
  lines after the launch (KernelTailA, KernelTailB, KernelRun). The reference side reads the generated run one
  operation at a time (RefValue, RefValueB–E). Both sides end at the same terms of Spec.lean.
-/
import proofs.«122283_j2963527434982_1_alg».proof.Defs
import proofs.«122283_j2963527434982_1_alg».proof.Proof.Gen.Kernel
import proofs.«122283_j2963527434982_1_alg».proof.Proof.Gen.Kernel.Skeleton
import proofs.«122283_j2963527434982_1_alg».proof.Proof.Gen.Kernel.Launch
import proofs.«122283_j2963527434982_1_alg».proof.Proof.Gen.Kernel.Points
import proofs.«122283_j2963527434982_1_alg».proof.Proof.Gen.Kernel.Frame
import proofs.«122283_j2963527434982_1_alg».proof.Proof.Gen.KernelIdeal
import proofs.«122283_j2963527434982_1_alg».proof.Proof.Gen.KernelIdeal.Skeleton
import proofs.«122283_j2963527434982_1_alg».proof.Proof.Gen.KernelIdeal.Launch
import proofs.«122283_j2963527434982_1_alg».proof.Proof.Gen.KernelIdeal.Points
import proofs.«122283_j2963527434982_1_alg».proof.Proof.Gen.KernelIdeal.Frame
import proofs.«122283_j2963527434982_1_alg».proof.Proof.Gen.ReferenceIdeal
import proofs.«122283_j2963527434982_1_alg».proof.Proof.Gen.ReferenceIdeal.Run
import proofs.«122283_j2963527434982_1_alg».proof.Proof.Gen.ReferenceIdeal.Read
import proofs.«122283_j2963527434982_1_alg».proof.Proof.Gen.Pre_finite_inputs
import proofs.«122283_j2963527434982_1_alg».proof.Proof.Spec
import proofs.«122283_j2963527434982_1_alg».proof.Proof.Lengths
import proofs.«122283_j2963527434982_1_alg».proof.Proof.PreLen
import proofs.«122283_j2963527434982_1_alg».proof.Proof.KernelRun
import proofs.«122283_j2963527434982_1_alg».proof.Proof.KernelArrays15
import proofs.«122283_j2963527434982_1_alg».proof.Proof.RefValue
import proofs.«122283_j2963527434982_1_alg».proof.Proof.RefValueB
import proofs.«122283_j2963527434982_1_alg».proof.Proof.RefValueC
import proofs.«122283_j2963527434982_1_alg».proof.Proof.RefValueD
import proofs.«122283_j2963527434982_1_alg».proof.Proof.RefValueE
import Idealize.ShloMosaic.Adequacy
import Idealize.ShloMosaic.Init

noncomputable section

namespace Cert.Proof

open Idealize.ShloMosaic Idealize.SL.Sem Cert.SpanHead

/-- The word-level kernel program runs and leaves its arguments unchanged: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference has no kernel: its frame is its generated run with the eight results dropped. -/
theorem frame_ri : Cert.frame_ReferenceIdeal := fun m ρ _ =>
  (θ_run Cert.ReferenceIdeal.defs _ _).mono (fun _ h c => (h c).2.2.2.2.2.2.2.2)
    (Cert.ReferenceIdeal.Value.run (F := Ideal) m ρ)

/-- From memories that agree on the arguments, with every length in `[0, 512]`, the two idealized programs end with
    the same eight results: each is the specification's function of the arguments. -/
theorem algebraic : Cert.algebraic_KernelIdeal_ReferenceIdeal := by
  intro m ρ m' ρ' hpre hagree
  have hl : ∀ c, LenOk (Arr.aLen m c) := fun c => lenOk_of_pre _ _ _ _ _ _ _ _ _ _ _ _ (hpre c)
  refine ⟨fun c => Arr.G12 m c,
    fun c => (fun i => sePred (Arr.aX m c) (Arr.aLen m c) (Arr.aWse m c) (Arr.aBse m c) (i 0) (i 1) (i 2) 0),
    fun c => (fun i => sePred (Arr.aX m c) (Arr.aLen m c) (Arr.aWse m c) (Arr.aBse m c) (i 0) (i 1) (i 2) 1),
    fun c => (fun _ => total (tpTerm (Arr.aX m c) (Arr.aSpan m c) (Arr.aLen m c) (Arr.aWse m c) (Arr.aBse m c) (Arr.aWys m c) (Arr.aBys m c) (Arr.aWsp m c) (Arr.aBsp m c))),
    fun c => (fun _ => total (tnTerm (Arr.aX m c) (Arr.aSpan m c) (Arr.aLen m c) (Arr.aWse m c) (Arr.aBse m c) (Arr.aWys m c) (Arr.aBys m c) (Arr.aWsp m c) (Arr.aBsp m c))),
    fun c => (fun _ => total (fpTerm (Arr.aX m c) (Arr.aSpan m c) (Arr.aLen m c) (Arr.aWse m c) (Arr.aBse m c) (Arr.aWys m c) (Arr.aBys m c) (Arr.aWsp m c) (Arr.aBsp m c))),
    fun c => (fun _ => seLoss (Arr.aX m c) (Arr.aStart m c) (Arr.aEnd m c) (Arr.aLen m c) (Arr.aWse m c) (Arr.aBse m c)),
    fun c => (fun _ => spanLoss (Arr.aX m c) (Arr.aSpan m c) (Arr.aVal m c) (Arr.aWys m c) (Arr.aBys m c) (Arr.aWsp m c) (Arr.aBsp m c)),
    Run.run m ρ (Arr15.final15 m) hl, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  obtain ⟨r0, r1, r2, r3, r4, r5, r6, r7, k⟩ := h c
  refine ⟨r0.trans ((Cert.ReferenceIdeal.Read.val_main_v108_eq m' c).trans ?_),
    r1.trans ((Cert.ReferenceIdeal.Read.val_main_v28_eq _ _ _ _).trans ?_),
    r2.trans ((Cert.ReferenceIdeal.Read.val_main_v29_eq _ _ _ _).trans ?_),
    r3.trans ((Cert.ReferenceIdeal.Read.val_main_v144_eq m' c).trans ?_),
    r4.trans ((Cert.ReferenceIdeal.Read.val_main_v151_eq m' c).trans ?_),
    r5.trans ((Cert.ReferenceIdeal.Read.val_main_v158_eq m' c).trans ?_),
    r6.trans ((Cert.ReferenceIdeal.Read.val_main_v61_eq m' c).trans ?_),
    r7.trans ((Cert.ReferenceIdeal.Read.val_main_v137_eq m' c).trans ?_), k⟩
  · rw [a0, a5, a6, a7, a8, a9, a10, a11, Ref.ref_spanPred]; rfl
  · rw [a0, a5, a6, a7, Ref.ref_startPred]; rfl
  · rw [a0, a5, a6, a7, Ref.ref_endPred]; rfl
  · rw [a0, a3, a5, a6, a7, a8, a9, a10, a11, Ref.ref_tp]; rfl
  · rw [a0, a3, a5, a6, a7, a8, a9, a10, a11, Ref.ref_tn]; rfl
  · rw [a0, a3, a5, a6, a7, a8, a9, a10, a11, Ref.ref_fp]; rfl
  · rw [a0, a1, a2, a5, a6, a7, Ref.ref_seLoss, mask_total _ (hl c)]; rfl
  · rw [a0, a3, a4, a8, a9, a10, a11, Ref.ref_spanLoss]; rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
